-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v87_0)) (v1 : (c : Dev Cert.KernelIdeal.nD) → Buf (Elt Ideal) ((c.tc : Thread Cert.KernelIdeal.nD Cert.KernelIdeal.τ).loc Cert.KernelIdeal.main_v88)) (v2 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_0) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_v89) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x64 : Shape := ⟨2, ![300000, 64]⟩
abbrev S300000 : Shape := ⟨1, ![300000]⟩
abbrev S192x64 : Shape := ⟨2, ![192, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x1 : Shape := ⟨2, ![64, 1]⟩
abbrev S2x3000000 : Shape := ⟨2, ![2, 3000000]⟩
abbrev S_ : Shape := ⟨0, ![]⟩

class Facts : Prop where
  bcast_S_S300000x64 : S_.BroadcastsInDim S300000x64 (![] : Fin 0 → Fin S300000x64.rank)
  reducesTo_S300000x64_S_d0_1 : S300000x64.ReducesTo [0, 1] S_
  h_S_ : 0 < S_.numel
  bcast_S_S300000 : S_.BroadcastsInDim S300000 (![] : Fin 0 → Fin S300000.rank)
  reducesTo_S300000_S_d0 : S300000.ReducesTo [0] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S64x1 : S_.BroadcastsInDim S64x1 (![] : Fin 0 → Fin S64x1.rank)
  reducesTo_S64x1_S_d0_1 : S64x1.ReducesTo [0, 1] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S1 .f32) (main_arg8 : FVec F S192x64 .f32) (main_arg9 : FVec F S64 .f32) (main_arg10 : FVec F S64x1 .f32) (main_arg11 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S192x64 .f32 := Host.absf main_arg8
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S64x32 .f32) (main_arg5 : FVec F S32 .f32) (main_arg6 : FVec F S32x1 .f32) (main_arg7 : FVec F S1 .f32) (main_arg8 : FVec F S192x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg6
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S300000x64 .f32) (main_arg1 : FVec F S300000 .f32) (main_arg2 : FVec F S192x64 .f32) (main_arg3 : FVec F S64 .f32) (main_arg4 : FVec F S64x32 .f32) (main_arg5 : FVec F S32 .f32) (main_arg6 : FVec F S32x1 .f32) (main_arg7 : FVec F S1 .f32) (main_arg8 : FVec F S192x64 .f32) (main_arg9 : FVec F S64 .f32) (main_arg10 : FVec F S64x1 .f32) (main_arg11 : FVec F S1 .f32) (main_arg12 : IVec S2x3000000 32) (main_arg13 : IVec S300000 32) : IVec S_ 1 :=
  let main_v0 : FVec F S300000x64 .f32 := Host.absf main_arg0
  let main_cst : FVec F S_ .f32 := constant S_ .f32 0x7F800000#32
  let main_v1 : FVec F S300000x64 .f32 := broadcastInDim S300000x64 ![] bcast_S_S300000x64 main_cst
  let main_v2 : IVec S300000x64 1 := cmpf .olt main_v0 main_v1
  let main_c : IVec S_ 1 := constantI S_ 1 1#1
  let main_v3 : IVec S_ 1 := (fun x v => Host.reduce IntOp.andi x v reducesTo_S300000x64_S_d0_1 h_S_) main_v2 main_c
  let main_v4 : FVec F S300000 .f32 := Host.absf main_arg1
  let main_cst_0 : FVec F S_ .f32 := constant S_ .f32 0x7F800000#32
  let main_v5 : FVec F S300000 .f32 := broadcastInDim S300000 ![] bcast_S_S300000 main_cst_0
  let main_v6 : IVec S300000 1 := cmpf .olt main_v4 main_v5
  let main_c_1 : IVec S_ 1 := constantI S_ 1 1#1
  let main_v7 : IVec S_ 1 := (fun x v => Host.reduce IntOp.andi x v reducesTo_S300000_S_d0 h_S_) main_v6 main_c_1
  let main_v8 : IVec S_ 1 := andi main_v3 main_v7
  let main_v9 : FVec F S192x64 .f32 := Host.absf main_arg2
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S300000x64 : Shape := ⟨2, ![300000, 64]⟩
abbrev S300000 : Shape := ⟨1, ![300000]⟩
abbrev S192x64 : Shape := ⟨2, ![192, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x1 : Shape := ⟨2, ![64, 1]⟩
abbrev S2x3000000 : Shape := ⟨2, ![2, 3000000]⟩
abbrev S1x3000000 : Shape := ⟨2, ![1, 3000000]⟩
abbrev S3000000 : Shape := ⟨1, ![3000000]⟩
abbrev S6000000 : Shape := ⟨1, ![6000000]⟩
abbrev S_ : Shape := ⟨0, ![]⟩
abbrev S6000000x1 : Shape := ⟨2, ![6000000, 1]⟩
abbrev S300000x1 : Shape := ⟨2, ![300000, 1]⟩
abbrev S1x64 : Shape := ⟨2, ![1, 64]⟩
abbrev S1x32 : Shape := ⟨2, ![1, 32]⟩
abbrev S1x1 : Shape := ⟨2, ![1, 1]⟩
abbrev S6000x64 : Shape := ⟨2, ![6000, 64]⟩
abbrev S6000x1 : Shape := ⟨2, ![6000, 1]⟩
abbrev S6000x192 : Shape := ⟨2, ![6000, 192]⟩
abbrev S6000x32 : Shape := ⟨2, ![6000, 32]⟩

abbrev nBuf : Space → Nat
  | .hbm => 140
  | .vmem => 27
  | .smem => 0
  | _ => 0

abbrev hbmTy0_0 (i : Nat) : BufTy := match i % 128 with
  | 0 => ⟨S300000x64, .f32⟩
  | 1 => ⟨S300000, .f32⟩
  | 2 => ⟨S192x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S192x64, .f32⟩
  | 9 => ⟨S64, .f32⟩
  | 10 => ⟨S64x1, .f32⟩
  | 11 => ⟨S1, .f32⟩
  | 12 => ⟨S2x3000000, .i32⟩
  | 13 => ⟨S300000, .i32⟩
  | 14 => ⟨S1x3000000, .i32⟩
  | 15 => ⟨S3000000, .i32⟩
  | 16 => ⟨S1x3000000, .i32⟩
  | 17 => ⟨S3000000, .i32⟩
  | 18 => ⟨S6000000, .i32⟩
  | 19 => ⟨S1x3000000, .i32⟩
  | 20 => ⟨S3000000, .i32⟩
  | 21 => ⟨S1x3000000, .i32⟩
  | 22 => ⟨S3000000, .i32⟩
  | 23 => ⟨S6000000, .i32⟩
  | 24 => ⟨S6000000, .i1⟩
  | 25 => ⟨S_, .i32⟩
  | 26 => ⟨S_, .i32⟩
  | 27 => ⟨S6000000, .i32⟩
  | 28 => ⟨S6000000, .i32⟩
  | 29 => ⟨S_, .i32⟩
  | 30 => ⟨S300000, .i32⟩
  | 31 => ⟨S6000000x1, .i32⟩
  | 32 => ⟨S300000, .i32⟩
  | 33 => ⟨S6000000, .i1⟩
  | 34 => ⟨S_, .i32⟩
  | 35 => ⟨S6000000, .i32⟩
  | 36 => ⟨S6000000, .i1⟩
  | 37 => ⟨S_, .i32⟩
  | 38 => ⟨S6000000, .i32⟩
  | 39 => ⟨S6000000, .i32⟩
  | 40 => ⟨S6000000, .i32⟩
  | 41 => ⟨S6000000x1, .i32⟩
  | 42 => ⟨S6000000, .i32⟩
  | 43 => ⟨S6000000, .i1⟩
  | 44 => ⟨S6000000, .i1⟩
  | 45 => ⟨S_, .i32⟩
  | 46 => ⟨S_, .i32⟩
  | 47 => ⟨S6000000, .i32⟩
  | 48 => ⟨S6000000, .i32⟩
  | 49 => ⟨S_, .i32⟩
  | 50 => ⟨S300000, .i32⟩
  | 51 => ⟨S6000000x1, .i32⟩
  | 52 => ⟨S300000, .i32⟩
  | 53 => ⟨S_, .i32⟩
  | 54 => ⟨S300000, .i32⟩
  | 55 => ⟨S300000, .i1⟩
  | 56 => ⟨S_, .i32⟩
  | 57 => ⟨S_, .i32⟩
  | 58 => ⟨S_, .i32⟩
  | 59 => ⟨S300000, .i32⟩
  | 60 => ⟨S300000, .i32⟩
  | 61 => ⟨S_, .i32⟩
  | 62 => ⟨S300000, .i32⟩
  | 63 => ⟨S300000, .i32⟩
  | 64 => ⟨S_, .i32⟩
  | 65 => ⟨S_, .i32⟩
  | 66 => ⟨S_, .i32⟩
  | 67 => ⟨S300000, .i32⟩
  | 68 => ⟨S300000, .i32⟩
  | 69 => ⟨S_, .i32⟩
  | 70 => ⟨S300000, .i32⟩
  | 71 => ⟨S300000, .i32⟩
  | 72 => ⟨S_, .i32⟩
  | 73 => ⟨S300000, .i32⟩
  | 74 => ⟨S300000, .i1⟩
  | 75 => ⟨S_, .i32⟩
  | 76 => ⟨S300000, .i32⟩
  | 77 => ⟨S300000, .i32⟩
  | 78 => ⟨S300000, .i32⟩
  | 79 => ⟨S300000x1, .i32⟩
  | 80 => ⟨S300000x64, .f32⟩
  | 81 => ⟨S_, .i32⟩
  | 82 => ⟨S300000, .i32⟩
  | 83 => ⟨S300000, .i1⟩
  | 84 => ⟨S_, .i32⟩
  | 85 => ⟨S300000, .i32⟩
  | 86 => ⟨S300000, .i32⟩
  | 87 => ⟨S300000, .i32⟩
  | 88 => ⟨S300000x1, .i32⟩
  | 89 => ⟨S300000x64, .f32⟩
  | 90 => ⟨S300000, .f32⟩
  | 91 => ⟨S300000, .f32⟩
  | 92 => ⟨S_, .i32⟩
  | 93 => ⟨S300000, .i32⟩
  | 94 => ⟨S300000, .i1⟩
  | 95 => ⟨S_, .i32⟩
  | 96 => ⟨S300000, .i32⟩
  | 97 => ⟨S300000, .i32⟩
  | 98 => ⟨S300000, .i32⟩
  | 99 => ⟨S300000x1, .i32⟩
  | 100 => ⟨S300000, .f32⟩
  | 101 => ⟨S300000, .f32⟩
  | 102 => ⟨S300000, .f32⟩
  | 103 => ⟨S_, .i32⟩
  | 104 => ⟨S300000, .i32⟩
  | 105 => ⟨S300000, .i1⟩
  | 106 => ⟨S_, .i32⟩
  | 107 => ⟨S300000, .i32⟩
  | 108 => ⟨S300000, .i32⟩
  | 109 => ⟨S300000, .i32⟩
  | 110 => ⟨S300000x1, .i32⟩
  | 111 => ⟨S300000, .f32⟩
  | 112 => ⟨S300000, .f32⟩
  | 113 => ⟨S300000, .f32⟩
  | 114 => ⟨S300000, .f32⟩
  | 115 => ⟨S300000, .f32⟩
  | 116 => ⟨S300000, .f32⟩
  | 117 => ⟨S300000, .f32⟩
  | 118 => ⟨S_, .i32⟩
  | 119 => ⟨S300000, .i32⟩
  | 120 => ⟨S300000, .i1⟩
  | 121 => ⟨S300000, .i1⟩
  | 122 => ⟨S300000x1, .f32⟩
  | 123 => ⟨S300000, .f32⟩
  | 124 => ⟨S300000x1, .f32⟩
  | 125 => ⟨S192x64, .bf16⟩
  | 126 => ⟨S64x32, .bf16⟩
  | 127 => ⟨S32x1, .bf16⟩
  | _ => ⟨S300000x64, .f32⟩

abbrev hbmTy0_1 (i : Nat) : BufTy := match i % 128 with
  | 0 => ⟨S192x64, .bf16⟩
  | 1 => ⟨S64x1, .bf16⟩
  | 2 => ⟨S1x64, .f32⟩
  | 3 => ⟨S1x32, .f32⟩
  | 4 => ⟨S1x1, .f32⟩
  | 5 => ⟨S1x64, .f32⟩
  | 6 => ⟨S1x1, .f32⟩
  | 7 => ⟨S300000x64, .f32⟩
  | 8 => ⟨S1x1, .f32⟩
  | 9 => ⟨S1x1, .f32⟩
  | 10 => ⟨S_, .f32⟩
  | 11 => ⟨S_, .f32⟩
  | _ => ⟨S300000x64, .f32⟩

abbrev hbmTy (i : Nat) : BufTy := match i / 128 with
  | 0 => hbmTy0_0 i
  | 1 => hbmTy0_1 i
  | _ => ⟨S300000x64, .f32⟩

abbrev bufTy : (tb : Table) → Fin (tcTables nBuf tb) → BufTy
  | .hbm, ⟨i, _⟩ => hbmTy i
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S6000x64, .f32⟩
  | .local _ .vmem, ⟨5, _⟩ => ⟨S6000x64, .f32⟩
  | .local _ .vmem, ⟨6, _⟩ => ⟨S6000x1, .f32⟩
  | .local _ .vmem, ⟨7, _⟩ => ⟨S6000x1, .f32⟩
  | .local _ .vmem, ⟨8, _⟩ => ⟨S6000x1, .f32⟩
  | .local _ .vmem, ⟨9, _⟩ => ⟨S6000x1, .f32⟩
  | .local _ .vmem, ⟨10, _⟩ => ⟨S192x64, .bf16⟩
  | .local _ .vmem, ⟨11, _⟩ => ⟨S1x64, .f32⟩
  | .local _ .vmem, ⟨12, _⟩ => ⟨S64x32, .bf16⟩
  | .local _ .vmem, ⟨13, _⟩ => ⟨S1x32, .f32⟩
  | .local _ .vmem, ⟨14, _⟩ => ⟨S32x1, .bf16⟩
  | .local _ .vmem, ⟨15, _⟩ => ⟨S1x1, .f32⟩
  | .local _ .vmem, ⟨16, _⟩ => ⟨S192x64, .bf16⟩
  | .local _ .vmem, ⟨17, _⟩ => ⟨S1x64, .f32⟩
  | .local _ .vmem, ⟨18, _⟩ => ⟨S64x1, .bf16⟩
  | .local _ .vmem, ⟨19, _⟩ => ⟨S1x1, .f32⟩
  | .local _ .vmem, ⟨20, _⟩ => ⟨S6000x64, .f32⟩
  | .local _ .vmem, ⟨21, _⟩ => ⟨S6000x64, .f32⟩
  | .local _ .vmem, ⟨22, _⟩ => ⟨S1x1, .f32⟩
  | .local _ .vmem, ⟨23, _⟩ => ⟨S1x1, .f32⟩
  | .local _ .vmem, ⟨24, _⟩ => ⟨S1x1, .f32⟩
  | .local _ .vmem, ⟨25, _⟩ => ⟨S1x1, .f32⟩
  | .local _ .vmem, ⟨26, _⟩ => ⟨S1x1, .f32⟩
  | _, _ => ⟨S300000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_3 : Ref sig .tc := ⟨.hbm, 45, rfl⟩
abbrev main_call1_v0 : Ref sig .tc := ⟨.hbm, 46, rfl⟩
abbrev main_call1_v1 : Ref sig .tc := ⟨.hbm, 47, rfl⟩
abbrev main_v25 : Ref sig .tc := ⟨.hbm, 48, rfl⟩
abbrev main_c_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_c_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v31 : Ref sig .tc := ⟨.hbm, 63, rfl⟩
abbrev main_c_8 : Ref sig .tc := ⟨.hbm, 64, rfl⟩
abbrev main_c_9 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v32 : Ref sig .tc := ⟨.hbm, 71, rfl⟩
abbrev main_c_10 : Ref sig .tc := ⟨.hbm, 72, rfl⟩
abbrev main_v33 : Ref sig .tc := ⟨.hbm, 73, rfl⟩
abbrev main_v34 : Ref sig .tc := ⟨.hbm, 74, rfl⟩
abbrev main_c_11 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_c_12 : Ref sig .tc := ⟨.hbm, 81, rfl⟩
abbrev main_v40 : Ref sig .tc := ⟨.hbm, 82, rfl⟩
abbrev main_v41 : Ref sig .tc := ⟨.hbm, 83, rfl⟩
abbrev main_c_13 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_c_14 : Ref sig .tc := ⟨.hbm, 92, rfl⟩
abbrev main_v49 : Ref sig .tc := ⟨.hbm, 93, rfl⟩
abbrev main_v50 : Ref sig .tc := ⟨.hbm, 94, rfl⟩
abbrev main_c_15 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_c_16 : Ref sig .tc := ⟨.hbm, 103, rfl⟩
abbrev main_v58 : Ref sig .tc := ⟨.hbm, 104, rfl⟩
abbrev main_v59 : Ref sig .tc := ⟨.hbm, 105, rfl⟩
abbrev main_c_17 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_c_18 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87_0 : Ref sig .tc := ⟨.hbm, 135, rfl⟩
abbrev main_v87_1 : Ref sig .tc := ⟨.hbm, 136, rfl⟩
abbrev main_v87_2 : Ref sig .tc := ⟨.hbm, 137, rfl⟩
abbrev main_v88 : Ref sig .tc := ⟨.hbm, 138, rfl⟩
abbrev main_v89 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg17_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v106 : BitVec 1 := Scalar.cmpi .eq arg0 c49_i32
  let v107 : BitVec 32 := Scalar.extui v106
  let c0_i32_62 : BitVec 32 := 0#32
  let v108 : BitVec 1 := Scalar.cmpi .ne v107 c0_i32_62
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S192x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S6000x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

class Facts₀ : Prop where
  slices_S2x3000000_S1x3000000_0_0 : S2x3000000.Slices ![0, 0] S1x3000000
  shapeCasts_S1x3000000_S3000000 : S1x3000000.ShapeCasts S3000000
  slices_S2x3000000_S1x3000000_1_0 : S2x3000000.Slices ![1, 0] S1x3000000
  concatenates_S3000000_S3000000_S6000000_d0 : Shape.Concatenates [S3000000, S3000000] S6000000 0
  bcast_S_S6000000 : S_.BroadcastsInDim S6000000 (![] : Fin 0 → Fin S6000000.rank)
  bcast_S_S300000 : S_.BroadcastsInDim S300000 (![] : Fin 0 → Fin S300000.rank)
  bcast_S6000000_S6000000x1_0 : S6000000.BroadcastsInDim S6000000x1 (![0] : Fin 1 → Fin S6000000x1.rank)
  bcast_S300000_S300000x1_0 : S300000.BroadcastsInDim S300000x1 (![0] : Fin 1 → Fin S300000x1.rank)
  shapeCasts_S300000_S300000x1 : S300000.ShapeCasts S300000x1
  bitsLt_bf16_f32 : FTy.bits .bf16 < FTy.bits .f32
  shapeCasts_S64_S1x64 : S64.ShapeCasts S1x64
  shapeCasts_S32_S1x32 : S32.ShapeCasts S1x32
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  concatenates_S6000x64_S6000x64_S6000x64_S6000x192_d1 : Shape.Concatenates [S6000x64, S6000x64, S6000x64] S6000x192 1
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S1x64_S6000x64 : S1x64.Broadcasts S6000x64
  broadcasts_S1x32_S6000x32 : S1x32.Broadcasts S6000x32
  broadcasts_S1x1_S6000x1 : S1x1.Broadcasts S6000x1
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x64 : S6000x1.Broadcasts S6000x64
  reduces_S6000x1_S1 : S6000x1.Reduces [0] S1
  shapeCasts_S1x1_S_ : S1x1.ShapeCasts S_
  scatter_S300000_S6000000x1_S6000000_n_0_0_1_wf : ScatterDims.WF S300000 S6000000x1 S6000000 [] [0] [0] 1
  gather_S300000_S6000000x1_S6000000_n_0_n_n_0_1_1_wf : GatherDims.WF S300000 S6000000x1 S6000000 [] [0] [] [0] [] 1 ![1]
  gather_S300000x64_S300000x1_S300000x64_1_0_n_n_0_1_164_wf : GatherDims.WF S300000x64 S300000x1 S300000x64 [1] [0] [] [0] [] 1 ![1, 64]
  gather_S300000_S300000x1_S300000_n_0_n_n_0_1_1_wf : GatherDims.WF S300000 S300000x1 S300000 [] [0] [] [0] [] 1 ![1]
  dot_S6000x192_S192x64_S6000x64_1_0_0_1_n_n_wf : DotDims.WF S6000x192 S192x64 S6000x64 [1] [0] [0] [1] [] []
  dot_S6000x64_S64x32_S6000x32_1_0_0_1_n_n_wf : DotDims.WF S6000x64 S64x32 S6000x32 [1] [0] [0] [1] [] []
  dot_S6000x32_S32x1_S6000x1_1_0_0_1_n_n_wf : DotDims.WF S6000x32 S32x1 S6000x1 [1] [0] [0] [1] [] []
  dot_S6000x64_S64x1_S6000x1_1_0_0_1_n_n_wf : DotDims.WF S6000x64 S64x1 S6000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S300000x64.size a
  hwx0_0 : ∀ i : grid0.Coords, EltTy.bits .f32 = 32 ∨ (Rect.block (s := S300000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S300000x64.size a
  hwx0_1 : ∀ i : grid0.Coords, EltTy.bits .f32 = 32 ∨ (Rect.block (s := S300000x64) S6000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S300000x64.size a
  hwx0_2 : ∀ i : grid0.Coords, EltTy.bits .f32 = 32 ∨ (Rect.block (s := S300000x64) S6000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x1.size a ≤ S300000x1.size a
  hwx0_3 : ∀ i : grid0.Coords, EltTy.bits .f32 = 32 ∨ (Rect.block (s := S300000x1) S6000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x1.size a ≤ S300000x1.size a
  hwx0_4 : ∀ i : grid0.Coords, EltTy.bits .f32 = 32 ∨ (Rect.block (s := S300000x1) S6000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x64.size a ≤ S192x64.size a
  hwx0_5 : ∀ i : grid0.Coords, EltTy.bits .bf16 = 32 ∨ (Rect.block (s := S192x64) S192x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .bf16 = 32 ∨ (Rect.block (s := S64x32) S64x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S32x1.size a
  hwx0_9 : ∀ i : grid0.Coords, EltTy.bits .bf16 = 32 ∨ (Rect.block (s := S32x1) S32x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S192x64.size a ≤ S192x64.size a
  hwx0_11 : ∀ i : grid0.Coords, EltTy.bits .bf16 = 32 ∨ (Rect.block (s := S192x64) S192x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x1.size a ≤ S64x1.size a
  hwx0_13 : ∀ i : grid0.Coords, EltTy.bits .bf16 = 32 ∨ (Rect.block (s := S64x1) S64x1.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S6000x64.size a ≤ S300000x64.size a
  hwx0_15 : ∀ i : grid0.Coords, EltTy.bits .f32 = 32 ∨ (Rect.block (s := S300000x64) S6000x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1.size a ≤ S1x1.size a
  hwx0_17 : ∀ i : grid0.Coords, EltTy.bits .f32 = 32 ∨ (Rect.block (s := S1x1) S1x1.size (cc0_transform_17 i) (hinb0_17 i)).WholeWords (EltTy.packing .f32)

variable [Facts₀]

def scatter_S300000_S6000000x1_S6000000_n_0_0_1 : ScatterDims S300000 S6000000x1 S6000000 where
  updateWindowDims := []
  insertedWindowDims := [0]
  scatterDimsToOperandDims := [0]
  indexVectorDim := 1
  wf := scatter_S300000_S6000000x1_S6000000_n_0_0_1_wf
def gather_S300000_S6000000x1_S6000000_n_0_n_n_0_1_1 : GatherDims S300000 S6000000x1 S6000000 where
  offsetDims := []
  collapsedSliceDims := [0]
  operandBatchingDims := []
  startIndicesBatchingDims := []
  startIndexMap := [0]
  indexVectorDim := 1
  sliceSizes := ![1]
  wf := gather_S300000_S6000000x1_S6000000_n_0_n_n_0_1_1_wf
def gather_S300000x64_S300000x1_S300000x64_1_0_n_n_0_1_164 : GatherDims S300000x64 S300000x1 S300000x64 where
  offsetDims := [1]
  collapsedSliceDims := [0]
  operandBatchingDims := []
  startIndicesBatchingDims := []
  startIndexMap := [0]
  indexVectorDim := 1
  sliceSizes := ![1, 64]
  wf := gather_S300000x64_S300000x1_S300000x64_1_0_n_n_0_1_164_wf
def gather_S300000_S300000x1_S300000_n_0_n_n_0_1_1 : GatherDims S300000 S300000x1 S300000 where
  offsetDims := []
  collapsedSliceDims := [0]
  operandBatchingDims := []
  startIndicesBatchingDims := []
  startIndexMap := [0]
  indexVectorDim := 1
  sliceSizes := ![1]
  wf := gather_S300000_S300000x1_S300000_n_0_n_n_0_1_1_wf
def dot_S6000x192_S192x64_S6000x64_1_0_0_1_n_n : DotDims S6000x192 S192x64 S6000x64 where
  lhsContracting := [1]
  rhsContracting := [0]
  lhsNonContracting := [0]
  rhsNonContracting := [1]
  lhsBatch := []
  rhsBatch := []
  wf := dot_S6000x192_S192x64_S6000x64_1_0_0_1_n_n_wf
def dot_S6000x64_S64x32_S6000x32_1_0_0_1_n_n : DotDims S6000x64 S64x32 S6000x32 where
  lhsContracting := [1]
  rhsContracting := [0]
  lhsNonContracting := [0]
  rhsNonContracting := [1]
  lhsBatch := []
  rhsBatch := []
  wf := dot_S6000x64_S64x32_S6000x32_1_0_0_1_n_n_wf
def dot_S6000x32_S32x1_S6000x1_1_0_0_1_n_n : DotDims S6000x32 S32x1 S6000x1 where
  lhsContracting := [1]
  rhsContracting := [0]
  lhsNonContracting := [0]
  rhsNonContracting := [1]
  lhsBatch := []
  rhsBatch := []
  wf := dot_S6000x32_S32x1_S6000x1_1_0_0_1_n_n_wf
def dot_S6000x64_S64x1_S6000x1_1_0_0_1_n_n : DotDims S6000x64 S64x1 S6000x1 where
  lhsContracting := [1]
  rhsContracting := [0]
  lhsNonContracting := [0]
  rhsNonContracting := [1]
  lhsBatch := []
  rhsBatch := []
  wf := dot_S6000x64_S64x1_S6000x1_1_0_0_1_n_n_wf

abbrev win0_0 : Pipeline.Window sig grid0 :=
  Pipeline.Window.ofSpec (Memref.whole main_arg0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S6000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v74) S6000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v76) S6000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v77) S192x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v82) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v78) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v83) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v79) S32x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v84) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v80) S192x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v85) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v81) S64x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v86) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v87_0) S6000x64.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v87_1) S1x1.size cc0_transform_16 reads0_16 true true 1 stage0_16 sem0_16
    hrank0 hreads0_16 hinb0_16 nbuf0_16 (Memref.isWhole_whole _) hwx0_16 hstage0_16

abbrev win0_17 : Pipeline.Window sig grid0 :=
  Pipeline.Window.ofSpec (Memref.whole main_v87_2) S1x1.size cc0_transform_17 reads0_17 true true 1 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev idle0 : Fin 18 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k0_cond2 i == 1#1) | 17 => fun i => !(k0_cond2 i == 1#1) | ⟨_ + 18, h⟩ => absurd h (Nat.not_lt.2 (Nat.le_add_left _ _))

class Facts : Prop extends Facts₀ where

variable [Facts]
-- ==== ReferenceIdeal.lean ====
abbrev S300000x64 : Shape := ⟨2, ![300000, 64]⟩
abbrev S300000 : Shape := ⟨1, ![300000]⟩
abbrev S192x64 : Shape := ⟨2, ![192, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x1 : Shape := ⟨2, ![64, 1]⟩
abbrev S2x3000000 : Shape := ⟨2, ![2, 3000000]⟩
abbrev S1x3000000 : Shape := ⟨2, ![1, 3000000]⟩
abbrev S3000000 : Shape := ⟨1, ![3000000]⟩
abbrev S6000000 : Shape := ⟨1, ![6000000]⟩
abbrev S_ : Shape := ⟨0, ![]⟩
abbrev S6000000x1 : Shape := ⟨2, ![6000000, 1]⟩
abbrev S300000x1 : Shape := ⟨2, ![300000, 1]⟩
abbrev S300000x192 : Shape := ⟨2, ![300000, 192]⟩
abbrev S1x64 : Shape := ⟨2, ![1, 64]⟩
abbrev S300000x32 : Shape := ⟨2, ![300000, 32]⟩
abbrev S1x32 : Shape := ⟨2, ![1, 32]⟩
abbrev S1x1 : Shape := ⟨2, ![1, 1]⟩

abbrev nBuf : Space → Nat
  | .hbm => 199
  | .vmem => 0
  | .smem => 0
  | _ => 0

abbrev hbmTy0_0 (i : Nat) : BufTy := match i % 128 with
  | 0 => ⟨S300000x64, .f32⟩
  | 1 => ⟨S300000, .f32⟩
  | 2 => ⟨S192x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S192x64, .f32⟩
  | 9 => ⟨S64, .f32⟩
  | 10 => ⟨S64x1, .f32⟩
  | 11 => ⟨S1, .f32⟩
  | 12 => ⟨S2x3000000, .i32⟩
  | 13 => ⟨S300000, .i32⟩
  | 14 => ⟨S1x3000000, .i32⟩
  | 15 => ⟨S3000000, .i32⟩
  | 16 => ⟨S1x3000000, .i32⟩
  | 17 => ⟨S3000000, .i32⟩
  | 18 => ⟨S6000000, .i32⟩
  | 19 => ⟨S1x3000000, .i32⟩
  | 20 => ⟨S3000000, .i32⟩
  | 21 => ⟨S1x3000000, .i32⟩
  | 22 => ⟨S3000000, .i32⟩
  | 23 => ⟨S6000000, .i32⟩
  | 24 => ⟨S6000000, .i1⟩
  | 25 => ⟨S_, .i32⟩
  | 26 => ⟨S_, .i32⟩
  | 27 => ⟨S6000000, .i32⟩
  | 28 => ⟨S6000000, .i32⟩
  | 29 => ⟨S_, .i32⟩
  | 30 => ⟨S300000, .i32⟩
  | 31 => ⟨S6000000x1, .i32⟩
  | 32 => ⟨S300000, .i32⟩
  | 33 => ⟨S6000000, .i1⟩
  | 34 => ⟨S_, .i32⟩
  | 35 => ⟨S6000000, .i32⟩
  | 36 => ⟨S6000000, .i1⟩
  | 37 => ⟨S_, .i32⟩
  | 38 => ⟨S6000000, .i32⟩
  | 39 => ⟨S6000000, .i32⟩
  | 40 => ⟨S6000000, .i32⟩
  | 41 => ⟨S6000000x1, .i32⟩
  | 42 => ⟨S6000000, .i32⟩
  | 43 => ⟨S6000000, .i1⟩
  | 44 => ⟨S6000000, .i1⟩
  | 45 => ⟨S_, .i32⟩
  | 46 => ⟨S_, .i32⟩
  | 47 => ⟨S6000000, .i32⟩
  | 48 => ⟨S6000000, .i32⟩
  | 49 => ⟨S_, .i32⟩
  | 50 => ⟨S300000, .i32⟩
  | 51 => ⟨S6000000x1, .i32⟩
  | 52 => ⟨S300000, .i32⟩
  | 53 => ⟨S_, .i32⟩
  | 54 => ⟨S300000, .i32⟩
  | 55 => ⟨S300000, .i1⟩
  | 56 => ⟨S_, .i32⟩
  | 57 => ⟨S_, .i32⟩
  | 58 => ⟨S_, .i32⟩
  | 59 => ⟨S300000, .i32⟩
  | 60 => ⟨S300000, .i32⟩
  | 61 => ⟨S_, .i32⟩
  | 62 => ⟨S300000, .i32⟩
  | 63 => ⟨S300000, .i32⟩
  | 64 => ⟨S_, .i32⟩
  | 65 => ⟨S_, .i32⟩
  | 66 => ⟨S_, .i32⟩
  | 67 => ⟨S300000, .i32⟩
  | 68 => ⟨S300000, .i32⟩
  | 69 => ⟨S_, .i32⟩
  | 70 => ⟨S300000, .i32⟩
  | 71 => ⟨S300000, .i32⟩
  | 72 => ⟨S_, .i32⟩
  | 73 => ⟨S300000, .i32⟩
  | 74 => ⟨S300000, .i1⟩
  | 75 => ⟨S_, .i32⟩
  | 76 => ⟨S300000, .i32⟩
  | 77 => ⟨S300000, .i32⟩
  | 78 => ⟨S300000, .i32⟩
  | 79 => ⟨S300000x1, .i32⟩
  | 80 => ⟨S300000x64, .f32⟩
  | 81 => ⟨S_, .i32⟩
  | 82 => ⟨S300000, .i32⟩
  | 83 => ⟨S300000, .i1⟩
  | 84 => ⟨S_, .i32⟩
  | 85 => ⟨S300000, .i32⟩
  | 86 => ⟨S300000, .i32⟩
  | 87 => ⟨S300000, .i32⟩
  | 88 => ⟨S300000x1, .i32⟩
  | 89 => ⟨S300000x64, .f32⟩
  | 90 => ⟨S300000x192, .f32⟩
  | 91 => ⟨S300000x64, .f32⟩
  | 92 => ⟨S1x64, .f32⟩
  | 93 => ⟨S300000x64, .f32⟩
  | 94 => ⟨S300000x64, .f32⟩
  | 95 => ⟨S_, .f32⟩
  | 96 => ⟨S300000x64, .f32⟩
  | 97 => ⟨S300000x64, .f32⟩
  | 98 => ⟨S300000x32, .f32⟩
  | 99 => ⟨S1x32, .f32⟩
  | 100 => ⟨S300000x32, .f32⟩
  | 101 => ⟨S300000x32, .f32⟩
  | 102 => ⟨S_, .f32⟩
  | 103 => ⟨S300000x32, .f32⟩
  | 104 => ⟨S300000x32, .f32⟩
  | 105 => ⟨S300000x1, .f32⟩
  | 106 => ⟨S1x1, .f32⟩
  | 107 => ⟨S300000x1, .f32⟩
  | 108 => ⟨S300000x1, .f32⟩
  | 109 => ⟨S300000, .f32⟩
  | 110 => ⟨S300000x64, .f32⟩
  | 111 => ⟨S1x64, .f32⟩
  | 112 => ⟨S300000x64, .f32⟩
  | 113 => ⟨S300000x64, .f32⟩
  | 114 => ⟨S_, .f32⟩
  | 115 => ⟨S300000x64, .f32⟩
  | 116 => ⟨S300000x64, .f32⟩
  | 117 => ⟨S300000x1, .f32⟩
  | 118 => ⟨S1x1, .f32⟩
  | 119 => ⟨S300000x1, .f32⟩
  | 120 => ⟨S300000x1, .f32⟩
  | 121 => ⟨S300000x1, .f32⟩
  | 122 => ⟨S300000x1, .f32⟩
  | 123 => ⟨S_, .f32⟩
  | 124 => ⟨S300000x1, .f32⟩
  | 125 => ⟨S300000x1, .f32⟩
  | 126 => ⟨S_, .f32⟩
  | 127 => ⟨S300000x1, .f32⟩
  | _ => ⟨S300000x64, .f32⟩

abbrev hbmTy0_1 (i : Nat) : BufTy := match i % 128 with
  | 0 => ⟨S300000x1, .f32⟩
  | 1 => ⟨S300000, .f32⟩
  | 2 => ⟨S300000, .f32⟩
  | 3 => ⟨S300000, .f32⟩
  | 4 => ⟨S_, .i32⟩
  | 5 => ⟨S300000, .i32⟩
  | 6 => ⟨S300000, .i1⟩
  | 7 => ⟨S_, .i32⟩
  | 8 => ⟨S300000, .i32⟩
  | 9 => ⟨S300000, .i32⟩
  | 10 => ⟨S300000, .i32⟩
  | 11 => ⟨S300000x1, .i32⟩
  | 12 => ⟨S300000, .f32⟩
  | 13 => ⟨S300000, .f32⟩
  | 14 => ⟨S300000, .f32⟩
  | 15 => ⟨S_, .i32⟩
  | 16 => ⟨S300000, .i32⟩
  | 17 => ⟨S300000, .i1⟩
  | 18 => ⟨S_, .i32⟩
  | 19 => ⟨S300000, .i32⟩
  | 20 => ⟨S300000, .i32⟩
  | 21 => ⟨S300000, .i32⟩
  | 22 => ⟨S300000x1, .i32⟩
  | 23 => ⟨S300000, .f32⟩
  | 24 => ⟨S300000, .f32⟩
  | 25 => ⟨S300000, .f32⟩
  | 26 => ⟨S300000, .f32⟩
  | 27 => ⟨S300000, .f32⟩
  | 28 => ⟨S300000, .f32⟩
  | 29 => ⟨S300000, .f32⟩
  | 30 => ⟨S_, .i32⟩
  | 31 => ⟨S300000, .i32⟩
  | 32 => ⟨S300000, .i1⟩
  | 33 => ⟨S300000, .i1⟩
  | 34 => ⟨S_, .f32⟩
  | 35 => ⟨S300000, .f32⟩
  | 36 => ⟨S300000, .i1⟩
  | 37 => ⟨S300000, .i1⟩
  | 38 => ⟨S_, .f32⟩
  | 39 => ⟨S_, .f32⟩
  | 40 => ⟨S300000, .f32⟩
  | 41 => ⟨S300000, .f32⟩
  | 42 => ⟨S300000x1, .f32⟩
  | 43 => ⟨S_, .f32⟩
  | 44 => ⟨S300000x1, .f32⟩
  | 45 => ⟨S300000x1, .f32⟩
  | 46 => ⟨S300000x64, .f32⟩
  | 47 => ⟨S300000x64, .f32⟩
  | 48 => ⟨S300000x64, .f32⟩
  | 49 => ⟨S300000x64, .f32⟩
  | 50 => ⟨S300000, .i32⟩
  | 51 => ⟨S_, .i32⟩
  | 52 => ⟨S_, .i32⟩
  | 53 => ⟨S_, .i32⟩
  | 54 => ⟨S_, .i32⟩
  | 55 => ⟨S_, .f32⟩
  | 56 => ⟨S_, .f32⟩
  | 57 => ⟨S300000, .f32⟩
  | 58 => ⟨S300000, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S300000, .f32⟩
  | 66 => ⟨S300000, .f32⟩
  | 67 => ⟨S_, .f32⟩
  | 68 => ⟨S_, .f32⟩
  | 69 => ⟨S_, .f32⟩
  | 70 => ⟨S_, .f32⟩
  | _ => ⟨S300000x64, .f32⟩

abbrev hbmTy (i : Nat) : BufTy := match i / 128 with
  | 0 => hbmTy0_0 i
  | 1 => hbmTy0_1 i
  | _ => ⟨S300000x64, .f32⟩

abbrev bufTy : (tb : Table) → Fin (tcTables nBuf tb) → BufTy
  | .hbm, ⟨i, _⟩ => hbmTy i
  | _, _ => ⟨S300000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_3 : Ref sig .tc := ⟨.hbm, 45, rfl⟩
abbrev main_call1_v0 : Ref sig .tc := ⟨.hbm, 46, rfl⟩
abbrev main_call1_v1 : Ref sig .tc := ⟨.hbm, 47, rfl⟩
abbrev main_v25 : Ref sig .tc := ⟨.hbm, 48, rfl⟩
abbrev main_c_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_c_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v31 : Ref sig .tc := ⟨.hbm, 63, rfl⟩
abbrev main_c_8 : Ref sig .tc := ⟨.hbm, 64, rfl⟩
abbrev main_c_9 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v32 : Ref sig .tc := ⟨.hbm, 71, rfl⟩
abbrev main_c_10 : Ref sig .tc := ⟨.hbm, 72, rfl⟩
abbrev main_v33 : Ref sig .tc := ⟨.hbm, 73, rfl⟩
abbrev main_v34 : Ref sig .tc := ⟨.hbm, 74, rfl⟩
abbrev main_c_11 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_c_12 : Ref sig .tc := ⟨.hbm, 81, rfl⟩
abbrev main_v40 : Ref sig .tc := ⟨.hbm, 82, rfl⟩
abbrev main_v41 : Ref sig .tc := ⟨.hbm, 83, rfl⟩
abbrev main_c_13 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_call4_cst : Ref sig .tc := ⟨.hbm, 95, rfl⟩
abbrev main_call4_v0 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_call5_cst : Ref sig .tc := ⟨.hbm, 102, rfl⟩
abbrev main_call5_v0 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_call6_cst : Ref sig .tc := ⟨.hbm, 114, rfl⟩
abbrev main_call6_v0 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst : Ref sig .tc := ⟨.hbm, 123, rfl⟩
abbrev main_v74 : Ref sig .tc := ⟨.hbm, 124, rfl⟩
abbrev main_v75 : Ref sig .tc := ⟨.hbm, 125, rfl⟩
abbrev main_cst_14 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_c_15 : Ref sig .tc := ⟨.hbm, 132, rfl⟩
abbrev main_v81 : Ref sig .tc := ⟨.hbm, 133, rfl⟩
abbrev main_v82 : Ref sig .tc := ⟨.hbm, 134, rfl⟩
abbrev main_c_16 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_c_17 : Ref sig .tc := ⟨.hbm, 143, rfl⟩
abbrev main_v90 : Ref sig .tc := ⟨.hbm, 144, rfl⟩
abbrev main_v91 : Ref sig .tc := ⟨.hbm, 145, rfl⟩
abbrev main_c_18 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_c_19 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_cst_20 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_21 : Ref sig .tc := ⟨.hbm, 166, rfl⟩
abbrev main_call7_v0 : Ref sig .tc := ⟨.hbm, 167, rfl⟩
abbrev main_call7_v1 : Ref sig .tc := ⟨.hbm, 168, rfl⟩
abbrev main_v109 : Ref sig .tc := ⟨.hbm, 169, rfl⟩
abbrev main_v110 : Ref sig .tc := ⟨.hbm, 170, rfl⟩
abbrev main_cst_22 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_c_23 : Ref sig .tc := ⟨.hbm, 179, rfl⟩
abbrev main_v118 : Ref sig .tc := ⟨.hbm, 180, rfl⟩
abbrev main_c_24 : Ref sig .tc := ⟨.hbm, 181, rfl⟩
abbrev main_v119 : Ref sig .tc := ⟨.hbm, 182, rfl⟩
abbrev main_cst_25 : Ref sig .tc := ⟨.hbm, 183, rfl⟩
abbrev main_call8_v0 : Ref sig .tc := ⟨.hbm, 184, rfl⟩
abbrev main_call8_v1 : Ref sig .tc := ⟨.hbm, 185, rfl⟩
abbrev main_v120 : Ref sig .tc := ⟨.hbm, 186, rfl⟩
abbrev main_cst_26 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_cst_27 : Ref sig .tc := ⟨.hbm, 191, rfl⟩
abbrev main_call9_v0 : Ref sig .tc := ⟨.hbm, 192, rfl⟩
abbrev main_call9_v1 : Ref sig .tc := ⟨.hbm, 193, rfl⟩
abbrev main_v124 : Ref sig .tc := ⟨.hbm, 194, rfl⟩
abbrev main_cst_28 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩

abbrev nD : Nat := 1
abbrev τ : Topo := Topo.v7x

variable {F : FTy → Type} [FloatOps F]

class Facts₀ : Prop where
  slices_S2x3000000_S1x3000000_0_0 : S2x3000000.Slices ![0, 0] S1x3000000
  shapeCasts_S1x3000000_S3000000 : S1x3000000.ShapeCasts S3000000
  slices_S2x3000000_S1x3000000_1_0 : S2x3000000.Slices ![1, 0] S1x3000000
  concatenates_S3000000_S3000000_S6000000_d0 : Shape.Concatenates [S3000000, S3000000] S6000000 0
  bcast_S_S6000000 : S_.BroadcastsInDim S6000000 (![] : Fin 0 → Fin S6000000.rank)
  bcast_S_S300000 : S_.BroadcastsInDim S300000 (![] : Fin 0 → Fin S300000.rank)
  bcast_S6000000_S6000000x1_0 : S6000000.BroadcastsInDim S6000000x1 (![0] : Fin 1 → Fin S6000000x1.rank)
  bcast_S300000_S300000x1_0 : S300000.BroadcastsInDim S300000x1 (![0] : Fin 1 → Fin S300000x1.rank)
  concatenates_S300000x64_S300000x64_S300000x64_S300000x192_d1 : Shape.Concatenates [S300000x64, S300000x64, S300000x64] S300000x192 1
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  bcast_S32_S1x32_1 : S32.BroadcastsInDim S1x32 (![1] : Fin 1 → Fin S1x32.rank)
  bcast_S1x32_S300000x32_0_1 : S1x32.BroadcastsInDim S300000x32 (![0, 1] : Fin 2 → Fin S300000x32.rank)
  bcast_S_S300000x32 : S_.BroadcastsInDim S300000x32 (![] : Fin 0 → Fin S300000x32.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  shapeCasts_S300000x1_S300000 : S300000x1.ShapeCasts S300000
  bcast_S_S300000x1 : S_.BroadcastsInDim S300000x1 (![] : Fin 0 → Fin S300000x1.rank)
  bcast_S300000x1_S300000x64_0_1 : S300000x1.BroadcastsInDim S300000x64 (![0, 1] : Fin 2 → Fin S300000x64.rank)
  natLt_1_32 : 1 < 32
  reducesTo_S300000_S_d0 : S300000.ReducesTo [0] S_
  h_S_ : 0 < S_.numel
  scatter_S300000_S6000000x1_S6000000_n_0_0_1_wf : ScatterDims.WF S300000 S6000000x1 S6000000 [] [0] [0] 1
  gather_S300000_S6000000x1_S6000000_n_0_n_n_0_1_1_wf : GatherDims.WF S300000 S6000000x1 S6000000 [] [0] [] [0] [] 1 ![1]
  gather_S300000x64_S300000x1_S300000x64_1_0_n_n_0_1_164_wf : GatherDims.WF S300000x64 S300000x1 S300000x64 [1] [0] [] [0] [] 1 ![1, 64]
  dot_S300000x192_S192x64_S300000x64_1_0_0_1_n_n_wf : DotDims.WF S300000x192 S192x64 S300000x64 [1] [0] [0] [1] [] []
  dot_S300000x64_S64x32_S300000x32_1_0_0_1_n_n_wf : DotDims.WF S300000x64 S64x32 S300000x32 [1] [0] [0] [1] [] []
  dot_S300000x32_S32x1_S300000x1_1_0_0_1_n_n_wf : DotDims.WF S300000x32 S32x1 S300000x1 [1] [0] [0] [1] [] []
  dot_S300000x64_S64x1_S300000x1_1_0_0_1_n_n_wf : DotDims.WF S300000x64 S64x1 S300000x1 [1] [0] [0] [1] [] []
  gather_S300000_S300000x1_S300000_n_0_n_n_0_1_1_wf : GatherDims.WF S300000 S300000x1 S300000 [] [0] [] [0] [] 1 ![1]

variable [Facts₀]

def scatter_S300000_S6000000x1_S6000000_n_0_0_1 : ScatterDims S300000 S6000000x1 S6000000 where
  updateWindowDims := []
  insertedWindowDims := [0]
  scatterDimsToOperandDims := [0]
  indexVectorDim := 1
  wf := scatter_S300000_S6000000x1_S6000000_n_0_0_1_wf
def gather_S300000_S6000000x1_S6000000_n_0_n_n_0_1_1 : GatherDims S300000 S6000000x1 S6000000 where
  offsetDims := []
  collapsedSliceDims := [0]
  operandBatchingDims := []
  startIndicesBatchingDims := []
  startIndexMap := [0]
  indexVectorDim := 1
  sliceSizes := ![1]
  wf := gather_S300000_S6000000x1_S6000000_n_0_n_n_0_1_1_wf
def gather_S300000x64_S300000x1_S300000x64_1_0_n_n_0_1_164 : GatherDims S300000x64 S300000x1 S300000x64 where
  offsetDims := [1]
  collapsedSliceDims := [0]
  operandBatchingDims := []
  startIndicesBatchingDims := []
  startIndexMap := [0]
  indexVectorDim := 1
  sliceSizes := ![1, 64]
  wf := gather_S300000x64_S300000x1_S300000x64_1_0_n_n_0_1_164_wf
def dot_S300000x192_S192x64_S300000x64_1_0_0_1_n_n : DotDims S300000x192 S192x64 S300000x64 where
  lhsContracting := [1]
  rhsContracting := [0]
  lhsNonContracting := [0]
  rhsNonContracting := [1]
  lhsBatch := []
  rhsBatch := []
  wf := dot_S300000x192_S192x64_S300000x64_1_0_0_1_n_n_wf
def dot_S300000x64_S64x32_S300000x32_1_0_0_1_n_n : DotDims S300000x64 S64x32 S300000x32 where
  lhsContracting := [1]
  rhsContracting := [0]
  lhsNonContracting := [0]
  rhsNonContracting := [1]
  lhsBatch := []
  rhsBatch := []
  wf := dot_S300000x64_S64x32_S300000x32_1_0_0_1_n_n_wf
def dot_S300000x32_S32x1_S300000x1_1_0_0_1_n_n : DotDims S300000x32 S32x1 S300000x1 where
  lhsContracting := [1]
  rhsContracting := [0]
  lhsNonContracting := [0]
  rhsNonContracting := [1]
  lhsBatch := []
  rhsBatch := []
  wf := dot_S300000x32_S32x1_S300000x1_1_0_0_1_n_n_wf
def dot_S300000x64_S64x1_S300000x1_1_0_0_1_n_n : DotDims S300000x64 S64x1 S300000x1 where
  lhsContracting := [1]
  rhsContracting := [0]
  lhsNonContracting := [0]
  rhsNonContracting := [1]
  lhsBatch := []
  rhsBatch := []
  wf := dot_S300000x64_S64x1_S300000x1_1_0_0_1_n_n_wf
def gather_S300000_S300000x1_S300000_n_0_n_n_0_1_1 : GatherDims S300000 S300000x1 S300000 where
  offsetDims := []
  collapsedSliceDims := [0]
  operandBatchingDims := []
  startIndicesBatchingDims := []
  startIndexMap := [0]
  indexVectorDim := 1
  sliceSizes := ![1]
  wf := gather_S300000_S300000x1_S300000_n_0_n_n_0_1_1_wf

class Facts : Prop extends Facts₀ where

variable [Facts]
-- ==== Proof.RefRun.lean ====
/-
  The reference's run, read at its results. The reference is a straight line of 185 host operations; every weakly fair
  execution of it terminates with each buffer holding the composition of the operations that lead to it, applied to
  the argument arrays, and with the arguments unchanged. The composition is read stretch by stretch: each stretch, on
  an arbitrary valuation, writes the stage functions of what it reads and leaves the rest alone; the stretches in turn
  take the launch memory to the three results at their last stages: the updated features, the mean violation and the
  mean compliance, each a function of the arguments it depends on.
-/
import proofs.«144948_j85856396247188_2_alg».proof.Proof.RefOpsP
import proofs.«144948_j85856396247188_2_alg».proof.Proof.RefReadP

set_option maxRecDepth 100000

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The valuation after two lists of operations in turn is the valuation after their concatenation. -/
theorem after_append (l1 l2 : List (HloOp τ sig (Elt F))) (V : Valuation τ sig (Elt F)) :
    StableHlo.after (l1 ++ l2) V = StableHlo.after l2 (StableHlo.after l1 V) := by
  induction l1 generalizing V with
  | nil => rfl
  | cons op l ih => simp only [List.cons_append, after_cons, ih]

/-! ## The operations, stretch by stretch

  Each stretch of the reference's operations is read on an arbitrary valuation: what it writes, as the stage function of
  what it reads, and what it leaves alone. -/

set_option maxHeartbeats 16000000 in
theorem s0_v4 (W : Valuation τ sig (Elt F)) (x12 : (⟨S2x3000000, .i32⟩ : BufTy).Contents (Elt F))
    (hA12 : W (Proc.devRef .tc main_arg12) = x12) :
    StableHlo.after ((ops (F := F)).take 12) W (Proc.devRef .tc main_v4) = val_main_v4 (F := F) x12 := by
  subst hA12
  simp only [ops, List.drop_succ_cons, List.drop_zero, List.take_succ_cons, List.take_zero]
  after_results_simp
  try simp only [TRef.toBuf, TRef.ofBuf, cast_eq, hA12]
  try rfl

set_option maxHeartbeats 16000000 in
theorem s0_v9 (W : Valuation τ sig (Elt F)) (x12 : (⟨S2x3000000, .i32⟩ : BufTy).Contents (Elt F))
    (hA12 : W (Proc.devRef .tc main_arg12) = x12) :
    StableHlo.after ((ops (F := F)).take 12) W (Proc.devRef .tc main_v9) = val_main_v9 (F := F) x12 := by
  subst hA12
  simp only [ops, List.drop_succ_cons, List.drop_zero, List.take_succ_cons, List.take_zero]
  after_results_simp
  try simp only [TRef.toBuf, TRef.ofBuf, cast_eq, hA12]
  try rfl

set_option maxHeartbeats 16000000 in
theorem s0_v10 (W : Valuation τ sig (Elt F)) (x12 : (⟨S2x3000000, .i32⟩ : BufTy).Contents (Elt F))
    (hA12 : W (Proc.devRef .tc main_arg12) = x12) :
    StableHlo.after ((ops (F := F)).take 12) W (Proc.devRef .tc main_v10) = val_main_v10 (F := F) x12 := by
  subst hA12
  simp only [ops, List.drop_succ_cons, List.drop_zero, List.take_succ_cons, List.take_zero]
  after_results_simp
  try simp only [TRef.toBuf, TRef.ofBuf, cast_eq, hA12]
  try rfl

set_option maxHeartbeats 16000000 in
theorem s0_c (W : Valuation τ sig (Elt F))
     :
    StableHlo.after ((ops (F := F)).take 12) W (Proc.devRef .tc main_c) = val_main_c (F := F) := by
  simp only [ops, List.drop_succ_cons, List.drop_zero, List.take_succ_cons, List.take_zero]
  after_results_simp
  try simp only [TRef.toBuf, TRef.ofBuf, cast_eq]
  try rfl

set_option maxHeartbeats 16000000 in
theorem s1_v11 (W : Valuation τ sig (Elt F)) (x12 : (⟨S2x3000000, .i32⟩ : BufTy).Contents (Elt F))
    (h10 : W (Proc.devRef .tc main_v10) = val_main_v10 (F := F) x12) (h9 : W (Proc.devRef .tc main_v9) = val_main_v9 (F := F) x12) (hc : W (Proc.devRef .tc main_c) = val_main_c (F := F)) :
    StableHlo.after (((ops (F := F)).drop 12).take 3) W (Proc.devRef .tc main_v11) = val_main_v11 (F := F) x12 := by
  simp only [ops, List.drop_succ_cons, List.drop_zero, List.take_succ_cons, List.take_zero]
  after_results_simp
  try simp only [TRef.toBuf, TRef.ofBuf, cast_eq, h10, h9, hc]
  try rfl

theorem r1_keep_v4 (W : Valuation τ sig (Elt F)) :
    StableHlo.after (((ops (F := F)).drop 12).take 3) W (Proc.devRef .tc main_v4) = W (Proc.devRef .tc main_v4) := by
  simp only [ops, List.drop_succ_cons, List.drop_zero, List.take_succ_cons, List.take_zero]
  after_results_simp

theorem r1_keep_v9 (W : Valuation τ sig (Elt F)) :
    StableHlo.after (((ops (F := F)).drop 12).take 3) W (Proc.devRef .tc main_v9) = W (Proc.devRef .tc main_v9) := by
  simp only [ops, List.drop_succ_cons, List.drop_zero, List.take_succ_cons, List.take_zero]
  after_results_simp

set_option maxHeartbeats 16000000 in
theorem s2_v14 (W : Valuation τ sig (Elt F)) (x12 : (⟨S2x3000000, .i32⟩ : BufTy).Contents (Elt F))
    (h4 : W (Proc.devRef .tc main_v4) = val_main_v4 (F := F) x12) (h9 : W (Proc.devRef .tc main_v9) = val_main_v9 (F := F) x12) (h11 : W (Proc.devRef .tc main_v11) = val_main_v11 (F := F) x12) :
    StableHlo.after (((ops (F := F)).drop 15).take 17) W (Proc.devRef .tc main_v14) = val_main_v14 (F := F) x12 := by
  simp only [ops, List.drop_succ_cons, List.drop_zero, List.take_succ_cons, List.take_zero]
  after_results_simp
  try simp only [TRef.toBuf, TRef.ofBuf, cast_eq, h4, h9, h11]
  try rfl

set_option maxHeartbeats 16000000 in
theorem s2_v24 (W : Valuation τ sig (Elt F)) (x12 : (⟨S2x3000000, .i32⟩ : BufTy).Contents (Elt F))
    (h4 : W (Proc.devRef .tc main_v4) = val_main_v4 (F := F) x12) (h9 : W (Proc.devRef .tc main_v9) = val_main_v9 (F := F) x12) (h11 : W (Proc.devRef .tc main_v11) = val_main_v11 (F := F) x12) :
    StableHlo.after (((ops (F := F)).drop 15).take 17) W (Proc.devRef .tc main_v24) = val_main_v24 (F := F) x12 := by
  simp only [ops, List.drop_succ_cons, List.drop_zero, List.take_succ_cons, List.take_zero]
  after_results_simp
  try simp only [TRef.toBuf, TRef.ofBuf, cast_eq, h4, h9, h11]
  try rfl

set_option maxHeartbeats 16000000 in
theorem s2_c3 (W : Valuation τ sig (Elt F))
     :
    StableHlo.after (((ops (F := F)).drop 15).take 17) W (Proc.devRef .tc main_c_3) = val_main_c_3 (F := F) := by
  simp only [ops, List.drop_succ_cons, List.drop_zero, List.take_succ_cons, List.take_zero]
  after_results_simp
  try simp only [TRef.toBuf, TRef.ofBuf, cast_eq]
  try rfl

theorem r2_keep_v4 (W : Valuation τ sig (Elt F)) :
    StableHlo.after (((ops (F := F)).drop 15).take 17) W (Proc.devRef .tc main_v4) = W (Proc.devRef .tc main_v4) := by
  simp only [ops, List.drop_succ_cons, List.drop_zero, List.take_succ_cons, List.take_zero]
  after_results_simp

theorem r2_keep_v9 (W : Valuation τ sig (Elt F)) :
    StableHlo.after (((ops (F := F)).drop 15).take 17) W (Proc.devRef .tc main_v9) = W (Proc.devRef .tc main_v9) := by
  simp only [ops, List.drop_succ_cons, List.drop_zero, List.take_succ_cons, List.take_zero]
  after_results_simp

set_option maxHeartbeats 16000000 in
theorem s3_v25 (W : Valuation τ sig (Elt F)) (x12 : (⟨S2x3000000, .i32⟩ : BufTy).Contents (Elt F))
    (h24 : W (Proc.devRef .tc main_v24) = val_main_v24 (F := F) x12) (h9 : W (Proc.devRef .tc main_v9) = val_main_v9 (F := F) x12) (hc3 : W (Proc.devRef .tc main_c_3) = val_main_c_3 (F := F)) :
    StableHlo.after (((ops (F := F)).drop 32).take 3) W (Proc.devRef .tc main_v25) = val_main_v25 (F := F) x12 := by
  simp only [ops, List.drop_succ_cons, List.drop_zero, List.take_succ_cons, List.take_zero]
  after_results_simp
  try simp only [TRef.toBuf, TRef.ofBuf, cast_eq, h24, h9, hc3]
  try rfl

theorem r3_keep_v4 (W : Valuation τ sig (Elt F)) :
    StableHlo.after (((ops (F := F)).drop 32).take 3) W (Proc.devRef .tc main_v4) = W (Proc.devRef .tc main_v4) := by
  simp only [ops, List.drop_succ_cons, List.drop_zero, List.take_succ_cons, List.take_zero]
  after_results_simp

theorem r3_keep_v14 (W : Valuation τ sig (Elt F)) :
    StableHlo.after (((ops (F := F)).drop 32).take 3) W (Proc.devRef .tc main_v14) = W (Proc.devRef .tc main_v14) := by
  simp only [ops, List.drop_succ_cons, List.drop_zero, List.take_succ_cons, List.take_zero]
  after_results_simp

set_option maxHeartbeats 16000000 in
theorem s4_v28 (W : Valuation τ sig (Elt F)) (x12 : (⟨S2x3000000, .i32⟩ : BufTy).Contents (Elt F))
    (h4 : W (Proc.devRef .tc main_v4) = val_main_v4 (F := F) x12) (h25 : W (Proc.devRef .tc main_v25) = val_main_v25 (F := F) x12) :
    StableHlo.after (((ops (F := F)).drop 35).take 9) W (Proc.devRef .tc main_v28) = val_main_v28 (F := F) x12 := by
  simp only [ops, List.drop_succ_cons, List.drop_zero, List.take_succ_cons, List.take_zero]
  after_results_simp
  try simp only [TRef.toBuf, TRef.ofBuf, cast_eq, h4, h25]
  try rfl

set_option maxHeartbeats 16000000 in
theorem s4_v30 (W : Valuation τ sig (Elt F)) (x12 : (⟨S2x3000000, .i32⟩ : BufTy).Contents (Elt F))
    (h4 : W (Proc.devRef .tc main_v4) = val_main_v4 (F := F) x12) (h25 : W (Proc.devRef .tc main_v25) = val_main_v25 (F := F) x12) :
    StableHlo.after (((ops (F := F)).drop 35).take 9) W (Proc.devRef .tc main_v30) = val_main_v30 (F := F) x12 := by
  simp only [ops, List.drop_succ_cons, List.drop_zero, List.take_succ_cons, List.take_zero]
  after_results_simp
  try simp only [TRef.toBuf, TRef.ofBuf, cast_eq, h4, h25]
  try rfl

set_option maxHeartbeats 16000000 in
theorem s4_c6 (W : Valuation τ sig (Elt F))
     :
    StableHlo.after (((ops (F := F)).drop 35).take 9) W (Proc.devRef .tc main_c_6) = val_main_c_6 (F := F) := by
  simp only [ops, List.drop_succ_cons, List.drop_zero, List.take_succ_cons, List.take_zero]
  after_results_simp
  try simp only [TRef.toBuf, TRef.ofBuf, cast_eq]
  try rfl

set_option maxHeartbeats 16000000 in
theorem s4_c7 (W : Valuation τ sig (Elt F))
     :
    StableHlo.after (((ops (F := F)).drop 35).take 9) W (Proc.devRef .tc main_c_7) = val_main_c_7 (F := F) := by
  simp only [ops, List.drop_succ_cons, List.drop_zero, List.take_succ_cons, List.take_zero]
  after_results_simp
  try simp only [TRef.toBuf, TRef.ofBuf, cast_eq]
  try rfl

theorem r4_keep_v14 (W : Valuation τ sig (Elt F)) :
    StableHlo.after (((ops (F := F)).drop 35).take 9) W (Proc.devRef .tc main_v14) = W (Proc.devRef .tc main_v14) := by
  simp only [ops, List.drop_succ_cons, List.drop_zero, List.take_succ_cons, List.take_zero]
  after_results_simp

set_option maxHeartbeats 400000 in
/-- The clamp of a stage between its two bounds is the clamped stage. -/
theorem clip31_val (x12 : (⟨S2x3000000, .i32⟩ : BufTy).Contents (Elt F)) :
    minsi (broadcastInDim S300000 ![] bcast_S_S300000 (id (val_main_c_7 (F := F))))
        (maxsi (broadcastInDim S300000 ![] bcast_S_S300000 (id (val_main_c_6 (F := F)))) (val_main_v14 (F := F) x12))
      = val_main_v31 (F := F) x12 := by
  unfold val_main_v31 val_main_call2_v4 val_main_call2_v3 val_main_call2_v2 val_main_call2_v1 val_main_call2_v0
  rfl

set_option maxHeartbeats 16000000 in
theorem s5_v31 (W : Valuation τ sig (Elt F)) (x12 : (⟨S2x3000000, .i32⟩ : BufTy).Contents (Elt F))
    (h14 : W (Proc.devRef .tc main_v14) = val_main_v14 (F := F) x12) (hc6 : W (Proc.devRef .tc main_c_6) = val_main_c_6 (F := F)) (hc7 : W (Proc.devRef .tc main_c_7) = val_main_c_7 (F := F)) :
    StableHlo.after (((ops (F := F)).drop 44).take 6) W (Proc.devRef .tc main_v31) = val_main_v31 (F := F) x12 := by
  have e : StableHlo.after (((ops (F := F)).drop 44).take 6) W (Proc.devRef .tc main_v31)
      = minsi (broadcastInDim S300000 ![] bcast_S_S300000 (id (W (Proc.devRef .tc main_c_7))))
          (maxsi (broadcastInDim S300000 ![] bcast_S_S300000 (id (W (Proc.devRef .tc main_c_6)))) (W (Proc.devRef .tc main_v14))) := by
    simp only [ops, List.drop_succ_cons, List.drop_zero, List.take_succ_cons, List.take_zero]
    after_results_simp
    try simp only [TRef.toBuf, TRef.ofBuf, cast_eq]
    try rfl
  rw [e, h14, hc6, hc7]
  exact clip31_val x12

theorem r5_keep_v28 (W : Valuation τ sig (Elt F)) :
    StableHlo.after (((ops (F := F)).drop 44).take 6) W (Proc.devRef .tc main_v28) = W (Proc.devRef .tc main_v28) := by
  simp only [ops, List.drop_succ_cons, List.drop_zero, List.take_succ_cons, List.take_zero]
  after_results_simp

theorem r5_keep_v30 (W : Valuation τ sig (Elt F)) :
    StableHlo.after (((ops (F := F)).drop 44).take 6) W (Proc.devRef .tc main_v30) = W (Proc.devRef .tc main_v30) := by
  simp only [ops, List.drop_succ_cons, List.drop_zero, List.take_succ_cons, List.take_zero]
  after_results_simp

set_option maxHeartbeats 16000000 in
theorem s6_c8 (W : Valuation τ sig (Elt F))
     :
    StableHlo.after (((ops (F := F)).drop 50).take 2) W (Proc.devRef .tc main_c_8) = val_main_c_8 (F := F) := by
  simp only [ops, List.drop_succ_cons, List.drop_zero, List.take_succ_cons, List.take_zero]
  after_results_simp
  try simp only [TRef.toBuf, TRef.ofBuf, cast_eq]
  try rfl

set_option maxHeartbeats 16000000 in
theorem s6_c9 (W : Valuation τ sig (Elt F))
     :
    StableHlo.after (((ops (F := F)).drop 50).take 2) W (Proc.devRef .tc main_c_9) = val_main_c_9 (F := F) := by
  simp only [ops, List.drop_succ_cons, List.drop_zero, List.take_succ_cons, List.take_zero]
  after_results_simp
  try simp only [TRef.toBuf, TRef.ofBuf, cast_eq]
  try rfl

theorem r6_keep_v28 (W : Valuation τ sig (Elt F)) :
    StableHlo.after (((ops (F := F)).drop 50).take 2) W (Proc.devRef .tc main_v28) = W (Proc.devRef .tc main_v28) := by
  simp only [ops, List.drop_succ_cons, List.drop_zero, List.take_succ_cons, List.take_zero]
  after_results_simp

theorem r6_keep_v30 (W : Valuation τ sig (Elt F)) :
    StableHlo.after (((ops (F := F)).drop 50).take 2) W (Proc.devRef .tc main_v30) = W (Proc.devRef .tc main_v30) := by
  simp only [ops, List.drop_succ_cons, List.drop_zero, List.take_succ_cons, List.take_zero]
  after_results_simp

theorem r6_keep_v31 (W : Valuation τ sig (Elt F)) :
    StableHlo.after (((ops (F := F)).drop 50).take 2) W (Proc.devRef .tc main_v31) = W (Proc.devRef .tc main_v31) := by
  simp only [ops, List.drop_succ_cons, List.drop_zero, List.take_succ_cons, List.take_zero]
  after_results_simp

set_option maxHeartbeats 400000 in
/-- The clamp of a stage between its two bounds is the clamped stage. -/
theorem clip32_val (x12 : (⟨S2x3000000, .i32⟩ : BufTy).Contents (Elt F)) :
    minsi (broadcastInDim S300000 ![] bcast_S_S300000 (id (val_main_c_9 (F := F))))
        (maxsi (broadcastInDim S300000 ![] bcast_S_S300000 (id (val_main_c_8 (F := F)))) (val_main_v28 (F := F) x12))
      = val_main_v32 (F := F) x12 := by
  unfold val_main_v32 val_main_call3_v4 val_main_call3_v3 val_main_call3_v2 val_main_call3_v1 val_main_call3_v0
  rfl

set_option maxHeartbeats 16000000 in
theorem s7_v32 (W : Valuation τ sig (Elt F)) (x12 : (⟨S2x3000000, .i32⟩ : BufTy).Contents (Elt F))
    (h28 : W (Proc.devRef .tc main_v28) = val_main_v28 (F := F) x12) (hc8 : W (Proc.devRef .tc main_c_8) = val_main_c_8 (F := F)) (hc9 : W (Proc.devRef .tc main_c_9) = val_main_c_9 (F := F)) :
    StableHlo.after (((ops (F := F)).drop 52).take 6) W (Proc.devRef .tc main_v32) = val_main_v32 (F := F) x12 := by
  have e : StableHlo.after (((ops (F := F)).drop 52).take 6) W (Proc.devRef .tc main_v32)
      = minsi (broadcastInDim S300000 ![] bcast_S_S300000 (id (W (Proc.devRef .tc main_c_9))))
          (maxsi (broadcastInDim S300000 ![] bcast_S_S300000 (id (W (Proc.devRef .tc main_c_8)))) (W (Proc.devRef .tc main_v28))) := by
    simp only [ops, List.drop_succ_cons, List.drop_zero, List.take_succ_cons, List.take_zero]
    after_results_simp
    try simp only [TRef.toBuf, TRef.ofBuf, cast_eq]
    try rfl
  rw [e, h28, hc8, hc9]
  exact clip32_val x12

theorem r7_keep_v30 (W : Valuation τ sig (Elt F)) :
    StableHlo.after (((ops (F := F)).drop 52).take 6) W (Proc.devRef .tc main_v30) = W (Proc.devRef .tc main_v30) := by
  simp only [ops, List.drop_succ_cons, List.drop_zero, List.take_succ_cons, List.take_zero]
  after_results_simp

theorem r7_keep_v31 (W : Valuation τ sig (Elt F)) :
    StableHlo.after (((ops (F := F)).drop 52).take 6) W (Proc.devRef .tc main_v31) = W (Proc.devRef .tc main_v31) := by
  simp only [ops, List.drop_succ_cons, List.drop_zero, List.take_succ_cons, List.take_zero]
  after_results_simp

set_option maxHeartbeats 16000000 in
theorem s8_v39 (W : Valuation τ sig (Elt F)) (x0 : (⟨S300000x64, .f32⟩ : BufTy).Contents (Elt F)) (x12 : (⟨S2x3000000, .i32⟩ : BufTy).Contents (Elt F))
    (hA0 : W (Proc.devRef .tc main_arg0) = x0) (h31 : W (Proc.devRef .tc main_v31) = val_main_v31 (F := F) x12) :
    StableHlo.after (((ops (F := F)).drop 58).take 18) W (Proc.devRef .tc main_v39) = val_main_v39 (F := F) x0 x12 := by
  simp only [ops, List.drop_succ_cons, List.drop_zero, List.take_succ_cons, List.take_zero]
  after_results_simp
  try simp only [TRef.toBuf, TRef.ofBuf, cast_eq, hA0, h31]
  try rfl

set_option maxHeartbeats 16000000 in
theorem s8_v46 (W : Valuation τ sig (Elt F)) (x0 : (⟨S300000x64, .f32⟩ : BufTy).Contents (Elt F)) (x12 : (⟨S2x3000000, .i32⟩ : BufTy).Contents (Elt F))
    (hA0 : W (Proc.devRef .tc main_arg0) = x0) (h32 : W (Proc.devRef .tc main_v32) = val_main_v32 (F := F) x12) :
    StableHlo.after (((ops (F := F)).drop 58).take 18) W (Proc.devRef .tc main_v46) = val_main_v46 (F := F) x0 x12 := by
  simp only [ops, List.drop_succ_cons, List.drop_zero, List.take_succ_cons, List.take_zero]
  after_results_simp
  try simp only [TRef.toBuf, TRef.ofBuf, cast_eq, hA0, h32]
  try rfl

theorem r8a_keep_v30 (W : Valuation τ sig (Elt F)) :
    StableHlo.after (((ops (F := F)).drop 58).take 18) W (Proc.devRef .tc main_v30) = W (Proc.devRef .tc main_v30) := by
  simp only [ops, List.drop_succ_cons, List.drop_zero, List.take_succ_cons, List.take_zero]
  after_results_simp

theorem r8a_keep_v31 (W : Valuation τ sig (Elt F)) :
    StableHlo.after (((ops (F := F)).drop 58).take 18) W (Proc.devRef .tc main_v31) = W (Proc.devRef .tc main_v31) := by
  simp only [ops, List.drop_succ_cons, List.drop_zero, List.take_succ_cons, List.take_zero]
  after_results_simp

theorem r8a_keep_v32 (W : Valuation τ sig (Elt F)) :
    StableHlo.after (((ops (F := F)).drop 58).take 18) W (Proc.devRef .tc main_v32) = W (Proc.devRef .tc main_v32) := by
  simp only [ops, List.drop_succ_cons, List.drop_zero, List.take_succ_cons, List.take_zero]
  after_results_simp

set_option maxHeartbeats 16000000 in
/-- The three-way concatenate on any valuation: the parent rows and the two gathered child rows side by side. -/
theorem s8b_v47 (W : Valuation τ sig (Elt F)) (x0 : (⟨S300000x64, .f32⟩ : BufTy).Contents (Elt F)) (y39 : (⟨S300000x64, .f32⟩ : BufTy).Contents (Elt F)) (y46 : (⟨S300000x64, .f32⟩ : BufTy).Contents (Elt F))
    (hA0 : W (Proc.devRef .tc main_arg0) = x0) (h39 : W (Proc.devRef .tc main_v39) = y39) (h46 : W (Proc.devRef .tc main_v46) = y46) :
    StableHlo.after (((ops (F := F)).drop 76).take 1) W (Proc.devRef .tc main_v47)
      = concatenate S300000x192 1 [⟨S300000x64, x0⟩, ⟨S300000x64, y39⟩, ⟨S300000x64, y46⟩] concatenates_S300000x64_S300000x64_S300000x64_S300000x192_d1 := by
  subst hA0 h39 h46
  simp only [ops, List.drop_succ_cons, List.drop_zero, List.take_succ_cons, List.take_zero]
  after_results_simp
  try rfl

theorem r8b_keep_v30 (W : Valuation τ sig (Elt F)) :
    StableHlo.after (((ops (F := F)).drop 76).take 1) W (Proc.devRef .tc main_v30) = W (Proc.devRef .tc main_v30) := by
  simp only [ops, List.drop_succ_cons, List.drop_zero, List.take_succ_cons, List.take_zero]
  after_results_simp

theorem r8b_keep_v31 (W : Valuation τ sig (Elt F)) :
    StableHlo.after (((ops (F := F)).drop 76).take 1) W (Proc.devRef .tc main_v31) = W (Proc.devRef .tc main_v31) := by
  simp only [ops, List.drop_succ_cons, List.drop_zero, List.take_succ_cons, List.take_zero]
  after_results_simp

theorem r8b_keep_v32 (W : Valuation τ sig (Elt F)) :
    StableHlo.after (((ops (F := F)).drop 76).take 1) W (Proc.devRef .tc main_v32) = W (Proc.devRef .tc main_v32) := by
  simp only [ops, List.drop_succ_cons, List.drop_zero, List.take_succ_cons, List.take_zero]
  after_results_simp

set_option maxHeartbeats 16000000 in
theorem s9_v116 (W : Valuation τ sig (Elt F)) (x0 : (⟨S300000x64, .f32⟩ : BufTy).Contents (Elt F)) (x1 : (⟨S300000, .f32⟩ : BufTy).Contents (Elt F)) (x2 : (⟨S192x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F)) (x6 : (⟨S32x1, .f32⟩ : BufTy).Contents (Elt F)) (x7 : (⟨S1, .f32⟩ : BufTy).Contents (Elt F)) (x12 : (⟨S2x3000000, .i32⟩ : BufTy).Contents (Elt F)) (x13 : (⟨S300000, .i32⟩ : BufTy).Contents (Elt F))
    (h47 : W (Proc.devRef .tc main_v47) = val_main_v47 (F := F) x0 x12) (h31 : W (Proc.devRef .tc main_v31) = val_main_v31 (F := F) x12) (h32 : W (Proc.devRef .tc main_v32) = val_main_v32 (F := F) x12) (h30 : W (Proc.devRef .tc main_v30) = val_main_v30 (F := F) x12) (hA0 : W (Proc.devRef .tc main_arg0) = x0) (hA1 : W (Proc.devRef .tc main_arg1) = x1) (hA2 : W (Proc.devRef .tc main_arg2) = x2) (hA3 : W (Proc.devRef .tc main_arg3) = x3) (hA4 : W (Proc.devRef .tc main_arg4) = x4) (hA5 : W (Proc.devRef .tc main_arg5) = x5) (hA6 : W (Proc.devRef .tc main_arg6) = x6) (hA7 : W (Proc.devRef .tc main_arg7) = x7) (hA13 : W (Proc.devRef .tc main_arg13) = x13) :
    StableHlo.after ((ops (F := F)).drop 77) W (Proc.devRef .tc main_v116) = val_main_v116 (F := F) x0 x1 x2 x3 x4 x5 x6 x7 x12 x13 := by
  simp only [ops, List.drop_succ_cons, List.drop_zero, List.take_succ_cons, List.take_zero]
  after_results_simp
  try simp only [TRef.toBuf, TRef.ofBuf, cast_eq, h47, h31, h32, h30, hA0, hA1, hA2, hA3, hA4, hA5, hA6, hA7, hA13]
  try rfl

set_option maxHeartbeats 16000000 in
theorem s9_v123 (W : Valuation τ sig (Elt F)) (x1 : (⟨S300000, .f32⟩ : BufTy).Contents (Elt F)) (x12 : (⟨S2x3000000, .i32⟩ : BufTy).Contents (Elt F)) (x13 : (⟨S300000, .i32⟩ : BufTy).Contents (Elt F))
    (h31 : W (Proc.devRef .tc main_v31) = val_main_v31 (F := F) x12) (h32 : W (Proc.devRef .tc main_v32) = val_main_v32 (F := F) x12) (h30 : W (Proc.devRef .tc main_v30) = val_main_v30 (F := F) x12) (hA1 : W (Proc.devRef .tc main_arg1) = x1) (hA13 : W (Proc.devRef .tc main_arg13) = x13) :
    StableHlo.after ((ops (F := F)).drop 77) W (Proc.devRef .tc main_v123) = val_main_v123 (F := F) x1 x12 x13 := by
  simp only [ops, List.drop_succ_cons, List.drop_zero, List.take_succ_cons, List.take_zero]
  after_results_simp
  try simp only [TRef.toBuf, TRef.ofBuf, cast_eq, h31, h32, h30, hA1, hA13]
  try rfl

set_option maxHeartbeats 16000000 in
theorem s9_v127 (W : Valuation τ sig (Elt F)) (x0 : (⟨S300000x64, .f32⟩ : BufTy).Contents (Elt F)) (x8 : (⟨S192x64, .f32⟩ : BufTy).Contents (Elt F)) (x9 : (⟨S64, .f32⟩ : BufTy).Contents (Elt F)) (x10 : (⟨S64x1, .f32⟩ : BufTy).Contents (Elt F)) (x11 : (⟨S1, .f32⟩ : BufTy).Contents (Elt F)) (x12 : (⟨S2x3000000, .i32⟩ : BufTy).Contents (Elt F)) (x13 : (⟨S300000, .i32⟩ : BufTy).Contents (Elt F))
    (h47 : W (Proc.devRef .tc main_v47) = val_main_v47 (F := F) x0 x12) (h30 : W (Proc.devRef .tc main_v30) = val_main_v30 (F := F) x12) (hA8 : W (Proc.devRef .tc main_arg8) = x8) (hA9 : W (Proc.devRef .tc main_arg9) = x9) (hA10 : W (Proc.devRef .tc main_arg10) = x10) (hA11 : W (Proc.devRef .tc main_arg11) = x11) (hA13 : W (Proc.devRef .tc main_arg13) = x13) :
    StableHlo.after ((ops (F := F)).drop 77) W (Proc.devRef .tc main_v127) = val_main_v127 (F := F) x0 x8 x9 x10 x11 x12 x13 := by
  simp only [ops, List.drop_succ_cons, List.drop_zero, List.take_succ_cons, List.take_zero]
  after_results_simp
  try simp only [TRef.toBuf, TRef.ofBuf, cast_eq, h47, h30, hA8, hA9, hA10, hA11, hA13]
  try rfl

/-! ## The stretches composed -/

/-- The 185 operations are the eleven stretches in order. -/
theorem ops_split : (ops (F := F)) = ((ops (F := F)).take 12) ++ ((((ops (F := F)).drop 12).take 3) ++ ((((ops (F := F)).drop 15).take 17) ++ ((((ops (F := F)).drop 32).take 3) ++ ((((ops (F := F)).drop 35).take 9) ++ ((((ops (F := F)).drop 44).take 6) ++ ((((ops (F := F)).drop 50).take 2) ++ ((((ops (F := F)).drop 52).take 6) ++ ((((ops (F := F)).drop 58).take 18) ++ ((((ops (F := F)).drop 76).take 1) ++ (((ops (F := F)).drop 77))))))))))) := by
  rfl

/-- So the valuation after all of them is the valuation after each stretch in turn. -/
theorem after_chain (V : Valuation τ sig (Elt F)) :
    StableHlo.after (ops (F := F)) V = (StableHlo.after ((ops (F := F)).drop 77) (StableHlo.after (((ops (F := F)).drop 76).take 1) (StableHlo.after (((ops (F := F)).drop 58).take 18) (StableHlo.after (((ops (F := F)).drop 52).take 6) (StableHlo.after (((ops (F := F)).drop 50).take 2) (StableHlo.after (((ops (F := F)).drop 44).take 6) (StableHlo.after (((ops (F := F)).drop 35).take 9) (StableHlo.after (((ops (F := F)).drop 32).take 3) (StableHlo.after (((ops (F := F)).drop 15).take 17) (StableHlo.after (((ops (F := F)).drop 12).take 3) (StableHlo.after ((ops (F := F)).take 12) V))))))))))) := by
  conv_lhs => rw [ops_split]
  simp only [after_append]

/-- The valuations after the first stretch, the second, … the tenth. -/
def Q0 (m : (ℓ : Loc nD τ sig) → Buf (Elt F) ℓ) (c : Dev nD) : Valuation τ sig (Elt F) := StableHlo.after ((ops (F := F)).take 12) (fun b => m (c, b))
def Q1 (m : (ℓ : Loc nD τ sig) → Buf (Elt F) ℓ) (c : Dev nD) : Valuation τ sig (Elt F) := StableHlo.after (((ops (F := F)).drop 12).take 3) (Q0 m c)
def Q2 (m : (ℓ : Loc nD τ sig) → Buf (Elt F) ℓ) (c : Dev nD) : Valuation τ sig (Elt F) := StableHlo.after (((ops (F := F)).drop 15).take 17) (Q1 m c)
def Q3 (m : (ℓ : Loc nD τ sig) → Buf (Elt F) ℓ) (c : Dev nD) : Valuation τ sig (Elt F) := StableHlo.after (((ops (F := F)).drop 32).take 3) (Q2 m c)
def Q4 (m : (ℓ : Loc nD τ sig) → Buf (Elt F) ℓ) (c : Dev nD) : Valuation τ sig (Elt F) := StableHlo.after (((ops (F := F)).drop 35).take 9) (Q3 m c)
def Q5 (m : (ℓ : Loc nD τ sig) → Buf (Elt F) ℓ) (c : Dev nD) : Valuation τ sig (Elt F) := StableHlo.after (((ops (F := F)).drop 44).take 6) (Q4 m c)
def Q6 (m : (ℓ : Loc nD τ sig) → Buf (Elt F) ℓ) (c : Dev nD) : Valuation τ sig (Elt F) := StableHlo.after (((ops (F := F)).drop 50).take 2) (Q5 m c)
def Q7 (m : (ℓ : Loc nD τ sig) → Buf (Elt F) ℓ) (c : Dev nD) : Valuation τ sig (Elt F) := StableHlo.after (((ops (F := F)).drop 52).take 6) (Q6 m c)
def Q8a (m : (ℓ : Loc nD τ sig) → Buf (Elt F) ℓ) (c : Dev nD) : Valuation τ sig (Elt F) := StableHlo.after (((ops (F := F)).drop 58).take 18) (Q7 m c)
def Q8b (m : (ℓ : Loc nD τ sig) → Buf (Elt F) ℓ) (c : Dev nD) : Valuation τ sig (Elt F) := StableHlo.after (((ops (F := F)).drop 76).take 1) (Q8a m c)

theorem q0_v4 (m : (ℓ : Loc nD τ sig) → Buf (Elt F) ℓ) (c : Dev nD) : Q0 m c (Proc.devRef .tc main_v4) = val_main_v4 (F := F) (m ((c.tc : Thread nD τ).loc main_arg12)) := s0_v4 (fun b => m (c, b)) (m ((c.tc : Thread nD τ).loc main_arg12)) rfl
theorem q0_v9 (m : (ℓ : Loc nD τ sig) → Buf (Elt F) ℓ) (c : Dev nD) : Q0 m c (Proc.devRef .tc main_v9) = val_main_v9 (F := F) (m ((c.tc : Thread nD τ).loc main_arg12)) := s0_v9 (fun b => m (c, b)) (m ((c.tc : Thread nD τ).loc main_arg12)) rfl
theorem q0_v10 (m : (ℓ : Loc nD τ sig) → Buf (Elt F) ℓ) (c : Dev nD) : Q0 m c (Proc.devRef .tc main_v10) = val_main_v10 (F := F) (m ((c.tc : Thread nD τ).loc main_arg12)) := s0_v10 (fun b => m (c, b)) (m ((c.tc : Thread nD τ).loc main_arg12)) rfl
theorem q0_c (m : (ℓ : Loc nD τ sig) → Buf (Elt F) ℓ) (c : Dev nD) : Q0 m c (Proc.devRef .tc main_c) = val_main_c (F := F) := s0_c (fun b => m (c, b))
theorem q1_v11 (m : (ℓ : Loc nD τ sig) → Buf (Elt F) ℓ) (c : Dev nD) : Q1 m c (Proc.devRef .tc main_v11) = val_main_v11 (F := F) (m ((c.tc : Thread nD τ).loc main_arg12)) := s1_v11 (Q0 m c) (m ((c.tc : Thread nD τ).loc main_arg12)) (q0_v10 m c) (q0_v9 m c) (q0_c m c)
theorem q1_v4 (m : (ℓ : Loc nD τ sig) → Buf (Elt F) ℓ) (c : Dev nD) : Q1 m c (Proc.devRef .tc main_v4) = val_main_v4 (F := F) (m ((c.tc : Thread nD τ).loc main_arg12)) := (r1_keep_v4 (Q0 m c)).trans (q0_v4 m c)
theorem q1_v9 (m : (ℓ : Loc nD τ sig) → Buf (Elt F) ℓ) (c : Dev nD) : Q1 m c (Proc.devRef .tc main_v9) = val_main_v9 (F := F) (m ((c.tc : Thread nD τ).loc main_arg12)) := (r1_keep_v9 (Q0 m c)).trans (q0_v9 m c)
theorem q2_v14 (m : (ℓ : Loc nD τ sig) → Buf (Elt F) ℓ) (c : Dev nD) : Q2 m c (Proc.devRef .tc main_v14) = val_main_v14 (F := F) (m ((c.tc : Thread nD τ).loc main_arg12)) := s2_v14 (Q1 m c) (m ((c.tc : Thread nD τ).loc main_arg12)) (q1_v4 m c) (q1_v9 m c) (q1_v11 m c)
theorem q2_v24 (m : (ℓ : Loc nD τ sig) → Buf (Elt F) ℓ) (c : Dev nD) : Q2 m c (Proc.devRef .tc main_v24) = val_main_v24 (F := F) (m ((c.tc : Thread nD τ).loc main_arg12)) := s2_v24 (Q1 m c) (m ((c.tc : Thread nD τ).loc main_arg12)) (q1_v4 m c) (q1_v9 m c) (q1_v11 m c)
theorem q2_c3 (m : (ℓ : Loc nD τ sig) → Buf (Elt F) ℓ) (c : Dev nD) : Q2 m c (Proc.devRef .tc main_c_3) = val_main_c_3 (F := F) := s2_c3 (Q1 m c)
theorem q2_v4 (m : (ℓ : Loc nD τ sig) → Buf (Elt F) ℓ) (c : Dev nD) : Q2 m c (Proc.devRef .tc main_v4) = val_main_v4 (F := F) (m ((c.tc : Thread nD τ).loc main_arg12)) := (r2_keep_v4 (Q1 m c)).trans (q1_v4 m c)
theorem q2_v9 (m : (ℓ : Loc nD τ sig) → Buf (Elt F) ℓ) (c : Dev nD) : Q2 m c (Proc.devRef .tc main_v9) = val_main_v9 (F := F) (m ((c.tc : Thread nD τ).loc main_arg12)) := (r2_keep_v9 (Q1 m c)).trans (q1_v9 m c)
theorem q3_v25 (m : (ℓ : Loc nD τ sig) → Buf (Elt F) ℓ) (c : Dev nD) : Q3 m c (Proc.devRef .tc main_v25) = val_main_v25 (F := F) (m ((c.tc : Thread nD τ).loc main_arg12)) := s3_v25 (Q2 m c) (m ((c.tc : Thread nD τ).loc main_arg12)) (q2_v24 m c) (q2_v9 m c) (q2_c3 m c)
theorem q3_v4 (m : (ℓ : Loc nD τ sig) → Buf (Elt F) ℓ) (c : Dev nD) : Q3 m c (Proc.devRef .tc main_v4) = val_main_v4 (F := F) (m ((c.tc : Thread nD τ).loc main_arg12)) := (r3_keep_v4 (Q2 m c)).trans (q2_v4 m c)
theorem q3_v14 (m : (ℓ : Loc nD τ sig) → Buf (Elt F) ℓ) (c : Dev nD) : Q3 m c (Proc.devRef .tc main_v14) = val_main_v14 (F := F) (m ((c.tc : Thread nD τ).loc main_arg12)) := (r3_keep_v14 (Q2 m c)).trans (q2_v14 m c)
theorem q4_v28 (m : (ℓ : Loc nD τ sig) → Buf (Elt F) ℓ) (c : Dev nD) : Q4 m c (Proc.devRef .tc main_v28) = val_main_v28 (F := F) (m ((c.tc : Thread nD τ).loc main_arg12)) := s4_v28 (Q3 m c) (m ((c.tc : Thread nD τ).loc main_arg12)) (q3_v4 m c) (q3_v25 m c)
theorem q4_v30 (m : (ℓ : Loc nD τ sig) → Buf (Elt F) ℓ) (c : Dev nD) : Q4 m c (Proc.devRef .tc main_v30) = val_main_v30 (F := F) (m ((c.tc : Thread nD τ).loc main_arg12)) := s4_v30 (Q3 m c) (m ((c.tc : Thread nD τ).loc main_arg12)) (q3_v4 m c) (q3_v25 m c)
theorem q4_c6 (m : (ℓ : Loc nD τ sig) → Buf (Elt F) ℓ) (c : Dev nD) : Q4 m c (Proc.devRef .tc main_c_6) = val_main_c_6 (F := F) := s4_c6 (Q3 m c)
theorem q4_c7 (m : (ℓ : Loc nD τ sig) → Buf (Elt F) ℓ) (c : Dev nD) : Q4 m c (Proc.devRef .tc main_c_7) = val_main_c_7 (F := F) := s4_c7 (Q3 m c)
theorem q4_v14 (m : (ℓ : Loc nD τ sig) → Buf (Elt F) ℓ) (c : Dev nD) : Q4 m c (Proc.devRef .tc main_v14) = val_main_v14 (F := F) (m ((c.tc : Thread nD τ).loc main_arg12)) := (r4_keep_v14 (Q3 m c)).trans (q3_v14 m c)
theorem q5_v31 (m : (ℓ : Loc nD τ sig) → Buf (Elt F) ℓ) (c : Dev nD) : Q5 m c (Proc.devRef .tc main_v31) = val_main_v31 (F := F) (m ((c.tc : Thread nD τ).loc main_arg12)) := s5_v31 (Q4 m c) (m ((c.tc : Thread nD τ).loc main_arg12)) (q4_v14 m c) (q4_c6 m c) (q4_c7 m c)
theorem q5_v28 (m : (ℓ : Loc nD τ sig) → Buf (Elt F) ℓ) (c : Dev nD) : Q5 m c (Proc.devRef .tc main_v28) = val_main_v28 (F := F) (m ((c.tc : Thread nD τ).loc main_arg12)) := (r5_keep_v28 (Q4 m c)).trans (q4_v28 m c)
theorem q5_v30 (m : (ℓ : Loc nD τ sig) → Buf (Elt F) ℓ) (c : Dev nD) : Q5 m c (Proc.devRef .tc main_v30) = val_main_v30 (F := F) (m ((c.tc : Thread nD τ).loc main_arg12)) := (r5_keep_v30 (Q4 m c)).trans (q4_v30 m c)
theorem q6_c8 (m : (ℓ : Loc nD τ sig) → Buf (Elt F) ℓ) (c : Dev nD) : Q6 m c (Proc.devRef .tc main_c_8) = val_main_c_8 (F := F) := s6_c8 (Q5 m c)
theorem q6_c9 (m : (ℓ : Loc nD τ sig) → Buf (Elt F) ℓ) (c : Dev nD) : Q6 m c (Proc.devRef .tc main_c_9) = val_main_c_9 (F := F) := s6_c9 (Q5 m c)
theorem q6_v28 (m : (ℓ : Loc nD τ sig) → Buf (Elt F) ℓ) (c : Dev nD) : Q6 m c (Proc.devRef .tc main_v28) = val_main_v28 (F := F) (m ((c.tc : Thread nD τ).loc main_arg12)) := (r6_keep_v28 (Q5 m c)).trans (q5_v28 m c)
theorem q6_v30 (m : (ℓ : Loc nD τ sig) → Buf (Elt F) ℓ) (c : Dev nD) : Q6 m c (Proc.devRef .tc main_v30) = val_main_v30 (F := F) (m ((c.tc : Thread nD τ).loc main_arg12)) := (r6_keep_v30 (Q5 m c)).trans (q5_v30 m c)
theorem q6_v31 (m : (ℓ : Loc nD τ sig) → Buf (Elt F) ℓ) (c : Dev nD) : Q6 m c (Proc.devRef .tc main_v31) = val_main_v31 (F := F) (m ((c.tc : Thread nD τ).loc main_arg12)) := (r6_keep_v31 (Q5 m c)).trans (q5_v31 m c)
theorem q7_v32 (m : (ℓ : Loc nD τ sig) → Buf (Elt F) ℓ) (c : Dev nD) : Q7 m c (Proc.devRef .tc main_v32) = val_main_v32 (F := F) (m ((c.tc : Thread nD τ).loc main_arg12)) := s7_v32 (Q6 m c) (m ((c.tc : Thread nD τ).loc main_arg12)) (q6_v28 m c) (q6_c8 m c) (q6_c9 m c)
theorem q7_v30 (m : (ℓ : Loc nD τ sig) → Buf (Elt F) ℓ) (c : Dev nD) : Q7 m c (Proc.devRef .tc main_v30) = val_main_v30 (F := F) (m ((c.tc : Thread nD τ).loc main_arg12)) := (r7_keep_v30 (Q6 m c)).trans (q6_v30 m c)
theorem q7_v31 (m : (ℓ : Loc nD τ sig) → Buf (Elt F) ℓ) (c : Dev nD) : Q7 m c (Proc.devRef .tc main_v31) = val_main_v31 (F := F) (m ((c.tc : Thread nD τ).loc main_arg12)) := (r7_keep_v31 (Q6 m c)).trans (q6_v31 m c)

set_option maxHeartbeats 16000000 in
/-- The first eight stretches leave the first argument as launched. -/
theorem q7_arg0 (m : (ℓ : Loc nD τ sig) → Buf (Elt F) ℓ) (c : Dev nD) : Q7 m c (Proc.devRef .tc main_arg0) = (m ((c.tc : Thread nD τ).loc main_arg0)) := by
  unfold Q7 Q6 Q5 Q4 Q3 Q2 Q1 Q0
  simp only [ops, List.drop_succ_cons, List.drop_zero, List.take_succ_cons, List.take_zero]
  after_results_simp
  try rfl
theorem q8a_v39 (m : (ℓ : Loc nD τ sig) → Buf (Elt F) ℓ) (c : Dev nD) : Q8a m c (Proc.devRef .tc main_v39) = val_main_v39 (F := F) (m ((c.tc : Thread nD τ).loc main_arg0)) (m ((c.tc : Thread nD τ).loc main_arg12)) := s8_v39 (Q7 m c) (m ((c.tc : Thread nD τ).loc main_arg0)) (m ((c.tc : Thread nD τ).loc main_arg12)) (q7_arg0 m c) (q7_v31 m c)
theorem q8a_v46 (m : (ℓ : Loc nD τ sig) → Buf (Elt F) ℓ) (c : Dev nD) : Q8a m c (Proc.devRef .tc main_v46) = val_main_v46 (F := F) (m ((c.tc : Thread nD τ).loc main_arg0)) (m ((c.tc : Thread nD τ).loc main_arg12)) := s8_v46 (Q7 m c) (m ((c.tc : Thread nD τ).loc main_arg0)) (m ((c.tc : Thread nD τ).loc main_arg12)) (q7_arg0 m c) (q7_v32 m c)
theorem q8a_v30 (m : (ℓ : Loc nD τ sig) → Buf (Elt F) ℓ) (c : Dev nD) : Q8a m c (Proc.devRef .tc main_v30) = val_main_v30 (F := F) (m ((c.tc : Thread nD τ).loc main_arg12)) := (r8a_keep_v30 (Q7 m c)).trans (q7_v30 m c)
theorem q8a_v31 (m : (ℓ : Loc nD τ sig) → Buf (Elt F) ℓ) (c : Dev nD) : Q8a m c (Proc.devRef .tc main_v31) = val_main_v31 (F := F) (m ((c.tc : Thread nD τ).loc main_arg12)) := (r8a_keep_v31 (Q7 m c)).trans (q7_v31 m c)
theorem q8a_v32 (m : (ℓ : Loc nD τ sig) → Buf (Elt F) ℓ) (c : Dev nD) : Q8a m c (Proc.devRef .tc main_v32) = val_main_v32 (F := F) (m ((c.tc : Thread nD τ).loc main_arg12)) := (r8a_keep_v32 (Q7 m c)).trans (q7_v32 m c)

set_option maxHeartbeats 16000000 in
/-- The first nine stretches leave the first argument as launched. -/
theorem q8a_arg0 (m : (ℓ : Loc nD τ sig) → Buf (Elt F) ℓ) (c : Dev nD) : Q8a m c (Proc.devRef .tc main_arg0) = (m ((c.tc : Thread nD τ).loc main_arg0)) := by
  unfold Q8a Q7 Q6 Q5 Q4 Q3 Q2 Q1 Q0
  simp only [ops, List.drop_succ_cons, List.drop_zero, List.take_succ_cons, List.take_zero]
  after_results_simp
  try rfl
theorem q8b_v47 (m : (ℓ : Loc nD τ sig) → Buf (Elt F) ℓ) (c : Dev nD) : Q8b m c (Proc.devRef .tc main_v47) = val_main_v47 (F := F) (m ((c.tc : Thread nD τ).loc main_arg0)) (m ((c.tc : Thread nD τ).loc main_arg12)) := s8b_v47 (Q8a m c) (m ((c.tc : Thread nD τ).loc main_arg0)) _ _ (q8a_arg0 m c) (q8a_v39 m c) (q8a_v46 m c)
theorem q8b_v30 (m : (ℓ : Loc nD τ sig) → Buf (Elt F) ℓ) (c : Dev nD) : Q8b m c (Proc.devRef .tc main_v30) = val_main_v30 (F := F) (m ((c.tc : Thread nD τ).loc main_arg12)) := (r8b_keep_v30 (Q8a m c)).trans (q8a_v30 m c)
theorem q8b_v31 (m : (ℓ : Loc nD τ sig) → Buf (Elt F) ℓ) (c : Dev nD) : Q8b m c (Proc.devRef .tc main_v31) = val_main_v31 (F := F) (m ((c.tc : Thread nD τ).loc main_arg12)) := (r8b_keep_v31 (Q8a m c)).trans (q8a_v31 m c)
theorem q8b_v32 (m : (ℓ : Loc nD τ sig) → Buf (Elt F) ℓ) (c : Dev nD) : Q8b m c (Proc.devRef .tc main_v32) = val_main_v32 (F := F) (m ((c.tc : Thread nD τ).loc main_arg12)) := (r8b_keep_v32 (Q8a m c)).trans (q8a_v32 m c)

set_option maxHeartbeats 16000000 in
/-- The first ten stretches leave argument 0 as launched. -/
theorem q8b_arg0 (m : (ℓ : Loc nD τ sig) → Buf (Elt F) ℓ) (c : Dev nD) : Q8b m c (Proc.devRef .tc main_arg0) = (m ((c.tc : Thread nD τ).loc main_arg0)) := by
  unfold Q8b Q8a Q7 Q6 Q5 Q4 Q3 Q2 Q1 Q0
  simp only [ops, List.drop_succ_cons, List.drop_zero, List.take_succ_cons, List.take_zero]
  after_results_simp
  try rfl

set_option maxHeartbeats 16000000 in
/-- The first ten stretches leave argument 1 as launched. -/
theorem q8b_arg1 (m : (ℓ : Loc nD τ sig) → Buf (Elt F) ℓ) (c : Dev nD) : Q8b m c (Proc.devRef .tc main_arg1) = (m ((c.tc : Thread nD τ).loc main_arg1)) := by
  unfold Q8b Q8a Q7 Q6 Q5 Q4 Q3 Q2 Q1 Q0
  simp only [ops, List.drop_succ_cons, List.drop_zero, List.take_succ_cons, List.take_zero]
  after_results_simp
  try rfl

set_option maxHeartbeats 16000000 in
/-- The first ten stretches leave argument 2 as launched. -/
theorem q8b_arg2 (m : (ℓ : Loc nD τ sig) → Buf (Elt F) ℓ) (c : Dev nD) : Q8b m c (Proc.devRef .tc main_arg2) = (m ((c.tc : Thread nD τ).loc main_arg2)) := by
  unfold Q8b Q8a Q7 Q6 Q5 Q4 Q3 Q2 Q1 Q0
  simp only [ops, List.drop_succ_cons, List.drop_zero, List.take_succ_cons, List.take_zero]
  after_results_simp
  try rfl

set_option maxHeartbeats 16000000 in
/-- The first ten stretches leave argument 3 as launched. -/
theorem q8b_arg3 (m : (ℓ : Loc nD τ sig) → Buf (Elt F) ℓ) (c : Dev nD) : Q8b m c (Proc.devRef .tc main_arg3) = (m ((c.tc : Thread nD τ).loc main_arg3)) := by
  unfold Q8b Q8a Q7 Q6 Q5 Q4 Q3 Q2 Q1 Q0
  simp only [ops, List.drop_succ_cons, List.drop_zero, List.take_succ_cons, List.take_zero]
  after_results_simp
  try rfl

set_option maxHeartbeats 16000000 in
/-- The first ten stretches leave argument 4 as launched. -/
theorem q8b_arg4 (m : (ℓ : Loc nD τ sig) → Buf (Elt F) ℓ) (c : Dev nD) : Q8b m c (Proc.devRef .tc main_arg4) = (m ((c.tc : Thread nD τ).loc main_arg4)) := by
  unfold Q8b Q8a Q7 Q6 Q5 Q4 Q3 Q2 Q1 Q0
  simp only [ops, List.drop_succ_cons, List.drop_zero, List.take_succ_cons, List.take_zero]
  after_results_simp
  try rfl

set_option maxHeartbeats 16000000 in
/-- The first ten stretches leave argument 5 as launched. -/
theorem q8b_arg5 (m : (ℓ : Loc nD τ sig) → Buf (Elt F) ℓ) (c : Dev nD) : Q8b m c (Proc.devRef .tc main_arg5) = (m ((c.tc : Thread nD τ).loc main_arg5)) := by
  unfold Q8b Q8a Q7 Q6 Q5 Q4 Q3 Q2 Q1 Q0
  simp only [ops, List.drop_succ_cons, List.drop_zero, List.take_succ_cons, List.take_zero]
  after_results_simp
  try rfl

set_option maxHeartbeats 16000000 in
/-- The first ten stretches leave argument 6 as launched. -/
theorem q8b_arg6 (m : (ℓ : Loc nD τ sig) → Buf (Elt F) ℓ) (c : Dev nD) : Q8b m c (Proc.devRef .tc main_arg6) = (m ((c.tc : Thread nD τ).loc main_arg6)) := by
  unfold Q8b Q8a Q7 Q6 Q5 Q4 Q3 Q2 Q1 Q0
  simp only [ops, List.drop_succ_cons, List.drop_zero, List.take_succ_cons, List.take_zero]
  after_results_simp
  try rfl

set_option maxHeartbeats 16000000 in
/-- The first ten stretches leave argument 7 as launched. -/
theorem q8b_arg7 (m : (ℓ : Loc nD τ sig) → Buf (Elt F) ℓ) (c : Dev nD) : Q8b m c (Proc.devRef .tc main_arg7) = (m ((c.tc : Thread nD τ).loc main_arg7)) := by
  unfold Q8b Q8a Q7 Q6 Q5 Q4 Q3 Q2 Q1 Q0
  simp only [ops, List.drop_succ_cons, List.drop_zero, List.take_succ_cons, List.take_zero]
  after_results_simp
  try rfl

set_option maxHeartbeats 16000000 in
/-- The first ten stretches leave argument 8 as launched. -/
theorem q8b_arg8 (m : (ℓ : Loc nD τ sig) → Buf (Elt F) ℓ) (c : Dev nD) : Q8b m c (Proc.devRef .tc main_arg8) = (m ((c.tc : Thread nD τ).loc main_arg8)) := by
  unfold Q8b Q8a Q7 Q6 Q5 Q4 Q3 Q2 Q1 Q0
  simp only [ops, List.drop_succ_cons, List.drop_zero, List.take_succ_cons, List.take_zero]
  after_results_simp
  try rfl

set_option maxHeartbeats 16000000 in
/-- The first ten stretches leave argument 9 as launched. -/
theorem q8b_arg9 (m : (ℓ : Loc nD τ sig) → Buf (Elt F) ℓ) (c : Dev nD) : Q8b m c (Proc.devRef .tc main_arg9) = (m ((c.tc : Thread nD τ).loc main_arg9)) := by
  unfold Q8b Q8a Q7 Q6 Q5 Q4 Q3 Q2 Q1 Q0
  simp only [ops, List.drop_succ_cons, List.drop_zero, List.take_succ_cons, List.take_zero]
  after_results_simp
  try rfl

set_option maxHeartbeats 16000000 in
/-- The first ten stretches leave argument 10 as launched. -/
theorem q8b_arg10 (m : (ℓ : Loc nD τ sig) → Buf (Elt F) ℓ) (c : Dev nD) : Q8b m c (Proc.devRef .tc main_arg10) = (m ((c.tc : Thread nD τ).loc main_arg10)) := by
  unfold Q8b Q8a Q7 Q6 Q5 Q4 Q3 Q2 Q1 Q0
  simp only [ops, List.drop_succ_cons, List.drop_zero, List.take_succ_cons, List.take_zero]
  after_results_simp
  try rfl

set_option maxHeartbeats 16000000 in
/-- The first ten stretches leave argument 11 as launched. -/
theorem q8b_arg11 (m : (ℓ : Loc nD τ sig) → Buf (Elt F) ℓ) (c : Dev nD) : Q8b m c (Proc.devRef .tc main_arg11) = (m ((c.tc : Thread nD τ).loc main_arg11)) := by
  unfold Q8b Q8a Q7 Q6 Q5 Q4 Q3 Q2 Q1 Q0
  simp only [ops, List.drop_succ_cons, List.drop_zero, List.take_succ_cons, List.take_zero]
  after_results_simp
  try rfl

set_option maxHeartbeats 16000000 in
/-- The first ten stretches leave argument 13 as launched. -/
theorem q8b_arg13 (m : (ℓ : Loc nD τ sig) → Buf (Elt F) ℓ) (c : Dev nD) : Q8b m c (Proc.devRef .tc main_arg13) = (m ((c.tc : Thread nD τ).loc main_arg13)) := by
  unfold Q8b Q8a Q7 Q6 Q5 Q4 Q3 Q2 Q1 Q0
  simp only [ops, List.drop_succ_cons, List.drop_zero, List.take_succ_cons, List.take_zero]
  after_results_simp
  try rfl

/-- The first result of the reference, as the last stage of its chain. -/
theorem res116 (m : (ℓ : Loc nD τ sig) → Buf (Elt F) ℓ) (c : Dev nD) :
    StableHlo.after (ops (F := F)) (fun b => m (c, b)) (Proc.devRef .tc main_v116) = val_main_v116 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) := by
  rw [after_chain]
  exact s9_v116 (Q8b m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) (q8b_v47 m c) (q8b_v31 m c) (q8b_v32 m c) (q8b_v30 m c) (q8b_arg0 m c) (q8b_arg1 m c) (q8b_arg2 m c) (q8b_arg3 m c) (q8b_arg4 m c) (q8b_arg5 m c) (q8b_arg6 m c) (q8b_arg7 m c) (q8b_arg13 m c)

/-- The second result. -/
theorem res123 (m : (ℓ : Loc nD τ sig) → Buf (Elt F) ℓ) (c : Dev nD) :
    StableHlo.after (ops (F := F)) (fun b => m (c, b)) (Proc.devRef .tc main_v123) = val_main_v123 (F := F) (m ((c.tc : Thread nD τ).loc main_arg1)) (m ((c.tc : Thread nD τ).loc main_arg12)) (m ((c.tc : Thread nD τ).loc main_arg13)) := by
  rw [after_chain]
  exact s9_v123 (Q8b m c) (m ((c.tc : Thread nD τ).loc main_arg1)) (m ((c.tc : Thread nD τ).loc main_arg12)) (m ((c.tc : Thread nD τ).loc main_arg13)) (q8b_v31 m c) (q8b_v32 m c) (q8b_v30 m c) (q8b_arg1 m c) (q8b_arg13 m c)

/-- The third result. -/
theorem res127 (m : (ℓ : Loc nD τ sig) → Buf (Elt F) ℓ) (c : Dev nD) :
    StableHlo.after (ops (F := F)) (fun b => m (c, b)) (Proc.devRef .tc main_v127) = val_main_v127 (F := F) (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_chain]
  exact s9_v127 (Q8b m c) (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (q8b_v47 m c) (q8b_v30 m c) (q8b_arg8 m c) (q8b_arg9 m c) (q8b_arg10 m c) (q8b_arg11 m c) (q8b_arg13 m c)

set_option maxRecDepth 200000 in
set_option maxHeartbeats 40000000 in
/-- Every weakly fair execution of the reference terminates with its three results at their stages of the arguments,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116) = val_main_v116 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13))
      ∧ r.2.mem ((c.tc : Thread nD τ).loc main_v123) = val_main_v123 (F := F) (m ((c.tc : Thread nD τ).loc main_arg1)) (m ((c.tc : Thread nD τ).loc main_arg12)) (m ((c.tc : Thread nD τ).loc main_arg13))
      ∧ r.2.mem ((c.tc : Thread nD τ).loc main_v127) = val_main_v127 (F := F) (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v116).trans (res116 m c),
      (h c main_v123).trans (res123 m c),
      (h c main_v127).trans (res127 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_seq scopedRefs_eq scopedSems_eq defs main (fun _ => ops) main_eq (fun _ => ops_sub) m ρ)

end Cert.RefRun

end
-- ==== Proof.KPieces.lean ====
/-
  What the body leaves in each output and each carried accumulator, case by case, as the body's own arithmetic.
  The body has three control cases: the first grid point (it zeroes the three one-cell accumulators first), the
  middle points, and the last point (it also writes the two quotients). In every case the update block is one
  covering store of the update payload, and each accumulator ends at its payload of what it held before (zero at the
  first point); at the last point the two scalar outputs are the quotient payloads of the accumulators just stored.
  Each lemma reads the stores the run found back as a value: a covering store's canon is its payload, and a load of a
  whole buffer at contents `x` reads `x`.
-/
import proofs.«144948_j85856396247188_2_alg».proof.Proof.Gen.KernelIdeal.Frame
import Idealize.ShloMosaic.Lib.Pipeline.Value
import Idealize.ShloMosaic.Lib.Tactic

set_option maxRecDepth 16384

noncomputable section

namespace Cert.KPieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-! ## The first point -/

theorem oA15 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : cond0_0 i) (hc1 : ¬cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 = k0_pay23 x0 (k0_pay21 (k0_pay7 x0 x1 x2) (k0_pay8 x5) (k0_pay9 x6) (k0_pay10 x7) (k0_pay11 x8) (k0_pay12 x9) (k0_pay13 x10) x3 x4) (k0_pay22 x0) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

theorem sA0 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : cond0_0 i) (hc1 : ¬cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 = k0_pay24 (k0_pay19 x3) (k0_pay20 x4) k0_pay4 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14)]
  unfold kernelRun0_A
  dsimp only
  sl_unfold_words
  rw [View.canon_cons_unit_zero (S := S1x1) hz]
  try simp only [View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

theorem sA1 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : cond0_0 i) (hc1 : ¬cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 = k0_pay25 (k0_pay18 (k0_pay7 x0 x1 x2) (k0_pay14 x11) (k0_pay15 x12) (k0_pay16 x13) (k0_pay17 x14)) (k0_pay20 x4) k0_pay5 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14)]
  unfold kernelRun0_A
  dsimp only
  sl_unfold_words
  rw [View.canon_cons_unit_zero (S := S1x1) hz]
  try simp only [View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

theorem sA2 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : cond0_0 i) (hc1 : ¬cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 = k0_pay26 (k0_pay20 x4) k0_pay6 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14)]
  unfold kernelRun0_A
  dsimp only
  sl_unfold_words
  rw [View.canon_cons_unit_zero (S := S1x1) hz]
  try simp only [View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

/-! ## The middle points -/

theorem oB15 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : ¬cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) (xs0 : Vec F S1x1 .f32) (xs1 : Vec F S1x1 .f32) (xs2 : Vec F S1x1 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay23 x0 (k0_pay21 (k0_pay7 x0 x1 x2) (k0_pay8 x5) (k0_pay9 x6) (k0_pay10 x7) (k0_pay11 x8) (k0_pay12 x9) (k0_pay13 x10) x3 x4) (k0_pay22 x0) := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

theorem sB0 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : ¬cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) (xs0 : Vec F S1x1 .f32) (xs1 : Vec F S1x1 .f32) (xs2 : Vec F S1x1 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay24 (k0_pay19 x3) (k0_pay20 x4) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

theorem sB1 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : ¬cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) (xs0 : Vec F S1x1 .f32) (xs1 : Vec F S1x1 .f32) (xs2 : Vec F S1x1 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay25 (k0_pay18 (k0_pay7 x0 x1 x2) (k0_pay14 x11) (k0_pay15 x12) (k0_pay16 x13) (k0_pay17 x14)) (k0_pay20 x4) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

theorem sB2 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : ¬cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) (xs0 : Vec F S1x1 .f32) (xs1 : Vec F S1x1 .f32) (xs2 : Vec F S1x1 .f32) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay26 (k0_pay20 x4) xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

/-! ## The last point -/

theorem oC15 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) (xs0 : Vec F S1x1 .f32) (xs1 : Vec F S1x1 .f32) (xs2 : Vec F S1x1 .f32) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay23 x0 (k0_pay21 (k0_pay7 x0 x1 x2) (k0_pay8 x5) (k0_pay9 x6) (k0_pay10 x7) (k0_pay11 x8) (k0_pay12 x9) (k0_pay13 x10) x3 x4) (k0_pay22 x0) := by
  unfold out0_C_15
  rw [View.read_writes_eq_canon _ _ _ (cover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

theorem sC0 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) (xs0 : Vec F S1x1 .f32) (xs1 : Vec F S1x1 .f32) (xs2 : Vec F S1x1 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay24 (k0_pay19 x3) (k0_pay20 x4) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

theorem sC1 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) (xs0 : Vec F S1x1 .f32) (xs1 : Vec F S1x1 .f32) (xs2 : Vec F S1x1 .f32) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay25 (k0_pay18 (k0_pay7 x0 x1 x2) (k0_pay14 x11) (k0_pay15 x12) (k0_pay16 x13) (k0_pay17 x14)) (k0_pay20 x4) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

theorem sC2 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) (xs0 : Vec F S1x1 .f32) (xs1 : Vec F S1x1 .f32) (xs2 : Vec F S1x1 .f32) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay26 (k0_pay20 x4) xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

theorem oC16 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) (xs0 : Vec F S1x1 .f32) (xs1 : Vec F S1x1 .f32) (xs2 : Vec F S1x1 .f32) :
    out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay2 (k0_pay26 (k0_pay20 x4) xs2) (k0_pay24 (k0_pay19 x3) (k0_pay20 x4) xs0) := by
  unfold out0_C_16
  rw [View.read_writes_eq_canon _ _ _ (cover0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_C
  dsimp only
  sl_unfold_words
  rw [View.canon_unit_zero hz]
  simp only [View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

theorem oC17 (c : Dev nD) (i : grid0.Coords) (arg1 : Memref sig .tc .vmem S6000x64 .f32) (harg1 : arg1.IsWhole) (arg2 : Memref sig .tc .vmem S6000x64 .f32) (harg2 : arg2.IsWhole) (arg3 : Memref sig .tc .vmem S6000x64 .f32) (harg3 : arg3.IsWhole) (arg4 : Memref sig .tc .vmem S6000x1 .f32) (harg4 : arg4.IsWhole) (arg5 : Memref sig .tc .vmem S6000x1 .f32) (harg5 : arg5.IsWhole) (arg6 : Memref sig .tc .vmem S192x64 .bf16) (harg6 : arg6.IsWhole) (arg7 : Memref sig .tc .vmem S1x64 .f32) (harg7 : arg7.IsWhole) (arg8 : Memref sig .tc .vmem S64x32 .bf16) (harg8 : arg8.IsWhole) (arg9 : Memref sig .tc .vmem S1x32 .f32) (harg9 : arg9.IsWhole) (arg10 : Memref sig .tc .vmem S32x1 .bf16) (harg10 : arg10.IsWhole) (arg11 : Memref sig .tc .vmem S1x1 .f32) (harg11 : arg11.IsWhole) (arg12 : Memref sig .tc .vmem S192x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S6000x64 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (x0 : Vec F S6000x64 .f32) (x1 : Vec F S6000x64 .f32) (x2 : Vec F S6000x64 .f32) (x3 : Vec F S6000x1 .f32) (x4 : Vec F S6000x1 .f32) (x5 : Vec F S192x64 .bf16) (x6 : Vec F S1x64 .f32) (x7 : Vec F S64x32 .bf16) (x8 : Vec F S1x32 .f32) (x9 : Vec F S32x1 .bf16) (x10 : Vec F S1x1 .f32) (x11 : Vec F S192x64 .bf16) (x12 : Vec F S1x64 .f32) (x13 : Vec F S64x1 .bf16) (x14 : Vec F S1x1 .f32) (xs0 : Vec F S1x1 .f32) (xs1 : Vec F S1x1 .f32) (xs2 : Vec F S1x1 .f32) :
    out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 = k0_pay3 (k0_pay26 (k0_pay20 x4) xs2) (k0_pay25 (k0_pay18 (k0_pay7 x0 x1 x2) (k0_pay14 x11) (k0_pay15 x12) (k0_pay16 x13) (k0_pay17 x14)) (k0_pay20 x4) xs1) := by
  unfold out0_C_17
  rw [View.read_writes_eq_canon _ _ _ (cover0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2)]
  unfold kernelRun0_C
  dsimp only
  sl_unfold_words
  rw [View.canon_unit_zero hz]
  simp only [View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1x1) hz, View.ld_unit_zero (S := S6000x1) hz, View.ld_unit_zero (S := S6000x64) hz, View.ld_unit_zero (S := S192x64) hz, View.ld_unit_zero (S := S1x64) hz, View.ld_unit_zero (S := S64x32) hz, View.ld_unit_zero (S := S1x32) hz, View.ld_unit_zero (S := S32x1) hz, View.ld_unit_zero (S := S64x1) hz]

end Cert.KPieces

end
-- ==== Proof.KAcc.lean ====
/-
  The accumulation over the grid. The kernel visits 50 grid points in order; three one-cell accumulators are carried
  from each point to the next: the masked sum of the violation column, the masked sum of the compliances, and the
  count of active rows. After point `n` each holds the body's accumulator payload of the point's blocks over what it
  held after point `n - 1`, and over the stored zero at the first point: a recursion on the point. By induction on the
  point this recursion is what the frame's point-by-point record of the run holds. The update block of every point is
  the update payload of that point's blocks; the two scalar outputs, written at the last point, are the quotient
  payloads of the accumulators after that point.
-/
import proofs.«144948_j85856396247188_2_alg».proof.Proof.KPieces

set_option maxRecDepth 16384
set_option maxHeartbeats 1000000

noncomputable section

namespace Cert.KAcc

open Idealize.ShloMosaic Idealize.ShloMosaic.TcCoe Idealize.SL.Sem
open Cert.KernelIdeal Cert.KernelIdeal.Gen Cert.KPieces

variable {F : FTy → Type} [FloatOps F]
variable (m : (ℓ : Loc nD τ sig) → Buf (Elt F) ℓ)

/-- Input window 0's block at point `t`, at its plain vector type. -/
def bk0 (c : Dev nD) (t : Fin cfg0.N) : Vec F S6000x64 .f32 := iblk m c 0 t
/-- Input window 1's block at point `t`, at its plain vector type. -/
def bk1 (c : Dev nD) (t : Fin cfg0.N) : Vec F S6000x64 .f32 := iblk m c 1 t
/-- Input window 2's block at point `t`, at its plain vector type. -/
def bk2 (c : Dev nD) (t : Fin cfg0.N) : Vec F S6000x64 .f32 := iblk m c 2 t
/-- Input window 3's block at point `t`, at its plain vector type. -/
def bk3 (c : Dev nD) (t : Fin cfg0.N) : Vec F S6000x1 .f32 := iblk m c 3 t
/-- Input window 4's block at point `t`, at its plain vector type. -/
def bk4 (c : Dev nD) (t : Fin cfg0.N) : Vec F S6000x1 .f32 := iblk m c 4 t
/-- Input window 5's block at point `t`, at its plain vector type. -/
def bk5 (c : Dev nD) (t : Fin cfg0.N) : Vec F S192x64 .bf16 := iblk m c 5 t
/-- Input window 6's block at point `t`, at its plain vector type. -/
def bk6 (c : Dev nD) (t : Fin cfg0.N) : Vec F S1x64 .f32 := iblk m c 6 t
/-- Input window 7's block at point `t`, at its plain vector type. -/
def bk7 (c : Dev nD) (t : Fin cfg0.N) : Vec F S64x32 .bf16 := iblk m c 7 t
/-- Input window 8's block at point `t`, at its plain vector type. -/
def bk8 (c : Dev nD) (t : Fin cfg0.N) : Vec F S1x32 .f32 := iblk m c 8 t
/-- Input window 9's block at point `t`, at its plain vector type. -/
def bk9 (c : Dev nD) (t : Fin cfg0.N) : Vec F S32x1 .bf16 := iblk m c 9 t
/-- Input window 10's block at point `t`, at its plain vector type. -/
def bk10 (c : Dev nD) (t : Fin cfg0.N) : Vec F S1x1 .f32 := iblk m c 10 t
/-- Input window 11's block at point `t`, at its plain vector type. -/
def bk11 (c : Dev nD) (t : Fin cfg0.N) : Vec F S192x64 .bf16 := iblk m c 11 t
/-- Input window 12's block at point `t`, at its plain vector type. -/
def bk12 (c : Dev nD) (t : Fin cfg0.N) : Vec F S1x64 .f32 := iblk m c 12 t
/-- Input window 13's block at point `t`, at its plain vector type. -/
def bk13 (c : Dev nD) (t : Fin cfg0.N) : Vec F S64x1 .bf16 := iblk m c 13 t
/-- Input window 14's block at point `t`, at its plain vector type. -/
def bk14 (c : Dev nD) (t : Fin cfg0.N) : Vec F S1x1 .f32 := iblk m c 14 t

/-- The violation accumulator after point `n`. -/
def accV (c : Dev nD) : (n : ℕ) → n < cfg0.N → Vec F S1x1 .f32
  | 0, h => k0_pay24 (k0_pay19 (bk3 m c ⟨0, h⟩)) (k0_pay20 (bk4 m c ⟨0, h⟩)) k0_pay4
  | n + 1, h => k0_pay24 (k0_pay19 (bk3 m c ⟨n + 1, h⟩)) (k0_pay20 (bk4 m c ⟨n + 1, h⟩)) (accV c n (Nat.lt_of_succ_lt h))

/-- The compliance accumulator after point `n`. -/
def accC (c : Dev nD) : (n : ℕ) → n < cfg0.N → Vec F S1x1 .f32
  | 0, h => k0_pay25 (k0_pay18 (k0_pay7 (bk0 m c ⟨0, h⟩) (bk1 m c ⟨0, h⟩) (bk2 m c ⟨0, h⟩)) (k0_pay14 (bk11 m c ⟨0, h⟩)) (k0_pay15 (bk12 m c ⟨0, h⟩)) (k0_pay16 (bk13 m c ⟨0, h⟩)) (k0_pay17 (bk14 m c ⟨0, h⟩))) (k0_pay20 (bk4 m c ⟨0, h⟩)) k0_pay5
  | n + 1, h => k0_pay25 (k0_pay18 (k0_pay7 (bk0 m c ⟨n + 1, h⟩) (bk1 m c ⟨n + 1, h⟩) (bk2 m c ⟨n + 1, h⟩)) (k0_pay14 (bk11 m c ⟨n + 1, h⟩)) (k0_pay15 (bk12 m c ⟨n + 1, h⟩)) (k0_pay16 (bk13 m c ⟨n + 1, h⟩)) (k0_pay17 (bk14 m c ⟨n + 1, h⟩))) (k0_pay20 (bk4 m c ⟨n + 1, h⟩)) (accC c n (Nat.lt_of_succ_lt h))

/-- The counter after point `n`. -/
def accN (c : Dev nD) : (n : ℕ) → n < cfg0.N → Vec F S1x1 .f32
  | 0, h => k0_pay26 (k0_pay20 (bk4 m c ⟨0, h⟩)) k0_pay6
  | n + 1, h => k0_pay26 (k0_pay20 (bk4 m c ⟨n + 1, h⟩)) (accN c n (Nat.lt_of_succ_lt h))

/-- The three carried accumulators the run records after point `n` are the recursion's. -/
theorem accs_eq (c : Dev nD) : ∀ (n : ℕ) (h : n < cfg0.N),
    (outsAt0 m c n h).2.2.2 = (accV m c n h, accC m c n h, accN m c n h)
  | 0, h => by
    have h0 : (⟨0, h⟩ : Fin cfg0.N).val % 50 = 0 := rfl
    have h1 : ¬(⟨0, h⟩ : Fin cfg0.N).val % 50 = 49 := fun hh => by have h49 : (0 : ℕ) % 50 = 49 := hh; omega
    rw [outsAt0_A m c (⟨0, h⟩ : Fin cfg0.N) h0 h1]
    refine Prod.ext ?_ (Prod.ext ?_ ?_)
    · exact sA0 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) scM0_0 (Memref.isWhole_whole _) scM0_1 (Memref.isWhole_whole _) scM0_2 (Memref.isWhole_whole _) ((hcond0_0 (⟨0, h⟩ : Fin cfg0.N)).mpr h0) (fun hh => h1 ((hcond0_1 (⟨0, h⟩ : Fin cfg0.N)).mp hh)) (bk0 m c (⟨0, h⟩ : Fin cfg0.N)) (bk1 m c (⟨0, h⟩ : Fin cfg0.N)) (bk2 m c (⟨0, h⟩ : Fin cfg0.N)) (bk3 m c (⟨0, h⟩ : Fin cfg0.N)) (bk4 m c (⟨0, h⟩ : Fin cfg0.N)) (bk5 m c (⟨0, h⟩ : Fin cfg0.N)) (bk6 m c (⟨0, h⟩ : Fin cfg0.N)) (bk7 m c (⟨0, h⟩ : Fin cfg0.N)) (bk8 m c (⟨0, h⟩ : Fin cfg0.N)) (bk9 m c (⟨0, h⟩ : Fin cfg0.N)) (bk10 m c (⟨0, h⟩ : Fin cfg0.N)) (bk11 m c (⟨0, h⟩ : Fin cfg0.N)) (bk12 m c (⟨0, h⟩ : Fin cfg0.N)) (bk13 m c (⟨0, h⟩ : Fin cfg0.N)) (bk14 m c (⟨0, h⟩ : Fin cfg0.N))
    · exact sA1 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) scM0_0 (Memref.isWhole_whole _) scM0_1 (Memref.isWhole_whole _) scM0_2 (Memref.isWhole_whole _) ((hcond0_0 (⟨0, h⟩ : Fin cfg0.N)).mpr h0) (fun hh => h1 ((hcond0_1 (⟨0, h⟩ : Fin cfg0.N)).mp hh)) (bk0 m c (⟨0, h⟩ : Fin cfg0.N)) (bk1 m c (⟨0, h⟩ : Fin cfg0.N)) (bk2 m c (⟨0, h⟩ : Fin cfg0.N)) (bk3 m c (⟨0, h⟩ : Fin cfg0.N)) (bk4 m c (⟨0, h⟩ : Fin cfg0.N)) (bk5 m c (⟨0, h⟩ : Fin cfg0.N)) (bk6 m c (⟨0, h⟩ : Fin cfg0.N)) (bk7 m c (⟨0, h⟩ : Fin cfg0.N)) (bk8 m c (⟨0, h⟩ : Fin cfg0.N)) (bk9 m c (⟨0, h⟩ : Fin cfg0.N)) (bk10 m c (⟨0, h⟩ : Fin cfg0.N)) (bk11 m c (⟨0, h⟩ : Fin cfg0.N)) (bk12 m c (⟨0, h⟩ : Fin cfg0.N)) (bk13 m c (⟨0, h⟩ : Fin cfg0.N)) (bk14 m c (⟨0, h⟩ : Fin cfg0.N))
    · exact sA2 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) scM0_0 (Memref.isWhole_whole _) scM0_1 (Memref.isWhole_whole _) scM0_2 (Memref.isWhole_whole _) ((hcond0_0 (⟨0, h⟩ : Fin cfg0.N)).mpr h0) (fun hh => h1 ((hcond0_1 (⟨0, h⟩ : Fin cfg0.N)).mp hh)) (bk0 m c (⟨0, h⟩ : Fin cfg0.N)) (bk1 m c (⟨0, h⟩ : Fin cfg0.N)) (bk2 m c (⟨0, h⟩ : Fin cfg0.N)) (bk3 m c (⟨0, h⟩ : Fin cfg0.N)) (bk4 m c (⟨0, h⟩ : Fin cfg0.N)) (bk5 m c (⟨0, h⟩ : Fin cfg0.N)) (bk6 m c (⟨0, h⟩ : Fin cfg0.N)) (bk7 m c (⟨0, h⟩ : Fin cfg0.N)) (bk8 m c (⟨0, h⟩ : Fin cfg0.N)) (bk9 m c (⟨0, h⟩ : Fin cfg0.N)) (bk10 m c (⟨0, h⟩ : Fin cfg0.N)) (bk11 m c (⟨0, h⟩ : Fin cfg0.N)) (bk12 m c (⟨0, h⟩ : Fin cfg0.N)) (bk13 m c (⟨0, h⟩ : Fin cfg0.N)) (bk14 m c (⟨0, h⟩ : Fin cfg0.N))
  | n + 1, h => by
    have ih := accs_eq c n (Nat.lt_of_succ_lt h)
    have hN : n + 1 < 50 := lt_of_lt_of_eq h N_0
    have h0 : ¬(⟨n + 1, h⟩ : Fin cfg0.N).val % 50 = 0 := by dsimp only; omega
    have e0 : (outsAt0 m c n (Nat.lt_of_succ_lt h)).2.2.2.1 = accV m c n (Nat.lt_of_succ_lt h) := congrArg (·.1) ih
    have e1 : (outsAt0 m c n (Nat.lt_of_succ_lt h)).2.2.2.2.1 = accC m c n (Nat.lt_of_succ_lt h) := congrArg (·.2.1) ih
    have e2 : (outsAt0 m c n (Nat.lt_of_succ_lt h)).2.2.2.2.2 = accN m c n (Nat.lt_of_succ_lt h) := congrArg (·.2.2) ih
    by_cases h1 : (⟨n + 1, h⟩ : Fin cfg0.N).val % 50 = 49
    · rw [outsAt0_C m c (⟨n + 1, h⟩ : Fin cfg0.N) h0 h1]
      refine Prod.ext ?_ (Prod.ext ?_ ?_)
      · exact (sC0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) ((hcond0_1 (⟨n + 1, h⟩ : Fin cfg0.N)).mpr h1) (bk0 m c (⟨n + 1, h⟩ : Fin cfg0.N)) (bk1 m c (⟨n + 1, h⟩ : Fin cfg0.N)) (bk2 m c (⟨n + 1, h⟩ : Fin cfg0.N)) (bk3 m c (⟨n + 1, h⟩ : Fin cfg0.N)) (bk4 m c (⟨n + 1, h⟩ : Fin cfg0.N)) (bk5 m c (⟨n + 1, h⟩ : Fin cfg0.N)) (bk6 m c (⟨n + 1, h⟩ : Fin cfg0.N)) (bk7 m c (⟨n + 1, h⟩ : Fin cfg0.N)) (bk8 m c (⟨n + 1, h⟩ : Fin cfg0.N)) (bk9 m c (⟨n + 1, h⟩ : Fin cfg0.N)) (bk10 m c (⟨n + 1, h⟩ : Fin cfg0.N)) (bk11 m c (⟨n + 1, h⟩ : Fin cfg0.N)) (bk12 m c (⟨n + 1, h⟩ : Fin cfg0.N)) (bk13 m c (⟨n + 1, h⟩ : Fin cfg0.N)) (bk14 m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans (congrArg (fun z => k0_pay24 (k0_pay19 (bk3 m c ⟨n + 1, h⟩)) (k0_pay20 (bk4 m c ⟨n + 1, h⟩)) z) e0)
      · exact (sC1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) ((hcond0_1 (⟨n + 1, h⟩ : Fin cfg0.N)).mpr h1) (bk0 m c (⟨n + 1, h⟩ : Fin cfg0.N)) (bk1 m c (⟨n + 1, h⟩ : Fin cfg0.N)) (bk2 m c (⟨n + 1, h⟩ : Fin cfg0.N)) (bk3 m c (⟨n + 1, h⟩ : Fin cfg0.N)) (bk4 m c (⟨n + 1, h⟩ : Fin cfg0.N)) (bk5 m c (⟨n + 1, h⟩ : Fin cfg0.N)) (bk6 m c (⟨n + 1, h⟩ : Fin cfg0.N)) (bk7 m c (⟨n + 1, h⟩ : Fin cfg0.N)) (bk8 m c (⟨n + 1, h⟩ : Fin cfg0.N)) (bk9 m c (⟨n + 1, h⟩ : Fin cfg0.N)) (bk10 m c (⟨n + 1, h⟩ : Fin cfg0.N)) (bk11 m c (⟨n + 1, h⟩ : Fin cfg0.N)) (bk12 m c (⟨n + 1, h⟩ : Fin cfg0.N)) (bk13 m c (⟨n + 1, h⟩ : Fin cfg0.N)) (bk14 m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans (congrArg (fun z => k0_pay25 (k0_pay18 (k0_pay7 (bk0 m c ⟨n + 1, h⟩) (bk1 m c ⟨n + 1, h⟩) (bk2 m c ⟨n + 1, h⟩)) (k0_pay14 (bk11 m c ⟨n + 1, h⟩)) (k0_pay15 (bk12 m c ⟨n + 1, h⟩)) (k0_pay16 (bk13 m c ⟨n + 1, h⟩)) (k0_pay17 (bk14 m c ⟨n + 1, h⟩))) (k0_pay20 (bk4 m c ⟨n + 1, h⟩)) z) e1)
      · exact (sC2 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) ((hcond0_1 (⟨n + 1, h⟩ : Fin cfg0.N)).mpr h1) (bk0 m c (⟨n + 1, h⟩ : Fin cfg0.N)) (bk1 m c (⟨n + 1, h⟩ : Fin cfg0.N)) (bk2 m c (⟨n + 1, h⟩ : Fin cfg0.N)) (bk3 m c (⟨n + 1, h⟩ : Fin cfg0.N)) (bk4 m c (⟨n + 1, h⟩ : Fin cfg0.N)) (bk5 m c (⟨n + 1, h⟩ : Fin cfg0.N)) (bk6 m c (⟨n + 1, h⟩ : Fin cfg0.N)) (bk7 m c (⟨n + 1, h⟩ : Fin cfg0.N)) (bk8 m c (⟨n + 1, h⟩ : Fin cfg0.N)) (bk9 m c (⟨n + 1, h⟩ : Fin cfg0.N)) (bk10 m c (⟨n + 1, h⟩ : Fin cfg0.N)) (bk11 m c (⟨n + 1, h⟩ : Fin cfg0.N)) (bk12 m c (⟨n + 1, h⟩ : Fin cfg0.N)) (bk13 m c (⟨n + 1, h⟩ : Fin cfg0.N)) (bk14 m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans (congrArg (fun z => k0_pay26 (k0_pay20 (bk4 m c ⟨n + 1, h⟩)) z) e2)
    · rw [outsAt0_B m c (⟨n + 1, h⟩ : Fin cfg0.N) h0 h1]
      refine Prod.ext ?_ (Prod.ext ?_ ?_)
      · exact (sB0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) (fun hh => h1 ((hcond0_1 (⟨n + 1, h⟩ : Fin cfg0.N)).mp hh)) (bk0 m c (⟨n + 1, h⟩ : Fin cfg0.N)) (bk1 m c (⟨n + 1, h⟩ : Fin cfg0.N)) (bk2 m c (⟨n + 1, h⟩ : Fin cfg0.N)) (bk3 m c (⟨n + 1, h⟩ : Fin cfg0.N)) (bk4 m c (⟨n + 1, h⟩ : Fin cfg0.N)) (bk5 m c (⟨n + 1, h⟩ : Fin cfg0.N)) (bk6 m c (⟨n + 1, h⟩ : Fin cfg0.N)) (bk7 m c (⟨n + 1, h⟩ : Fin cfg0.N)) (bk8 m c (⟨n + 1, h⟩ : Fin cfg0.N)) (bk9 m c (⟨n + 1, h⟩ : Fin cfg0.N)) (bk10 m c (⟨n + 1, h⟩ : Fin cfg0.N)) (bk11 m c (⟨n + 1, h⟩ : Fin cfg0.N)) (bk12 m c (⟨n + 1, h⟩ : Fin cfg0.N)) (bk13 m c (⟨n + 1, h⟩ : Fin cfg0.N)) (bk14 m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans (congrArg (fun z => k0_pay24 (k0_pay19 (bk3 m c ⟨n + 1, h⟩)) (k0_pay20 (bk4 m c ⟨n + 1, h⟩)) z) e0)
      · exact (sB1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) (fun hh => h1 ((hcond0_1 (⟨n + 1, h⟩ : Fin cfg0.N)).mp hh)) (bk0 m c (⟨n + 1, h⟩ : Fin cfg0.N)) (bk1 m c (⟨n + 1, h⟩ : Fin cfg0.N)) (bk2 m c (⟨n + 1, h⟩ : Fin cfg0.N)) (bk3 m c (⟨n + 1, h⟩ : Fin cfg0.N)) (bk4 m c (⟨n + 1, h⟩ : Fin cfg0.N)) (bk5 m c (⟨n + 1, h⟩ : Fin cfg0.N)) (bk6 m c (⟨n + 1, h⟩ : Fin cfg0.N)) (bk7 m c (⟨n + 1, h⟩ : Fin cfg0.N)) (bk8 m c (⟨n + 1, h⟩ : Fin cfg0.N)) (bk9 m c (⟨n + 1, h⟩ : Fin cfg0.N)) (bk10 m c (⟨n + 1, h⟩ : Fin cfg0.N)) (bk11 m c (⟨n + 1, h⟩ : Fin cfg0.N)) (bk12 m c (⟨n + 1, h⟩ : Fin cfg0.N)) (bk13 m c (⟨n + 1, h⟩ : Fin cfg0.N)) (bk14 m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans (congrArg (fun z => k0_pay25 (k0_pay18 (k0_pay7 (bk0 m c ⟨n + 1, h⟩) (bk1 m c ⟨n + 1, h⟩) (bk2 m c ⟨n + 1, h⟩)) (k0_pay14 (bk11 m c ⟨n + 1, h⟩)) (k0_pay15 (bk12 m c ⟨n + 1, h⟩)) (k0_pay16 (bk13 m c ⟨n + 1, h⟩)) (k0_pay17 (bk14 m c ⟨n + 1, h⟩))) (k0_pay20 (bk4 m c ⟨n + 1, h⟩)) z) e1)
      · exact (sB2 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) scM0_0 (Memref.isWhole_whole _) scM0_1 (Memref.isWhole_whole _) scM0_2 (Memref.isWhole_whole _) (fun hh => h0 ((hcond0_0 (⟨n + 1, h⟩ : Fin cfg0.N)).mp hh)) (fun hh => h1 ((hcond0_1 (⟨n + 1, h⟩ : Fin cfg0.N)).mp hh)) (bk0 m c (⟨n + 1, h⟩ : Fin cfg0.N)) (bk1 m c (⟨n + 1, h⟩ : Fin cfg0.N)) (bk2 m c (⟨n + 1, h⟩ : Fin cfg0.N)) (bk3 m c (⟨n + 1, h⟩ : Fin cfg0.N)) (bk4 m c (⟨n + 1, h⟩ : Fin cfg0.N)) (bk5 m c (⟨n + 1, h⟩ : Fin cfg0.N)) (bk6 m c (⟨n + 1, h⟩ : Fin cfg0.N)) (bk7 m c (⟨n + 1, h⟩ : Fin cfg0.N)) (bk8 m c (⟨n + 1, h⟩ : Fin cfg0.N)) (bk9 m c (⟨n + 1, h⟩ : Fin cfg0.N)) (bk10 m c (⟨n + 1, h⟩ : Fin cfg0.N)) (bk11 m c (⟨n + 1, h⟩ : Fin cfg0.N)) (bk12 m c (⟨n + 1, h⟩ : Fin cfg0.N)) (bk13 m c (⟨n + 1, h⟩ : Fin cfg0.N)) (bk14 m c (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans (congrArg (fun z => k0_pay26 (k0_pay20 (bk4 m c ⟨n + 1, h⟩)) z) e2)

/-- The update block the run records at every point is the update payload of the point's blocks. -/
theorem upd_eq (c : Dev nD) (t : Fin cfg0.N) :
    (outsAt0 m c t.val t.isLt).1 = k0_pay23 (bk0 m c t) (k0_pay21 (k0_pay7 (bk0 m c t) (bk1 m c t) (bk2 m c t)) (k0_pay8 (bk5 m c t)) (k0_pay9 (bk6 m c t)) (k0_pay10 (bk7 m c t)) (k0_pay11 (bk8 m c t)) (k0_pay12 (bk9 m c t)) (k0_pay13 (bk10 m c t)) (bk3 m c t) (bk4 m c t)) (k0_pay22 (bk0 m c t)) := by
  have hN : t.val < 50 := lt_of_lt_of_eq t.isLt N_0
  by_cases h0 : t.val % 50 = 0
  · have h1 : ¬t.val % 50 = 49 := by omega
    have hA := congrArg Prod.fst (outsAt0_A m c t h0 h1)
    dsimp only at hA
    exact hA.trans (oA15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) ((hcond0_0 t).mpr h0) (fun hh => h1 ((hcond0_1 t).mp hh)) (bk0 m c t) (bk1 m c t) (bk2 m c t) (bk3 m c t) (bk4 m c t) (bk5 m c t) (bk6 m c t) (bk7 m c t) (bk8 m c t) (bk9 m c t) (bk10 m c t) (bk11 m c t) (bk12 m c t) (bk13 m c t) (bk14 m c t))
  · by_cases h1 : t.val % 50 = 49
    · have hC := congrArg Prod.fst (outsAt0_C m c t h0 h1)
      dsimp only at hC
      exact hC.trans (oC15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun hh => h0 ((hcond0_0 t).mp hh)) ((hcond0_1 t).mpr h1) (bk0 m c t) (bk1 m c t) (bk2 m c t) (bk3 m c t) (bk4 m c t) (bk5 m c t) (bk6 m c t) (bk7 m c t) (bk8 m c t) (bk9 m c t) (bk10 m c t) (bk11 m c t) (bk12 m c t) (bk13 m c t) (bk14 m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    · have hB := congrArg Prod.fst (outsAt0_B m c t h0 h1)
      dsimp only at hB
      exact hB.trans (oB15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun hh => h0 ((hcond0_0 t).mp hh)) (fun hh => h1 ((hcond0_1 t).mp hh)) (bk0 m c t) (bk1 m c t) (bk2 m c t) (bk3 m c t) (bk4 m c t) (bk5 m c t) (bk6 m c t) (bk7 m c t) (bk8 m c t) (bk9 m c t) (bk10 m c t) (bk11 m c t) (bk12 m c t) (bk13 m c t) (bk14 m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)

/-- The two scalar outputs the run records at the last point are the quotient payloads of the accumulators after it. -/
theorem last_eq (c : Dev nD) (t : Fin cfg0.N) (h1 : t.val % 50 = 49) :
    (outsAt0 m c t.val t.isLt).2.1 = k0_pay2 (accN m c t.val t.isLt) (accV m c t.val t.isLt)
    ∧ (outsAt0 m c t.val t.isLt).2.2.1 = k0_pay3 (accN m c t.val t.isLt) (accC m c t.val t.isLt) := by
  have hN : t.val < 50 := lt_of_lt_of_eq t.isLt N_0
  have h0 : ¬t.val % 50 = 0 := by omega
  have hC := outsAt0_C m c t h0 h1
  have hs := accs_eq m c t.val t.isLt
  have e16 := congrArg (fun z => z.2.1) hC
  dsimp only at e16
  have e17 := congrArg (fun z => z.2.2.1) hC
  dsimp only at e17
  have s0 := congrArg (fun z => z.2.2.2.1) hC
  dsimp only at s0
  have s1 := congrArg (fun z => z.2.2.2.2.1) hC
  dsimp only at s1
  have s2 := congrArg (fun z => z.2.2.2.2.2) hC
  dsimp only at s2
  have a0 := congrArg (fun z => z.1) hs
  dsimp only at a0
  have a1 := congrArg (fun z => z.2.1) hs
  dsimp only at a1
  have a2 := congrArg (fun z => z.2.2) hs
  dsimp only at a2
  have f0 := (sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun hh => h0 ((hcond0_0 t).mp hh)) ((hcond0_1 t).mpr h1) (bk0 m c t) (bk1 m c t) (bk2 m c t) (bk3 m c t) (bk4 m c t) (bk5 m c t) (bk6 m c t) (bk7 m c t) (bk8 m c t) (bk9 m c t) (bk10 m c t) (bk11 m c t) (bk12 m c t) (bk13 m c t) (bk14 m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm.trans (s0.symm.trans a0)
  have f1 := (sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun hh => h0 ((hcond0_0 t).mp hh)) ((hcond0_1 t).mpr h1) (bk0 m c t) (bk1 m c t) (bk2 m c t) (bk3 m c t) (bk4 m c t) (bk5 m c t) (bk6 m c t) (bk7 m c t) (bk8 m c t) (bk9 m c t) (bk10 m c t) (bk11 m c t) (bk12 m c t) (bk13 m c t) (bk14 m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm.trans (s1.symm.trans a1)
  have f2 := (sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun hh => h0 ((hcond0_0 t).mp hh)) ((hcond0_1 t).mpr h1) (bk0 m c t) (bk1 m c t) (bk2 m c t) (bk3 m c t) (bk4 m c t) (bk5 m c t) (bk6 m c t) (bk7 m c t) (bk8 m c t) (bk9 m c t) (bk10 m c t) (bk11 m c t) (bk12 m c t) (bk13 m c t) (bk14 m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm.trans (s2.symm.trans a2)
  refine ⟨e16.trans ((oC16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun hh => h0 ((hcond0_0 t).mp hh)) ((hcond0_1 t).mpr h1) (bk0 m c t) (bk1 m c t) (bk2 m c t) (bk3 m c t) (bk4 m c t) (bk5 m c t) (bk6 m c t) (bk7 m c t) (bk8 m c t) (bk9 m c t) (bk10 m c t) (bk11 m c t) (bk12 m c t) (bk13 m c t) (bk14 m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans ?_), e17.trans ((oC17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) (fun hh => h0 ((hcond0_0 t).mp hh)) ((hcond0_1 t).mpr h1) (bk0 m c t) (bk1 m c t) (bk2 m c t) (bk3 m c t) (bk4 m c t) (bk5 m c t) (bk6 m c t) (bk7 m c t) (bk8 m c t) (bk9 m c t) (bk10 m c t) (bk11 m c t) (bk12 m c t) (bk13 m c t) (bk14 m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans ?_)⟩
  · rw [f2, f0]
  · rw [f2, f1]

end Cert.KAcc

end
-- ==== Proof.Spec.lean ====
/-
  The value both programs compute, stated once, over plain coordinates and the extended reals.

  A node `r` has a parent row `X r` and two child rows `C1 r`, `C2 r` (64 features each); laid side by side they
  are one row of 192 features (`cmb`). Two small perceptrons read that row: the radius corrector
  (192 → 64 → 32 → 1, a rectifier after each hidden layer) gives `corr`, the compliance predictor
  (192 → 64 → 1, a rectifier, then the logistic function) gives `compl`. A node is updated only where it is
  active and its violation exceeds the threshold (`gate`); the update adds a tenth of the gated correction times
  the hyperbolic tangent of each parent feature (`upd`). The two scalar results are averages over the active
  nodes: the sum of the violations, and of the compliances, divided by the number of active nodes, or by one if
  there is none (`avgViol`, `avgCompl`).

  Every float literal stays the bit pattern the programs write; no law here evaluates one.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes of the arrays the specification reads. -/
abbrev SNx64 : Shape := ⟨2, ![300000, 64]⟩
abbrev SN : Shape := ⟨1, ![300000]⟩
abbrev S0 : Shape := ⟨0, ![]⟩

/-- The ten weight and bias arrays, in the shapes the programs are given them. -/
structure Weights where
  w1 : (⟨2, ![192, 64]⟩ : Shape).Idx → EReal
  b1 : (⟨1, ![64]⟩ : Shape).Idx → EReal
  w2 : (⟨2, ![64, 32]⟩ : Shape).Idx → EReal
  b2 : (⟨1, ![32]⟩ : Shape).Idx → EReal
  w3 : (⟨2, ![32, 1]⟩ : Shape).Idx → EReal
  b3 : (⟨1, ![1]⟩ : Shape).Idx → EReal
  u1 : (⟨2, ![192, 64]⟩ : Shape).Idx → EReal
  d1 : (⟨1, ![64]⟩ : Shape).Idx → EReal
  u2 : (⟨2, ![64, 1]⟩ : Shape).Idx → EReal
  d2 : (⟨1, ![1]⟩ : Shape).Idx → EReal

/-- The literals: zero, one, the violation threshold (0.2 as f32) and the step (0.1 as f32). -/
def z32 : EReal := Ideal.ofBits .f32 0x00000000#32
def one32 : EReal := Ideal.ofBits .f32 0x3F800000#32
def thr : EReal := Ideal.ofBits .f32 0x3E4CCCCD#32
def tenth : EReal := Ideal.ofBits .f32 0x3DCCCCCD#32

/-- Row `r` of parent, first child and second child features, side by side: 192 features. -/
def cmb (X C1 C2 : SNx64.Idx → EReal) (r : Fin 300000) (k : Fin 192) : EReal :=
  if h : k.val < 64 then X (ix2 r ⟨k.val, h⟩)
  else if h2 : k.val < 128 then C1 (ix2 r ⟨k.val - 64, by omega⟩)
  else C2 (ix2 r ⟨k.val - 128, by have := k.isLt; omega⟩)

/-- The radius corrector's first hidden layer on a row of 192 features. -/
def hid1 (W : Weights) (c : Fin 192 → EReal) (j : Fin 64) : EReal :=
  max ((∑ k : Fin 192, c k * W.w1 (ix2 k j)) + W.b1 (ix1 j)) z32

/-- Its second hidden layer. -/
def hid2 (W : Weights) (c : Fin 192 → EReal) (j : Fin 32) : EReal :=
  max ((∑ k : Fin 64, hid1 W c k * W.w2 (ix2 k j)) + W.b2 (ix1 j)) z32

/-- The correction: the last, linear, layer. -/
def corr (W : Weights) (c : Fin 192 → EReal) : EReal :=
  (∑ k : Fin 32, hid2 W c k * W.w3 (ix2 k (0 : Fin 1))) + W.b3 (ix1 (0 : Fin 1))

/-- The compliance predictor's hidden layer. -/
def hidc (W : Weights) (c : Fin 192 → EReal) (j : Fin 64) : EReal :=
  max ((∑ k : Fin 192, c k * W.u1 (ix2 k j)) + W.d1 (ix1 j)) z32

/-- The compliance: the logistic function of the predictor's linear output. -/
def compl (W : Weights) (c : Fin 192 → EReal) : EReal :=
  Ideal.logistic ((∑ k : Fin 64, hidc W c k * W.u2 (ix2 k (0 : Fin 1))) + W.d2 (ix1 (0 : Fin 1)))

/-- The gated correction of a node: the correction where the node is active and its violation exceeds the
    threshold, zero elsewhere. -/
def gate (a : BitVec 1) (v c : EReal) : EReal :=
  Scalar.select (IntOp.andi a (Ideal.cmp .ogt v thr)) c z32

/-- One updated feature: the feature plus a tenth of the gated correction times its hyperbolic tangent. -/
def upd (x g : EReal) : EReal := x + (tenth * g) * Ideal.tanh x

/-- The first result: every parent feature updated. -/
def updArr (X C1 C2 : SNx64.Idx → EReal) (viol : SN.Idx → EReal) (act : SN.Idx → BitVec 1) (W : Weights) :
    SNx64.Idx → EReal := fun i =>
  upd (X i) (gate (act (ix1 (i 0))) (viol (ix1 (i 0))) (corr W (cmb X C1 C2 (i 0))))

/-- The sum of `f` over the active nodes. -/
def msum (act : SN.Idx → BitVec 1) (f : Fin 300000 → EReal) : EReal :=
  ∑ r : Fin 300000, Scalar.select (act (ix1 r)) (f r) z32

/-- The number of active nodes, counted in floats. -/
def cnt (act : SN.Idx → BitVec 1) : EReal :=
  ∑ r : Fin 300000, Scalar.select (act (ix1 r)) one32 z32

/-- The second result: the mean violation over the active nodes. -/
def avgViol (viol : SN.Idx → EReal) (act : SN.Idx → BitVec 1) : EReal :=
  Ideal.div (msum act fun r => viol (ix1 r)) (max (cnt act) one32)

/-- The third result: the mean compliance over the active nodes. -/
def avgCompl (X C1 C2 : SNx64.Idx → EReal) (act : SN.Idx → BitVec 1) (W : Weights) : EReal :=
  Ideal.div (msum act fun r => compl W (cmb X C1 C2 r)) (max (cnt act) one32)

end Cert.Spec

end
-- ==== Proof.LibPlainDot.lean ====
/-
  A plain matrix product read at an index. For an `M × K` left operand and a `K × N` right operand contracted
  over the shared axis, the entry `(p, j)` of the product accumulated into zero is the finite sum over `k` of
  `lhs (p, k) * rhs (k, j)` on the extended reals: the contraction's one index ranges over `Fin K`, and the two
  operand indices it selects are `(p, k)` and `(k, j)`.
-/
import Idealize.ShloMosaic.PureOps.Ideal.Laws
import Idealize.ShloMosaic.Lib.ValueIdx

noncomputable section

namespace PlainDot

open Idealize.ShloMosaic Idealize.ShloMosaic.ValueIdx

/-- The left operand's index selected by output `(p, j)` and contraction coordinate `k` is `(p, k)`. -/
theorem lhsIdx_eq (M K N : ℕ) (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p j) _).trans hk

/-- The right operand's index selected by output `(p, j)` and contraction coordinate `k` is `(k, j)`. -/
theorem rhsIdx_eq (M K N : ℕ) (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  funext a
  apply Fin.ext
  match a with
  | ⟨0, _⟩ => exact ((DotDims.plain M K N).rhsIdx_val_of_single rfl (ix2 p j) _).trans hk
  | ⟨1, _⟩ => rfl

/-- A kernel's matrix product into the zero accumulator, at `(p, j)`: `∑ k, lhs (p, k) * rhs (k, j)`. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (j : Fin N) :
    FloatOps.matmul (DotDims.plain M K N) prec lhs rhs (constant (F := Ideal) ⟨2, ![M, N]⟩ .f32 0x00000000#32) (ix2 p j)
      = ∑ k : Fin K, lhs (ix2 p k) * rhs (ix2 k j) := by
  rw [Ideal.matmul_constant_zero_apply, ← Equiv.sum_comp (contrEquiv1 (DotDims.plain M K N) K rfl rfl).symm]
  refine Finset.sum_congr rfl fun k _ => ?_
  rw [lhsIdx_eq, rhsIdx_eq]

/-- The host's product of the same dimensions, at `(p, j)`: the same sum. -/
theorem dotGeneral_apply {φ₁ φ₂ : FTy} (M K N : ℕ) (prec : Option ContractPrecision) (sched : HostSchedule)
    (lhs : FVec Ideal ⟨2, ![M, K]⟩ φ₁) (rhs : FVec Ideal ⟨2, ![K, N]⟩ φ₂) (p : Fin M) (j : Fin N) :
    FloatOps.dotGeneral (DotDims.plain M K N) prec sched lhs rhs (ix2 p j)
      = ∑ k : Fin K, lhs (ix2 p k) * rhs (ix2 k j) := by
  rw [Ideal.dotGeneral_apply, ← Equiv.sum_comp (contrEquiv1 (DotDims.plain M K N) K rfl rfl).symm]
  refine Finset.sum_congr rfl fun k _ => ?_
  rw [lhsIdx_eq, rhsIdx_eq]

end PlainDot

end
-- ==== Proof.LibKeepdims.lean ====
/-
  Two layout facts for a COLUMN, read at an index: an array of `a` numbers cast to an `a × 1` column holds the same
  numbers, and an `a × 1` column broadcast across `b` columns repeats its entry along each row.
-/
import Idealize.ShloMosaic.Lib.ValueLayout
import Idealize.ShloMosaic.Lib.Pipeline.Value

noncomputable section

namespace Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

end
-- ==== Proof.KRow.lean ====
/-
  The body's arithmetic, read at one row of a block. A grid point loads 6000 rows: the parent features `x0`, the two
  children's `x1`, `x2`, the violation column `x3`, the activity column `x4`, and the weights. Each payload of the body is a
  whole-block vector expression; read at row `p` it is the specification's scalar expression of that row: the 192
  side-by-side features, the two perceptrons (a product with the weights is a finite sum over the contracted axis, the
  bias row is the same for every row of the block), the gate, the update, and the three column sums.
-/
import proofs.«144948_j85856396247188_2_alg».proof.Proof.Gen.KernelIdeal.Skeleton
import proofs.«144948_j85856396247188_2_alg».proof.Proof.Spec
import proofs.«144948_j85856396247188_2_alg».proof.Proof.LibPlainDot
import proofs.«144948_j85856396247188_2_alg».proof.Proof.LibKeepdims
import Idealize.ShloMosaic.Lib.ValueLayout
import Idealize.ShloMosaic.Lib.Pipeline.Value
import Idealize.ShloMosaic.PureOps.Ideal.Laws

noncomputable section

namespace Cert.KRow

open Idealize.ShloMosaic Idealize.ShloMosaic.ValueIdx Cert.KernelIdeal Cert.KernelIdeal.Gen

/-- The activity threshold the body compares the activity column with: one half. -/
def half32 : EReal := Ideal.ofBits .f32 0x3F000000#32

/-- Row `p` of the block's parent, first-child and second-child features, side by side. -/
def bcmb (x0 x1 x2 : Vec Ideal S6000x64 .f32) (p : Fin 6000) (k : Fin 192) : EReal :=
  if h : k.val < 64 then x0 (ix2 p ⟨k.val, h⟩)
  else if h2 : k.val < 128 then x1 (ix2 p ⟨k.val - 64, by omega⟩)
  else x2 (ix2 p ⟨k.val - 128, by have := k.isLt; omega⟩)

/-- The concatenated (and format-changed) features at `(p, k)`: the piece that holds column `k`. -/
theorem pay7_apply (x0 x1 x2 : Vec Ideal S6000x64 .f32) (p : Fin 6000) (k : Fin 192) :
    k0_pay7 (F := Ideal) x0 x1 x2 (ix2 p k) = bcmb x0 x1 x2 p k := by
  unfold k0_pay7 bcmb
  rw [shapeCast_self, shapeCast_self, truncf_apply]
  by_cases h : k.val < 64
  · rw [dif_pos h]
    exact concatenate_apply_piece (1 : Fin 2) [⟨S6000x64, x0⟩, ⟨S6000x64, x1⟩, ⟨S6000x64, x2⟩] _ (ix2 p k) 0 (by simp) S6000x64 x0 rfl rfl 0 rfl (ix2 p ⟨k.val, h⟩)
      (fun b hb => by match b with | ⟨0, _⟩ => rfl | ⟨1, _⟩ => exact absurd rfl hb) (by show 0 + k.val = k.val; omega)
  · rw [dif_neg h]
    by_cases h2 : k.val < 128
    · rw [dif_pos h2]
      exact concatenate_apply_piece (1 : Fin 2) [⟨S6000x64, x0⟩, ⟨S6000x64, x1⟩, ⟨S6000x64, x2⟩] _ (ix2 p k) 1 (by simp) S6000x64 x1 rfl rfl 64 rfl (ix2 p ⟨k.val - 64, by omega⟩)
        (fun b hb => by match b with | ⟨0, _⟩ => rfl | ⟨1, _⟩ => exact absurd rfl hb) (by show 64 + (k.val - 64) = k.val; omega)
    · rw [dif_neg h2]
      exact concatenate_apply_piece (1 : Fin 2) [⟨S6000x64, x0⟩, ⟨S6000x64, x1⟩, ⟨S6000x64, x2⟩] _ (ix2 p k) 2 (by simp) S6000x64 x2 rfl rfl 128 rfl (ix2 p ⟨k.val - 128, by have := k.isLt; omega⟩)
        (fun b hb => by match b with | ⟨0, _⟩ => rfl | ⟨1, _⟩ => exact absurd rfl hb) (by show 128 + (k.val - 128) = k.val; omega)

/-- One dense layer at `(p, j)`: the product with the weights, plus the bias row broadcast over the rows. -/
theorem dense_apply {M K N : ℕ} (d : DotDims ⟨2, ![M, K]⟩ ⟨2, ![K, N]⟩ ⟨2, ![M, N]⟩) (hd : d = DotDims.plain M K N)
    (lhs : FVec Ideal ⟨2, ![M, K]⟩ .bf16) (w : FVec Ideal ⟨2, ![K, N]⟩ .bf16) (b : FVec Ideal ⟨2, ![1, N]⟩ .f32)
    (hb : (⟨2, ![1, N]⟩ : Shape).Broadcasts ⟨2, ![M, N]⟩) (p : Fin M) (j : Fin N) :
    addf (matmul d none lhs w (constant (F := Ideal) ⟨2, ![M, N]⟩ .f32 0x00000000#32)) (broadcastTo ⟨2, ![M, N]⟩ b hb) (ix2 p j)
      = (∑ k : Fin K, lhs (ix2 p k) * w (ix2 k j)) + b (ix2 (0 : Fin 1) j) := by
  subst hd
  rw [addf_apply]
  show FloatOps.matmul _ _ _ _ _ (ix2 p j) + _ = _
  rw [PlainDot.matmul_zero_apply, broadcastTo_1b_ab_apply]

/-- One dense layer with its rectifier (and the format change after it, the identity) at `(p, j)`. -/
theorem relu_dense_apply {M K N : ℕ} (d : DotDims ⟨2, ![M, K]⟩ ⟨2, ![K, N]⟩ ⟨2, ![M, N]⟩) (hd : d = DotDims.plain M K N)
    (lhs : FVec Ideal ⟨2, ![M, K]⟩ .bf16) (w : FVec Ideal ⟨2, ![K, N]⟩ .bf16) (b : FVec Ideal ⟨2, ![1, N]⟩ .f32)
    (hb : (⟨2, ![1, N]⟩ : Shape).Broadcasts ⟨2, ![M, N]⟩) (hlt : FTy.bits .bf16 < FTy.bits .f32) (p : Fin M) (j : Fin N) :
    truncf .bf16 (maximumf (addf (matmul d none lhs w (constant (F := Ideal) ⟨2, ![M, N]⟩ .f32 0x00000000#32)) (broadcastTo ⟨2, ![M, N]⟩ b hb))
        (broadcast ⟨2, ![M, N]⟩ (FloatOps.ofBits (F := Ideal) .f32 0x00000000#32))) hlt (ix2 p j)
      = max ((∑ k : Fin K, lhs (ix2 p k) * w (ix2 k j)) + b (ix2 (0 : Fin 1) j)) Cert.Spec.z32 := by
  rw [truncf_apply, maximumf_apply, dense_apply d hd]
  rfl

/-- The corrector's three layers at row `p`: the specification's correction of the row the first operand holds. -/
theorem corr_apply (v9 : FVec Ideal S6000x192 .bf16) (v11 : FVec Ideal S192x64 .bf16) (v13 : FVec Ideal S1x64 .f32)
    (v15 : FVec Ideal S64x32 .bf16) (v17 : FVec Ideal S1x32 .f32) (v19 : FVec Ideal S32x1 .bf16) (v21 : FVec Ideal S1x1 .f32)
    (W : Cert.Spec.Weights) (hw1 : W.w1 = v11) (hb1 : ∀ j : Fin 64, W.b1 (ix1 j) = v13 (ix2 (0 : Fin 1) j)) (hw2 : W.w2 = v15)
    (hb2 : ∀ j : Fin 32, W.b2 (ix1 j) = v17 (ix2 (0 : Fin 1) j)) (hw3 : W.w3 = v19)
    (hb3 : W.b3 (ix1 (0 : Fin 1)) = v21 (ix2 (0 : Fin 1) (0 : Fin 1))) (p : Fin 6000) :
    (addf (matmul dot_S6000x32_S32x1_S6000x1_1_0_0_1_n_n none (truncf .bf16 (maximumf (addf (matmul dot_S6000x64_S64x32_S6000x32_1_0_0_1_n_n none (truncf .bf16 (maximumf (addf (matmul dot_S6000x192_S192x64_S6000x64_1_0_0_1_n_n none v9 v11 (constant (F := Ideal) S6000x64 .f32 0x00000000#32)) (broadcastTo S6000x64 v13 broadcasts_S1x64_S6000x64)) (broadcast S6000x64 (FloatOps.ofBits (F := Ideal) .f32 0x00000000#32))) bitsLt_bf16_f32) v15 (constant (F := Ideal) S6000x32 .f32 0x00000000#32)) (broadcastTo S6000x32 v17 broadcasts_S1x32_S6000x32)) (broadcast S6000x32 (FloatOps.ofBits (F := Ideal) .f32 0x00000000#32))) bitsLt_bf16_f32) v19 (constant (F := Ideal) S6000x1 .f32 0x00000000#32)) (broadcastTo S6000x1 v21 broadcasts_S1x1_S6000x1)) (ix2 p (0 : Fin 1))
      = Cert.Spec.corr W (fun k => v9 (ix2 p k)) := by
  have h1 : ∀ k : Fin 64, (truncf .bf16 (maximumf (addf (matmul dot_S6000x192_S192x64_S6000x64_1_0_0_1_n_n none v9 v11 (constant (F := Ideal) S6000x64 .f32 0x00000000#32)) (broadcastTo S6000x64 v13 broadcasts_S1x64_S6000x64)) (broadcast S6000x64 (FloatOps.ofBits (F := Ideal) .f32 0x00000000#32))) bitsLt_bf16_f32) (ix2 p k) = Cert.Spec.hid1 W (fun k => v9 (ix2 p k)) k := fun k => by
    rw [relu_dense_apply dot_S6000x192_S192x64_S6000x64_1_0_0_1_n_n rfl]; unfold Cert.Spec.hid1; rw [hw1, hb1]
  have h2 : ∀ k : Fin 32, (truncf .bf16 (maximumf (addf (matmul dot_S6000x64_S64x32_S6000x32_1_0_0_1_n_n none (truncf .bf16 (maximumf (addf (matmul dot_S6000x192_S192x64_S6000x64_1_0_0_1_n_n none v9 v11 (constant (F := Ideal) S6000x64 .f32 0x00000000#32)) (broadcastTo S6000x64 v13 broadcasts_S1x64_S6000x64)) (broadcast S6000x64 (FloatOps.ofBits (F := Ideal) .f32 0x00000000#32))) bitsLt_bf16_f32) v15 (constant (F := Ideal) S6000x32 .f32 0x00000000#32)) (broadcastTo S6000x32 v17 broadcasts_S1x32_S6000x32)) (broadcast S6000x32 (FloatOps.ofBits (F := Ideal) .f32 0x00000000#32))) bitsLt_bf16_f32) (ix2 p k) = Cert.Spec.hid2 W (fun k => v9 (ix2 p k)) k := fun k => by
    rw [relu_dense_apply dot_S6000x64_S64x32_S6000x32_1_0_0_1_n_n rfl]; unfold Cert.Spec.hid2; rw [hw2, hb2]; simp only [h1]
  rw [dense_apply dot_S6000x32_S32x1_S6000x1_1_0_0_1_n_n rfl]; unfold Cert.Spec.corr; rw [hw3, hb3]; simp only [h2]

/-- The scaled gated correction at row `p`. -/
theorem pay21_apply (v9 : FVec Ideal S6000x192 .bf16) (v11 : FVec Ideal S192x64 .bf16) (v13 : FVec Ideal S1x64 .f32)
    (v15 : FVec Ideal S64x32 .bf16) (v17 : FVec Ideal S1x32 .f32) (v19 : FVec Ideal S32x1 .bf16) (v21 : FVec Ideal S1x1 .f32)
    (v60 v62 : Vec Ideal S6000x1 .f32)
    (W : Cert.Spec.Weights) (hw1 : W.w1 = v11) (hb1 : ∀ j : Fin 64, W.b1 (ix1 j) = v13 (ix2 (0 : Fin 1) j)) (hw2 : W.w2 = v15)
    (hb2 : ∀ j : Fin 32, W.b2 (ix1 j) = v17 (ix2 (0 : Fin 1) j)) (hw3 : W.w3 = v19)
    (hb3 : W.b3 (ix1 (0 : Fin 1)) = v21 (ix2 (0 : Fin 1) (0 : Fin 1))) (p : Fin 6000) :
    k0_pay21 (F := Ideal) v9 v11 v13 v15 v17 v19 v21 v60 v62 (ix2 p (0 : Fin 1))
      = Cert.Spec.tenth * Cert.Spec.gate (Ideal.cmp .ogt (v62 (ix2 p (0 : Fin 1))) half32) (v60 (ix2 p (0 : Fin 1)))
          (Cert.Spec.corr W (fun k => v9 (ix2 p k))) := by
  unfold k0_pay21 k0_pay19 k0_pay20
  simp only [shapeCast_self]
  rw [mulf_apply, select_apply, corr_apply v9 v11 v13 v15 v17 v19 v21 W hw1 hb1 hw2 hb2 hw3 hb3 p]
  rfl

/-- The compliance payload at row `p`: the specification's compliance of the row the first operand holds. -/
theorem pay18_apply (v9 : FVec Ideal S6000x192 .bf16) (v23 : FVec Ideal S192x64 .bf16) (v25 : FVec Ideal S1x64 .f32)
    (v27 : FVec Ideal S64x1 .bf16) (v29 : FVec Ideal S1x1 .f32) (W : Cert.Spec.Weights)
    (hu1 : W.u1 = v23) (hd1 : ∀ j : Fin 64, W.d1 (ix1 j) = v25 (ix2 (0 : Fin 1) j)) (hu2 : W.u2 = v27)
    (hd2 : W.d2 (ix1 (0 : Fin 1)) = v29 (ix2 (0 : Fin 1) (0 : Fin 1))) (p : Fin 6000) :
    k0_pay18 (F := Ideal) v9 v23 v25 v27 v29 (ix2 p (0 : Fin 1)) = Cert.Spec.compl W (fun k => v9 (ix2 p k)) := by
  unfold k0_pay18
  simp only [shapeCast_self]
  have h1 : ∀ k : Fin 64, (truncf .bf16 (maximumf (addf (matmul dot_S6000x192_S192x64_S6000x64_1_0_0_1_n_n none v9 v23 (constant (F := Ideal) S6000x64 .f32 0x00000000#32)) (broadcastTo S6000x64 v25 broadcasts_S1x64_S6000x64)) (broadcast S6000x64 (FloatOps.ofBits (F := Ideal) .f32 0x00000000#32))) bitsLt_bf16_f32) (ix2 p k) = Cert.Spec.hidc W (fun k => v9 (ix2 p k)) k := fun k => by
    rw [relu_dense_apply dot_S6000x192_S192x64_S6000x64_1_0_0_1_n_n rfl]; unfold Cert.Spec.hidc; rw [hu1, hd1]
  show Ideal.logistic ((addf (matmul dot_S6000x64_S64x1_S6000x1_1_0_0_1_n_n none (truncf .bf16 (maximumf (addf (matmul dot_S6000x192_S192x64_S6000x64_1_0_0_1_n_n none v9 v23 (constant (F := Ideal) S6000x64 .f32 0x00000000#32)) (broadcastTo S6000x64 v25 broadcasts_S1x64_S6000x64)) (broadcast S6000x64 (FloatOps.ofBits (F := Ideal) .f32 0x00000000#32))) bitsLt_bf16_f32) v27 (constant (F := Ideal) S6000x1 .f32 0x00000000#32)) (broadcastTo S6000x1 v29 broadcasts_S1x1_S6000x1)) (ix2 p (0 : Fin 1))) = _
  rw [dense_apply dot_S6000x64_S64x1_S6000x1_1_0_0_1_n_n rfl]; unfold Cert.Spec.compl; rw [hu2, hd2]; simp only [h1]

/-- The hyperbolic-tangent payload at an index. -/
theorem pay22_apply (v3 : Vec Ideal S6000x64 .f32) (i : S6000x64.Idx) : k0_pay22 (F := Ideal) v3 i = Ideal.tanh (v3 i) := rfl

/-- The update payload at `(p, f)`: the feature plus the row's scaled gate (one column, repeated along the row) times the
    third operand. -/
theorem pay23_apply (v3 : Vec Ideal S6000x64 .f32) (v72 : FVec Ideal S6000x1 .f32) (v73 : FVec Ideal S6000x64 .f32)
    (p : Fin 6000) (f : Fin 64) :
    k0_pay23 (F := Ideal) v3 v72 v73 (ix2 p f) = v3 (ix2 p f) + v72 (ix2 p (0 : Fin 1)) * v73 (ix2 p f) := by
  unfold k0_pay23
  rw [addf_apply, mulf_apply, Keepdims.broadcastTo_a1_ab_apply]

/-- The index a column sum reads at row `r`: `(r, 0)`. -/
theorem lift_col (h : S6000x1.Reduces [0] S1) (r : Fin 6000) : h.lift (ix1 (0 : Fin 1)) r = ix2 r (0 : Fin 1) := by
  funext a
  apply Fin.ext
  match a with
  | ⟨0, _⟩ => rfl
  | ⟨1, _⟩ => rfl

/-- A column of 6000 numbers summed along its rows, as the body writes it (a lane reduction cast to `[1, 1]`). -/
theorem colsum_apply (v : FVec Ideal S6000x1 .f32) (h : S6000x1.Reduces [0] S1) (hc : S1.ShapeCasts S1x1)
    (hφ : FKind.Formats .f32) (hacc : (0x00000000#32 : BitVec 32) = 0x00000000#32) :
    shapeCast S1x1 (multiReduction (F := Ideal) .add [0] S1 v 0x00000000#32 h hφ hacc) hc (ix2 (0 : Fin 1) (0 : Fin 1))
      = ∑ r : Fin 6000, v (ix2 r (0 : Fin 1)) := by
  refine (Keepdims.shapeCast_a_a1_apply _ hc (0 : Fin 1) (0 : Fin 1)).trans ?_
  refine (Ideal.multiReduction_add_single v 0x00000000#32 h hφ hacc (ix1 (0 : Fin 1))).trans ?_
  show ∑ r : Fin 6000, v (h.lift (ix1 (0 : Fin 1)) r) = _
  simp only [lift_col]

/-- The violation accumulator's payload: what the scratch held plus the block's masked column sum. -/
theorem pay24_apply (v61 : FVec Ideal S6000x1 .f32) (v65 : IVec S6000x1 1) (v81 : Vec Ideal S1x1 .f32) :
    k0_pay24 (F := Ideal) v61 v65 v81 (ix2 (0 : Fin 1) (0 : Fin 1))
      = v81 (ix2 (0 : Fin 1) (0 : Fin 1)) + ∑ r : Fin 6000, Scalar.select (v65 (ix2 r (0 : Fin 1))) (v61 (ix2 r (0 : Fin 1))) Cert.Spec.z32 := by
  unfold k0_pay24
  rw [shapeCast_self, addf_apply, colsum_apply]
  rfl

/-- The compliance accumulator's payload. -/
theorem pay25_apply (v59 : FVec Ideal S6000x1 .f32) (v65 : IVec S6000x1 1) (v90 : Vec Ideal S1x1 .f32) :
    k0_pay25 (F := Ideal) v59 v65 v90 (ix2 (0 : Fin 1) (0 : Fin 1))
      = v90 (ix2 (0 : Fin 1) (0 : Fin 1)) + ∑ r : Fin 6000, Scalar.select (v65 (ix2 r (0 : Fin 1))) (v59 (ix2 r (0 : Fin 1))) Cert.Spec.z32 := by
  unfold k0_pay25
  rw [shapeCast_self, addf_apply, colsum_apply]
  rfl

/-- The counter's payload: what the scratch held plus the number of active rows of the block, counted in floats. -/
theorem pay26_apply (v65 : IVec S6000x1 1) (v99 : Vec Ideal S1x1 .f32) :
    k0_pay26 (F := Ideal) v65 v99 (ix2 (0 : Fin 1) (0 : Fin 1))
      = v99 (ix2 (0 : Fin 1) (0 : Fin 1)) + ∑ r : Fin 6000, Scalar.select (v65 (ix2 r (0 : Fin 1))) Cert.Spec.one32 Cert.Spec.z32 := by
  unfold k0_pay26
  rw [shapeCast_self, addf_apply, colsum_apply]
  rfl

/-- The activity mask the body computes from the activity column, and the violation column, are the identity casts of
    what it loaded. -/
theorem pay19_apply (v60 : Vec Ideal S6000x1 .f32) : k0_pay19 (F := Ideal) v60 = v60 := by
  unfold k0_pay19; rw [shapeCast_self]
theorem pay20_apply (v62 : Vec Ideal S6000x1 .f32) (i : S6000x1.Idx) :
    k0_pay20 (F := Ideal) v62 i = Ideal.cmp .ogt (v62 i) half32 := by
  unfold k0_pay20; rw [shapeCast_self]; rfl

/-- The two final quotients: a sum over the count floored at one. -/
theorem pay2_apply (v109 v112 : Vec Ideal S1x1 .f32) (i : S1x1.Idx) :
    k0_pay2 (F := Ideal) v109 v112 i = Ideal.div (v112 i) (max (v109 i) Cert.Spec.one32) := rfl
theorem pay3_apply (v109 v115 : Vec Ideal S1x1 .f32) (i : S1x1.Idx) :
    k0_pay3 (F := Ideal) v109 v115 i = Ideal.div (v115 i) (max (v109 i) Cert.Spec.one32) := rfl

/-- The zero the first grid point stores into each accumulator. -/
theorem pay4_apply (i : S1x1.Idx) : k0_pay4 (F := Ideal) i = Cert.Spec.z32 := by unfold k0_pay4; rw [shapeCast_self]; rfl
theorem pay5_apply (i : S1x1.Idx) : k0_pay5 (F := Ideal) i = Cert.Spec.z32 := by unfold k0_pay5; rw [shapeCast_self]; rfl
theorem pay6_apply (i : S1x1.Idx) : k0_pay6 (F := Ideal) i = Cert.Spec.z32 := by unfold k0_pay6; rw [shapeCast_self]; rfl

end Cert.KRow

end
-- ==== Proof.LibSums.lean ====
/-
  General lemmas about finite sums, used to read a blocked accumulation as one sum:
  a sum over `Fin (n * k)` split into `n` blocks of `k` consecutive terms, a running
  accumulator read as an initial value plus a sum over a range, and a count of set
  one-bit flags, accumulated in 32-bit two's-complement words, read as an extended real.
-/
import Mathlib.Algebra.BigOperators.Fin
import Mathlib.Data.Fintype.Card
import Mathlib.Logic.Equiv.Fin.Basic
import Mathlib.Data.EReal.Basic
import Mathlib.Tactic
import Idealize.ShloMosaic.PureOps.Ideal
import Idealize.ShloMosaic.PureOps.Ideal.Laws
import Idealize.ShloMosaic.PureOps.Reduce
import Idealize.ShloMosaic.Lib.IdealHost

open Idealize.ShloMosaic

namespace Cert.LibSums

noncomputable section

open scoped BigOperators

/-- For `t < n` and `r < k` the position `t * k + r` of the `r`-th term of the `t`-th block
    is below `n * k`: `t * k + r < t * k + k = (t + 1) * k ≤ n * k`. -/
theorem block_lt {n k : ℕ} (t : Fin n) (r : Fin k) : t.val * k + r.val < n * k :=
  calc t.val * k + r.val < t.val * k + k := Nat.add_lt_add_left r.isLt _
    _ = (t.val + 1) * k := by ring
    _ ≤ n * k := Nat.mul_le_mul_right k t.isLt

/-- A sum of `N = n * k` terms is the sum over `n` blocks of the sum of the `k` consecutive
    terms of each block: `∑_{i < N} f i = ∑_{t < n} ∑_{r < k} f (t * k + r)`. The pairs `(t, r)`
    correspond one to one to the positions `r + k * t` below `n * k`. -/
theorem sum_blocks_of_eq {M : Type*} [AddCommMonoid M] {N : ℕ} (n k : ℕ) (hN : N = n * k) (f : Fin N → M) :
    ∑ i : Fin N, f i
      = ∑ t : Fin n, ∑ r : Fin k, f ⟨t.val * k + r.val, hN ▸ block_lt t r⟩ := by
  subst hN
  rw [← Equiv.sum_comp finProdFinEquiv f, Fintype.sum_prod_type]
  refine Finset.sum_congr rfl fun t _ => Finset.sum_congr rfl fun r _ => ?_
  congr 1
  apply Fin.ext
  simp only [finProdFinEquiv_apply_val]
  ring

/-- A sum over `Fin (n * k)` is the sum over `n` blocks of the sum of the `k` consecutive terms
    of each block: `∑_{i < n k} f i = ∑_{t < n} ∑_{r < k} f (t * k + r)`. -/
theorem sum_blocks {M : Type*} [AddCommMonoid M] (n k : ℕ) (f : Fin (n * k) → M) :
    ∑ i : Fin (n * k), f i = ∑ t : Fin n, ∑ r : Fin k, f ⟨t.val * k + r.val, block_lt t r⟩ :=
  sum_blocks_of_eq n k rfl f

/-- A sum of 300000 extended reals is the sum over 50 blocks of the sum of the 6000 consecutive
    terms of each block, since `300000 = 50 * 6000`. -/
theorem sum_blocks_50_6000 (f : Fin 300000 → EReal) :
    ∑ i, f i = ∑ t : Fin 50, ∑ r : Fin 6000,
      f ⟨t.val * 6000 + r.val, (by norm_num : 300000 = 50 * 6000) ▸ block_lt t r⟩ :=
  sum_blocks_of_eq 50 6000 (by norm_num) f

/-- A running value that starts at `z + b 0` and adds `b (n + 1)` at step `n + 1` is, after
    step `n`, the initial value plus the sum of the first `n + 1` terms:
    `acc n = z + ∑_{t ≤ n} b t`. By induction on `n`. -/
theorem chain_eq_sum {M : Type*} [AddCommMonoid M] (z : M) (b acc : ℕ → M) (h0 : acc 0 = z + b 0)
    (hs : ∀ n, acc (n + 1) = acc n + b (n + 1)) (n : ℕ) :
    acc n = z + ∑ t ∈ Finset.range (n + 1), b t := by
  induction n with
  | zero => rw [h0, Finset.sum_range_one]
  | succ m ih => rw [hs m, ih, Finset.sum_range_succ _ (m + 1), add_assoc]

/-- The same for a running value only known to take its steps below a bound `N`: if
    `acc 0 = z + b 0` and `acc (n + 1) = acc n + b (n + 1)` whenever `n + 1 < N`, then
    `acc n = z + ∑_{t ≤ n} b t` for every `n < N`. By induction on `n`. -/
theorem chain_eq_sum_lt {M : Type*} [AddCommMonoid M] (z : M) (b acc : ℕ → M) (N : ℕ) (h0 : acc 0 = z + b 0)
    (hs : ∀ n, n + 1 < N → acc (n + 1) = acc n + b (n + 1)) (n : ℕ) (hn : n < N) :
    acc n = z + ∑ t ∈ Finset.range (n + 1), b t := by
  induction n with
  | zero => rw [h0, Finset.sum_range_one]
  | succ m ih => rw [hs m hn, ih (Nat.lt_of_succ_lt hn), Finset.sum_range_succ _ (m + 1), add_assoc]

/-- A one-bit word is zero or one. -/
theorem bit_eq_zero_or_one (x : BitVec 1) : x = 0#1 ∨ x = 1#1 := by
  have h := x.isLt
  rcases Nat.lt_or_ge x.toNat 1 with h0 | h1
  · left; apply BitVec.eq_of_toNat_eq; simp only [BitVec.toNat_ofNat]; omega
  · right; apply BitVec.eq_of_toNat_eq; simp only [BitVec.toNat_ofNat]; omega

/-- The real-to-extended-real embedding commutes with finite sums:
    `↑(∑_{k ∈ s} g k) = ∑_{k ∈ s} ↑(g k)`. By induction on the finite set. -/
theorem coe_finset_sum {ι : Type} (s : Finset ι) (g : ι → ℝ) :
    ((∑ k ∈ s, g k : ℝ) : EReal) = ∑ k ∈ s, (g k : EReal) := by
  classical
  induction s using Finset.induction_on with
  | empty => simp
  | insert x s hx ih => rw [Finset.sum_insert hx, Finset.sum_insert hx, EReal.coe_add, ih]

/-- Folding 32-bit wrapping addition, from zero, over one-bit flags zero-extended to 32 bits
    gives the 32-bit word of the sum of the flags' values: the fold is the sum in `ℤ / 2³²`,
    and `n ↦ n mod 2³²` is additive. By induction on the finite set. -/
theorem fold_addi_eq_ofNat_sum {ι : Type} (s : Finset ι) (a : ι → BitVec 1) :
    s.fold IntOp.addi 0#32 (fun k => (a k).setWidth 32) = BitVec.ofNat 32 (∑ k ∈ s, (a k).toNat) := by
  classical
  induction s using Finset.induction_on with
  | empty => simp
  | insert x s hx ih =>
    rw [Finset.fold_insert hx, Finset.sum_insert hx, ih, BitVec.ofNat_add]
    show (a x).setWidth 32 + _ = _
    congr 1
    apply BitVec.eq_of_toNat_eq
    simp [BitVec.toNat_setWidth, BitVec.toNat_ofNat]

/-- The signed 32-bit count of set flags, floored at one and read as an extended real, is the
    extended-real count floored at one. The fold of wrapping additions is the sum `S` of the flags
    modulo `2³²`; every flag is 0 or 1, so `S` is at most the number of indices, below `2³¹`: the
    sum does not wrap and its signed reading is `S`. The signed maximum with one is the integer
    maximum, and the embedding of the integers in the extended reals is monotone and additive, so it
    commutes with the maximum and with the sum; each flag's value is `select` of one and zero. -/
theorem count_cast {ι : Type} [Fintype ι] (hcard : Fintype.card ι < 2 ^ 31) (a : ι → BitVec 1) :
    ((((IntOp.maxsi (Finset.univ.fold IntOp.addi 0#32 (fun k => (a k).setWidth 32)) 1#32).toInt : ℝ)) : EReal)
      = max (∑ k : ι, Scalar.select (a k) (1 : EReal) 0) 1 := by
  classical
  set S : ℕ := ∑ k : ι, (a k).toNat with hS
  have hle : S ≤ Fintype.card ι := by
    calc S ≤ ∑ _k : ι, 1 := Finset.sum_le_sum fun k _ => by have := (a k).isLt; omega
      _ = Fintype.card ι := by simp
  have hlt : S < 2 ^ 31 := lt_of_le_of_lt hle hcard
  rw [fold_addi_eq_ofNat_sum, ← hS]
  have hnat : (BitVec.ofNat 32 S).toNat = S := by
    rw [BitVec.toNat_ofNat]; exact Nat.mod_eq_of_lt (by omega)
  have hx : (BitVec.ofNat 32 S).toInt = (S : ℤ) := by
    rw [BitVec.toInt_eq_toNat_of_lt (by rw [hnat]; omega), hnat]
  have h1 : (1#32 : BitVec 32).toInt = 1 := by decide
  have hmax : (IntOp.maxsi (BitVec.ofNat 32 S) 1#32).toInt = max (S : ℤ) 1 := by
    simp only [IntOp.maxsi, BitVec.slt, decide_eq_true_eq]
    split_ifs with h
    · rw [hx] at h ⊢; rw [h1] at h; omega
    · rw [hx] at h; rw [h1] at h ⊢; omega
  have hsel : ∀ k : ι, Scalar.select (a k) (1 : EReal) 0 = ((((a k).toNat : ℕ) : ℝ) : EReal) := by
    intro k
    rcases bit_eq_zero_or_one (a k) with h | h <;> rw [h] <;> simp [Scalar.select]
  have hsum : ∑ k : ι, Scalar.select (a k) (1 : EReal) 0 = ((S : ℝ) : EReal) := by
    rw [hS, Nat.cast_sum, coe_finset_sum]
    exact Finset.sum_congr rfl fun k _ => hsel k
  rw [hmax, hsum, Int.cast_max, EReal.coe_strictMono.monotone.map_max]
  simp

/-- The same with one and zero written as the 32-bit float patterns `0x3F800000` and `0x00000000`,
    which denote the extended reals one and zero. -/
theorem count_cast_lit {ι : Type} [Fintype ι] (hcard : Fintype.card ι < 2 ^ 31) (a : ι → BitVec 1) :
    ((((IntOp.maxsi (Finset.univ.fold IntOp.addi 0#32 (fun k => (a k).setWidth 32)) 1#32).toInt : ℝ)) : EReal)
      = max (∑ k : ι, Scalar.select (a k) (Ideal.ofBits .f32 0x3F800000#32) (Ideal.ofBits .f32 0x00000000#32))
          (Ideal.ofBits .f32 0x3F800000#32) := by
  rw [Ideal.ofBits_one_f32, Ideal.ofBits_zero_f32]
  exact count_cast hcard a

end

end Cert.LibSums
-- ==== Proof.KFinal.lean ====
/-
  The kernel's three results as the specification of the arrays the region finds.
  Point `t` stages rows `6000 t … 6000 t + 5999` of the five row-blocked inputs and the whole of each weight and bias
  array. Read through those blocks, the update payload of point `t` at `(p, f)` is the specification's updated feature of
  row `6000 t + p`; every point writes its block back, and the 50 blocks cover the array, so the first result is the
  specification's update array. The three accumulators after the last point are zero plus the 50 block sums, that is
  the sums over all 300000 rows; the last point writes their two quotients, which the two lines after the region
  recast as scalars.
-/
import proofs.«144948_j85856396247188_2_alg».proof.Proof.KAcc
import proofs.«144948_j85856396247188_2_alg».proof.Proof.KRow
import proofs.«144948_j85856396247188_2_alg».proof.Proof.LibSums
import Idealize.ShloMosaic.Lib.Pipeline.Value
import Idealize.ShloMosaic.Lib.ValueIdx
import Idealize.ShloMosaic.Lib.StableHlo.Run

set_option maxRecDepth 16384
set_option maxHeartbeats 1000000

noncomputable section

namespace Cert.KFinal

open Idealize.ShloMosaic Idealize.ShloMosaic.TcCoe Idealize.SL.Sem Idealize.ShloMosaic.ValueIdx
open Idealize.ShloMosaic.Pipeline (Dat)
open Cert.KernelIdeal Cert.KernelIdeal.Gen Cert.KAcc

variable (m : (ℓ : Loc nD τ sig) → Buf (Elt Ideal) ℓ)

/-- The printed index maps over the 50 grid points: the five row-blocked inputs and the update output are at block
    `(t, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_15.index t (0 : Fin 2) = t.val ∧ win0_15.index t (1 : Fin 2) = 0) :=
  (by decide +kernel : ∀ t : Fin grid0.N, _)

/-- The weight, bias and scalar-output windows never move: block `(0, 0)` at every point. -/
theorem idx_facts_w : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_16.index t (0 : Fin 2) = 0 ∧ win0_16.index t (1 : Fin 2) = 0)
    ∧ (win0_17.index t (0 : Fin 2) = 0 ∧ win0_17.index t (1 : Fin 2) = 0) :=
  (by decide +kernel : ∀ t : Fin grid0.N, _)

/-- Row `p` of block `t` is row `6000 t + p` of the array. -/
def rowOf (t : Fin cfg0.N) (p : Fin 6000) : Fin 300000 :=
  ⟨t.val * 6000 + p.val, by have := lt_of_lt_of_eq t.isLt N_0; have := p.isLt; omega⟩

/-- Window 0's block at point `t`, read at `(p, f)`: row `6000 t + p` of its array. -/
theorem blk0 (c : Dev nD) (t : Fin cfg0.N) (p : Fin 6000) (f : Fin 64) :
    bk0 m c t (ix2 p f) = V m c main_arg0 (ix2 (rowOf t p) f) := by
  have e0 := (idx_facts t).1.1
  have e1 := (idx_facts t).1.2
  unfold bk0 iblk
  rw [View.read_apply]
  show V m c main_arg0 (((cfg0.win 0).blk t).view.emb (ix2 p f)) = V m c main_arg0 (ix2 (rowOf t p) f)
  refine congrArg _ (funext fun a => Fin.ext ?_)
  match a with
  | ⟨0, _⟩ => show win0_0.index t (0 : Fin 2) * 6000 + 1 * p.val = t.val * 6000 + p.val; rw [e0]; omega
  | ⟨1, _⟩ => show win0_0.index t (1 : Fin 2) * 64 + 1 * f.val = f.val; rw [e1]; omega

/-- Window 1's block at point `t`, read at `(p, f)`: row `6000 t + p` of its array. -/
theorem blk1 (c : Dev nD) (t : Fin cfg0.N) (p : Fin 6000) (f : Fin 64) :
    bk1 m c t (ix2 p f) = V m c main_v39 (ix2 (rowOf t p) f) := by
  have e0 := (idx_facts t).2.1.1
  have e1 := (idx_facts t).2.1.2
  unfold bk1 iblk
  rw [View.read_apply]
  show V m c main_v39 (((cfg0.win 1).blk t).view.emb (ix2 p f)) = V m c main_v39 (ix2 (rowOf t p) f)
  refine congrArg _ (funext fun a => Fin.ext ?_)
  match a with
  | ⟨0, _⟩ => show win0_1.index t (0 : Fin 2) * 6000 + 1 * p.val = t.val * 6000 + p.val; rw [e0]; omega
  | ⟨1, _⟩ => show win0_1.index t (1 : Fin 2) * 64 + 1 * f.val = f.val; rw [e1]; omega

/-- Window 2's block at point `t`, read at `(p, f)`: row `6000 t + p` of its array. -/
theorem blk2 (c : Dev nD) (t : Fin cfg0.N) (p : Fin 6000) (f : Fin 64) :
    bk2 m c t (ix2 p f) = V m c main_v46 (ix2 (rowOf t p) f) := by
  have e0 := (idx_facts t).2.2.1.1
  have e1 := (idx_facts t).2.2.1.2
  unfold bk2 iblk
  rw [View.read_apply]
  show V m c main_v46 (((cfg0.win 2).blk t).view.emb (ix2 p f)) = V m c main_v46 (ix2 (rowOf t p) f)
  refine congrArg _ (funext fun a => Fin.ext ?_)
  match a with
  | ⟨0, _⟩ => show win0_2.index t (0 : Fin 2) * 6000 + 1 * p.val = t.val * 6000 + p.val; rw [e0]; omega
  | ⟨1, _⟩ => show win0_2.index t (1 : Fin 2) * 64 + 1 * f.val = f.val; rw [e1]; omega

/-- Window 3's block at point `t`, read at `(p, f)`: row `6000 t + p` of its array. -/
theorem blk3 (c : Dev nD) (t : Fin cfg0.N) (p : Fin 6000) (f : Fin 1) :
    bk3 m c t (ix2 p f) = V m c main_v74 (ix2 (rowOf t p) f) := by
  have e0 := (idx_facts t).2.2.2.1.1
  have e1 := (idx_facts t).2.2.2.1.2
  unfold bk3 iblk
  rw [View.read_apply]
  show V m c main_v74 (((cfg0.win 3).blk t).view.emb (ix2 p f)) = V m c main_v74 (ix2 (rowOf t p) f)
  refine congrArg _ (funext fun a => Fin.ext ?_)
  match a with
  | ⟨0, _⟩ => show win0_3.index t (0 : Fin 2) * 6000 + 1 * p.val = t.val * 6000 + p.val; rw [e0]; omega
  | ⟨1, _⟩ => show win0_3.index t (1 : Fin 2) * 1 + 1 * f.val = f.val; rw [e1]; omega

/-- Window 4's block at point `t`, read at `(p, f)`: row `6000 t + p` of its array. -/
theorem blk4 (c : Dev nD) (t : Fin cfg0.N) (p : Fin 6000) (f : Fin 1) :
    bk4 m c t (ix2 p f) = V m c main_v76 (ix2 (rowOf t p) f) := by
  have e0 := (idx_facts t).2.2.2.2.1.1
  have e1 := (idx_facts t).2.2.2.2.1.2
  unfold bk4 iblk
  rw [View.read_apply]
  show V m c main_v76 (((cfg0.win 4).blk t).view.emb (ix2 p f)) = V m c main_v76 (ix2 (rowOf t p) f)
  refine congrArg _ (funext fun a => Fin.ext ?_)
  match a with
  | ⟨0, _⟩ => show win0_4.index t (0 : Fin 2) * 6000 + 1 * p.val = t.val * 6000 + p.val; rw [e0]; omega
  | ⟨1, _⟩ => show win0_4.index t (1 : Fin 2) * 1 + 1 * f.val = f.val; rw [e1]; omega

/-- Window 5's block at any point is its whole array. -/
theorem blk5 (c : Dev nD) (t : Fin cfg0.N) : bk5 m c t = V m c main_v77 := by
  have e0 := (idx_facts_w t).1.1
  have e1 := (idx_facts_w t).1.2
  funext j
  unfold bk5 iblk
  rw [View.read_apply]
  show V m c main_v77 (((cfg0.win 5).blk t).view.emb j) = V m c main_v77 j
  refine congrArg _ (funext fun a => Fin.ext ?_)
  match a with
  | ⟨0, _⟩ => show win0_5.index t (0 : Fin 2) * 192 + 1 * (j 0).val = (j 0).val; rw [e0]; omega
  | ⟨1, _⟩ => show win0_5.index t (1 : Fin 2) * 64 + 1 * (j 1).val = (j 1).val; rw [e1]; omega

/-- Window 6's block at any point is its whole array. -/
theorem blk6 (c : Dev nD) (t : Fin cfg0.N) : bk6 m c t = V m c main_v82 := by
  have e0 := (idx_facts_w t).2.1.1
  have e1 := (idx_facts_w t).2.1.2
  funext j
  unfold bk6 iblk
  rw [View.read_apply]
  show V m c main_v82 (((cfg0.win 6).blk t).view.emb j) = V m c main_v82 j
  refine congrArg _ (funext fun a => Fin.ext ?_)
  match a with
  | ⟨0, _⟩ => show win0_6.index t (0 : Fin 2) * 1 + 1 * (j 0).val = (j 0).val; rw [e0]; omega
  | ⟨1, _⟩ => show win0_6.index t (1 : Fin 2) * 64 + 1 * (j 1).val = (j 1).val; rw [e1]; omega

/-- Window 7's block at any point is its whole array. -/
theorem blk7 (c : Dev nD) (t : Fin cfg0.N) : bk7 m c t = V m c main_v78 := by
  have e0 := (idx_facts_w t).2.2.1.1
  have e1 := (idx_facts_w t).2.2.1.2
  funext j
  unfold bk7 iblk
  rw [View.read_apply]
  show V m c main_v78 (((cfg0.win 7).blk t).view.emb j) = V m c main_v78 j
  refine congrArg _ (funext fun a => Fin.ext ?_)
  match a with
  | ⟨0, _⟩ => show win0_7.index t (0 : Fin 2) * 64 + 1 * (j 0).val = (j 0).val; rw [e0]; omega
  | ⟨1, _⟩ => show win0_7.index t (1 : Fin 2) * 32 + 1 * (j 1).val = (j 1).val; rw [e1]; omega

/-- Window 8's block at any point is its whole array. -/
theorem blk8 (c : Dev nD) (t : Fin cfg0.N) : bk8 m c t = V m c main_v83 := by
  have e0 := (idx_facts_w t).2.2.2.1.1
  have e1 := (idx_facts_w t).2.2.2.1.2
  funext j
  unfold bk8 iblk
  rw [View.read_apply]
  show V m c main_v83 (((cfg0.win 8).blk t).view.emb j) = V m c main_v83 j
  refine congrArg _ (funext fun a => Fin.ext ?_)
  match a with
  | ⟨0, _⟩ => show win0_8.index t (0 : Fin 2) * 1 + 1 * (j 0).val = (j 0).val; rw [e0]; omega
  | ⟨1, _⟩ => show win0_8.index t (1 : Fin 2) * 32 + 1 * (j 1).val = (j 1).val; rw [e1]; omega

/-- Window 9's block at any point is its whole array. -/
theorem blk9 (c : Dev nD) (t : Fin cfg0.N) : bk9 m c t = V m c main_v79 := by
  have e0 := (idx_facts_w t).2.2.2.2.1.1
  have e1 := (idx_facts_w t).2.2.2.2.1.2
  funext j
  unfold bk9 iblk
  rw [View.read_apply]
  show V m c main_v79 (((cfg0.win 9).blk t).view.emb j) = V m c main_v79 j
  refine congrArg _ (funext fun a => Fin.ext ?_)
  match a with
  | ⟨0, _⟩ => show win0_9.index t (0 : Fin 2) * 32 + 1 * (j 0).val = (j 0).val; rw [e0]; omega
  | ⟨1, _⟩ => show win0_9.index t (1 : Fin 2) * 1 + 1 * (j 1).val = (j 1).val; rw [e1]; omega

/-- Window 10's block at any point is its whole array. -/
theorem blk10 (c : Dev nD) (t : Fin cfg0.N) : bk10 m c t = V m c main_v84 := by
  have e0 := (idx_facts_w t).2.2.2.2.2.1.1
  have e1 := (idx_facts_w t).2.2.2.2.2.1.2
  funext j
  unfold bk10 iblk
  rw [View.read_apply]
  show V m c main_v84 (((cfg0.win 10).blk t).view.emb j) = V m c main_v84 j
  refine congrArg _ (funext fun a => Fin.ext ?_)
  match a with
  | ⟨0, _⟩ => show win0_10.index t (0 : Fin 2) * 1 + 1 * (j 0).val = (j 0).val; rw [e0]; omega
  | ⟨1, _⟩ => show win0_10.index t (1 : Fin 2) * 1 + 1 * (j 1).val = (j 1).val; rw [e1]; omega

/-- Window 11's block at any point is its whole array. -/
theorem blk11 (c : Dev nD) (t : Fin cfg0.N) : bk11 m c t = V m c main_v80 := by
  have e0 := (idx_facts_w t).2.2.2.2.2.2.1.1
  have e1 := (idx_facts_w t).2.2.2.2.2.2.1.2
  funext j
  unfold bk11 iblk
  rw [View.read_apply]
  show V m c main_v80 (((cfg0.win 11).blk t).view.emb j) = V m c main_v80 j
  refine congrArg _ (funext fun a => Fin.ext ?_)
  match a with
  | ⟨0, _⟩ => show win0_11.index t (0 : Fin 2) * 192 + 1 * (j 0).val = (j 0).val; rw [e0]; omega
  | ⟨1, _⟩ => show win0_11.index t (1 : Fin 2) * 64 + 1 * (j 1).val = (j 1).val; rw [e1]; omega

/-- Window 12's block at any point is its whole array. -/
theorem blk12 (c : Dev nD) (t : Fin cfg0.N) : bk12 m c t = V m c main_v85 := by
  have e0 := (idx_facts_w t).2.2.2.2.2.2.2.1.1
  have e1 := (idx_facts_w t).2.2.2.2.2.2.2.1.2
  funext j
  unfold bk12 iblk
  rw [View.read_apply]
  show V m c main_v85 (((cfg0.win 12).blk t).view.emb j) = V m c main_v85 j
  refine congrArg _ (funext fun a => Fin.ext ?_)
  match a with
  | ⟨0, _⟩ => show win0_12.index t (0 : Fin 2) * 1 + 1 * (j 0).val = (j 0).val; rw [e0]; omega
  | ⟨1, _⟩ => show win0_12.index t (1 : Fin 2) * 64 + 1 * (j 1).val = (j 1).val; rw [e1]; omega

/-- Window 13's block at any point is its whole array. -/
theorem blk13 (c : Dev nD) (t : Fin cfg0.N) : bk13 m c t = V m c main_v81 := by
  have e0 := (idx_facts_w t).2.2.2.2.2.2.2.2.1.1
  have e1 := (idx_facts_w t).2.2.2.2.2.2.2.2.1.2
  funext j
  unfold bk13 iblk
  rw [View.read_apply]
  show V m c main_v81 (((cfg0.win 13).blk t).view.emb j) = V m c main_v81 j
  refine congrArg _ (funext fun a => Fin.ext ?_)
  match a with
  | ⟨0, _⟩ => show win0_13.index t (0 : Fin 2) * 64 + 1 * (j 0).val = (j 0).val; rw [e0]; omega
  | ⟨1, _⟩ => show win0_13.index t (1 : Fin 2) * 1 + 1 * (j 1).val = (j 1).val; rw [e1]; omega

/-- Window 14's block at any point is its whole array. -/
theorem blk14 (c : Dev nD) (t : Fin cfg0.N) : bk14 m c t = V m c main_v86 := by
  have e0 := (idx_facts_w t).2.2.2.2.2.2.2.2.2.1.1
  have e1 := (idx_facts_w t).2.2.2.2.2.2.2.2.2.1.2
  funext j
  unfold bk14 iblk
  rw [View.read_apply]
  show V m c main_v86 (((cfg0.win 14).blk t).view.emb j) = V m c main_v86 j
  refine congrArg _ (funext fun a => Fin.ext ?_)
  match a with
  | ⟨0, _⟩ => show win0_14.index t (0 : Fin 2) * 1 + 1 * (j 0).val = (j 0).val; rw [e0]; omega
  | ⟨1, _⟩ => show win0_14.index t (1 : Fin 2) * 1 + 1 * (j 1).val = (j 1).val; rw [e1]; omega

/-! ## The arrays the specification is applied to -/

/-- The weights and biases as the region finds them: the bias rows `[1, n]` read along their row. -/
def Wk (c : Dev nD) : Cert.Spec.Weights where
  w1 := V m c main_v77
  b1 := fun j => V m c main_v82 (ix2 (0 : Fin 1) (j 0))
  w2 := V m c main_v78
  b2 := fun j => V m c main_v83 (ix2 (0 : Fin 1) (j 0))
  w3 := V m c main_v79
  b3 := fun j => V m c main_v84 (ix2 (0 : Fin 1) (j 0))
  u1 := V m c main_v80
  d1 := fun j => V m c main_v85 (ix2 (0 : Fin 1) (j 0))
  u2 := V m c main_v81
  d2 := fun j => V m c main_v86 (ix2 (0 : Fin 1) (j 0))

/-- The violation of node `r`: the violation column's entry of row `r`. -/
def violK (c : Dev nD) : Cert.Spec.SN.Idx → EReal := fun i => V m c main_v74 (ix2 (i 0) (0 : Fin 1))

/-- Whether node `r` is active: its activity column's entry exceeds one half. -/
def actK (c : Dev nD) : Cert.Spec.SN.Idx → BitVec 1 :=
  fun i => Ideal.cmp .ogt (V m c main_v76 (ix2 (i 0) (0 : Fin 1))) Cert.KRow.half32

/-- The first result. -/
def G15 (c : Dev nD) : Cert.Spec.SNx64.Idx → EReal :=
  Cert.Spec.updArr (V m c main_arg0) (V m c main_v39) (V m c main_v46) (violK m c) (actK m c) (Wk m c)

theorem pay8_bk (c : Dev nD) (t : Fin cfg0.N) : k0_pay8 (F := Ideal) (bk5 m c t) = V m c main_v77 := by
  unfold k0_pay8; rw [shapeCast_self]; exact blk5 m c t
theorem pay9_bk (c : Dev nD) (t : Fin cfg0.N) : k0_pay9 (F := Ideal) (bk6 m c t) = V m c main_v82 := by
  unfold k0_pay9; rw [shapeCast_self]; exact blk6 m c t
theorem pay10_bk (c : Dev nD) (t : Fin cfg0.N) : k0_pay10 (F := Ideal) (bk7 m c t) = V m c main_v78 := by
  unfold k0_pay10; rw [shapeCast_self]; exact blk7 m c t
theorem pay11_bk (c : Dev nD) (t : Fin cfg0.N) : k0_pay11 (F := Ideal) (bk8 m c t) = V m c main_v83 := by
  unfold k0_pay11; rw [shapeCast_self]; exact blk8 m c t
theorem pay12_bk (c : Dev nD) (t : Fin cfg0.N) : k0_pay12 (F := Ideal) (bk9 m c t) = V m c main_v79 := by
  unfold k0_pay12; rw [shapeCast_self]; exact blk9 m c t
theorem pay13_bk (c : Dev nD) (t : Fin cfg0.N) : k0_pay13 (F := Ideal) (bk10 m c t) = V m c main_v84 := by
  unfold k0_pay13; rw [shapeCast_self]; exact blk10 m c t
theorem pay14_bk (c : Dev nD) (t : Fin cfg0.N) : k0_pay14 (F := Ideal) (bk11 m c t) = V m c main_v80 := by
  unfold k0_pay14; rw [shapeCast_self]; exact blk11 m c t
theorem pay15_bk (c : Dev nD) (t : Fin cfg0.N) : k0_pay15 (F := Ideal) (bk12 m c t) = V m c main_v85 := by
  unfold k0_pay15; rw [shapeCast_self]; exact blk12 m c t
theorem pay16_bk (c : Dev nD) (t : Fin cfg0.N) : k0_pay16 (F := Ideal) (bk13 m c t) = V m c main_v81 := by
  unfold k0_pay16; rw [shapeCast_self]; exact blk13 m c t
theorem pay17_bk (c : Dev nD) (t : Fin cfg0.N) : k0_pay17 (F := Ideal) (bk14 m c t) = V m c main_v86 := by
  unfold k0_pay17; rw [shapeCast_self]; exact blk14 m c t

/-- Row `p` of point `t`'s three feature blocks, side by side, is row `6000 t + p` of the three arrays, side by side. -/
theorem cmb_eq (c : Dev nD) (t : Fin cfg0.N) (p : Fin 6000) :
    (fun k => k0_pay7 (F := Ideal) (bk0 m c t) (bk1 m c t) (bk2 m c t) (ix2 p k))
      = Cert.Spec.cmb (V m c main_arg0) (V m c main_v39) (V m c main_v46) (rowOf t p) := by
  funext k
  rw [Cert.KRow.pay7_apply]
  unfold Cert.KRow.bcmb Cert.Spec.cmb
  by_cases h : k.val < 64
  · rw [dif_pos h, dif_pos h]; exact blk0 m c t p _
  · rw [dif_neg h, dif_neg h]
    by_cases h2 : k.val < 128
    · rw [dif_pos h2, dif_pos h2]; exact blk1 m c t p _
    · rw [dif_neg h2, dif_neg h2]; exact blk2 m c t p _

/-- The update payload of point `t` at `(p, f)` is the first result at row `6000 t + p`. -/
theorem upd_row (c : Dev nD) (t : Fin cfg0.N) (p : Fin 6000) (f : Fin 64) :
    (k0_pay23 (bk0 m c t) (k0_pay21 (k0_pay7 (bk0 m c t) (bk1 m c t) (bk2 m c t)) (k0_pay8 (bk5 m c t)) (k0_pay9 (bk6 m c t)) (k0_pay10 (bk7 m c t)) (k0_pay11 (bk8 m c t)) (k0_pay12 (bk9 m c t)) (k0_pay13 (bk10 m c t)) (bk3 m c t) (bk4 m c t)) (k0_pay22 (bk0 m c t))) (ix2 p f) = G15 m c (ix2 (rowOf t p) f) := by
  refine (Cert.KRow.pay23_apply (bk0 m c t) _ _ p f).trans ?_
  rw [Cert.KRow.pay22_apply,
    Cert.KRow.pay21_apply _ _ _ _ _ _ _ (bk3 m c t) (bk4 m c t) (Wk m c)
      (pay8_bk m c t).symm (fun j => (congrFun (pay9_bk m c t) (ix2 (0 : Fin 1) j)).symm) (pay10_bk m c t).symm
      (fun j => (congrFun (pay11_bk m c t) (ix2 (0 : Fin 1) j)).symm) (pay12_bk m c t).symm
      (congrFun (pay13_bk m c t) (ix2 (0 : Fin 1) (0 : Fin 1))).symm p,
    cmb_eq, blk0, blk3, blk4]
  rfl

/-! ## The first result: the 50 written-back blocks are the specification's array -/

/-- What point `t` writes back into the update output is block `t` of the first result. -/
theorem flushed15 (c : Dev nD) (t : Fin cfg0.N) :
    (dats m 0 c).flushed 15 t = ((cfg0.win 15).blk t).view.read (Elt Ideal) (G15 m c) := by
  have e0 := (idx_facts t).2.2.2.2.2.1
  have e1 := (idx_facts t).2.2.2.2.2.2
  show (cfg0.win 15).cut (grid0.coords t) ((dats m 0 c).after 15 t) = _
  rw [after0_15, Cert.KAcc.upd_eq]
  funext j
  obtain ⟨p, f, rfl⟩ : ∃ (p : Fin 6000) (f : Fin 64), j = ix2 p f := ⟨j 0, j 1, eq_ix2 j⟩
  rw [View.read_apply]
  have hemb : ((cfg0.win 15).blk t).view.emb (ix2 p f) = ix2 (rowOf t p) f := funext fun a => Fin.ext (by
    match a with
    | ⟨0, _⟩ => show win0_15.index t (0 : Fin 2) * 6000 + 1 * p.val = t.val * 6000 + p.val; rw [e0]; omega
    | ⟨1, _⟩ => show win0_15.index t (1 : Fin 2) * 64 + 1 * f.val = f.val; rw [e1]; omega)
  show (k0_pay23 (bk0 m c t) (k0_pay21 (k0_pay7 (bk0 m c t) (bk1 m c t) (bk2 m c t)) (k0_pay8 (bk5 m c t)) (k0_pay9 (bk6 m c t)) (k0_pay10 (bk7 m c t)) (k0_pay11 (bk8 m c t)) (k0_pay12 (bk9 m c t)) (k0_pay13 (bk10 m c t)) (bk3 m c t) (bk4 m c t)) (k0_pay22 (bk0 m c t))) (ix2 p f) = G15 m c (((cfg0.win 15).blk t).view.emb (ix2 p f))
  rw [hemb]
  exact upd_row m c t p f

/-- Every index of the update output lies in the block of the point its row falls in. -/
theorem cover15 (i : S300000x64.Idx) :
    ∃ t : Fin cfg0.N, (cfg0.win 15).flush t = true ∧ i ∈ ((cfg0.win 15).blk t).view.set := by
  have hi0 : (i 0).val < 300000 := (i 0).isLt
  have hi1 : (i 1).val < 64 := (i 1).isLt
  have hlt : (i 0).val / 6000 < cfg0.N := by rw [show cfg0.N = 50 from N_0]; omega
  have e0 := (idx_facts ⟨(i 0).val / 6000, hlt⟩).2.2.2.2.2.1
  have e1 := (idx_facts ⟨(i 0).val / 6000, hlt⟩).2.2.2.2.2.2
  refine ⟨⟨(i 0).val / 6000, hlt⟩, flush0_15 _, ?_⟩
  show i ∈ ((View.whole main_v87_0).slice (win0_15.rect ⟨(i 0).val / 6000, hlt⟩)).set
  rw [View.set_slice_whole, Rect.mem_set_unit]
  intro a
  match a with
  | ⟨0, _⟩ =>
    show win0_15.index ⟨(i 0).val / 6000, hlt⟩ (0 : Fin 2) * 6000 ≤ (i 0).val ∧ (i 0).val < win0_15.index ⟨(i 0).val / 6000, hlt⟩ (0 : Fin 2) * 6000 + 6000
    rw [e0]; dsimp only; omega
  | ⟨1, _⟩ =>
    show win0_15.index ⟨(i 0).val / 6000, hlt⟩ (1 : Fin 2) * 64 ≤ (i 1).val ∧ (i 1).val < win0_15.index ⟨(i 0).val / 6000, hlt⟩ (1 : Fin 2) * 64 + 64
    rw [e1]; omega

/-- The update output after the run is the first result. -/
theorem final15 (c : Dev nD) : (dats m 0 c).arrAt 15 cfg0.N = G15 m c :=
  (dats m 0 c).arrAt_eq_of_cover 15 (G15 m c) (fun t _ => flushed15 m c t) cover15

/-! ## The accumulators: zero plus the block sums -/

/-- Forty-nine is a grid point: there are 50. -/
theorem lt49 : 49 < cfg0.N := by rw [show cfg0.N = 50 from N_0]; decide

/-- The last grid point. -/
def t49 : Fin cfg0.N := ⟨49, lt49⟩

/-- Block `t`'s contribution to the sum of `g` over the active nodes. -/
def blockSum (c : Dev nD) (g : Fin 300000 → EReal) (t : Fin cfg0.N) : EReal :=
  ∑ p : Fin 6000, Scalar.select (actK m c (ix1 (rowOf t p))) (g (rowOf t p)) Cert.Spec.z32

/-- The activity mask the body computes at row `p` of block `t` is the activity of node `6000 t + p`. -/
theorem act_row (c : Dev nD) (t : Fin cfg0.N) (p : Fin 6000) :
    k0_pay20 (F := Ideal) (bk4 m c t) (ix2 p (0 : Fin 1)) = actK m c (ix1 (rowOf t p)) := by
  rw [Cert.KRow.pay20_apply, blk4]; rfl

/-- The violation the body reads at row `p` of block `t` is the violation of node `6000 t + p`. -/
theorem viol_row (c : Dev nD) (t : Fin cfg0.N) (p : Fin 6000) :
    k0_pay19 (F := Ideal) (bk3 m c t) (ix2 p (0 : Fin 1)) = violK m c (ix1 (rowOf t p)) := by
  rw [Cert.KRow.pay19_apply, blk3]; rfl

/-- The compliance the body computes at row `p` of block `t` is the specification's compliance of node `6000 t + p`. -/
theorem compl_row (c : Dev nD) (t : Fin cfg0.N) (p : Fin 6000) :
    k0_pay18 (F := Ideal) (k0_pay7 (bk0 m c t) (bk1 m c t) (bk2 m c t)) (k0_pay14 (bk11 m c t)) (k0_pay15 (bk12 m c t))
        (k0_pay16 (bk13 m c t)) (k0_pay17 (bk14 m c t)) (ix2 p (0 : Fin 1))
      = Cert.Spec.compl (Wk m c) (Cert.Spec.cmb (V m c main_arg0) (V m c main_v39) (V m c main_v46) (rowOf t p)) := by
  rw [Cert.KRow.pay18_apply _ _ _ _ _ (Wk m c) (pay14_bk m c t).symm
      (fun j => (congrFun (pay15_bk m c t) (ix2 (0 : Fin 1) j)).symm) (pay16_bk m c t).symm
      (congrFun (pay17_bk m c t) (ix2 (0 : Fin 1) (0 : Fin 1))).symm p, cmb_eq]

/-- The violation accumulator after point `n`: zero plus the first `n + 1` block sums of the violations. -/
theorem accV_val (c : Dev nD) : ∀ (n : ℕ) (h : n < cfg0.N),
    accV m c n h (ix2 (0 : Fin 1) (0 : Fin 1))
      = Cert.Spec.z32 + ∑ t : Fin (n + 1), blockSum m c (fun r => violK m c (ix1 r)) ⟨t.val, lt_of_lt_of_le t.isLt h⟩
  | 0, h => by
    unfold accV
    rw [Cert.KRow.pay24_apply, Cert.KRow.pay4_apply, Fin.sum_univ_one]
    refine congrArg _ (Finset.sum_congr rfl fun p _ => ?_)
    rw [act_row, viol_row]
    rfl
  | n + 1, h => by
    unfold accV
    rw [Cert.KRow.pay24_apply, accV_val c n (Nat.lt_of_succ_lt h), add_assoc]
    refine congrArg _ ?_
    rw [Fin.sum_univ_castSucc (n := n + 1)]
    refine congrArg₂ (· + ·) rfl ?_
    unfold blockSum
    refine Finset.sum_congr rfl fun p _ => ?_
    rw [act_row, viol_row]
    rfl

/-- The compliance accumulator after point `n`. -/
theorem accC_val (c : Dev nD) : ∀ (n : ℕ) (h : n < cfg0.N),
    accC m c n h (ix2 (0 : Fin 1) (0 : Fin 1))
      = Cert.Spec.z32 + ∑ t : Fin (n + 1), blockSum m c (fun r => Cert.Spec.compl (Wk m c) (Cert.Spec.cmb (V m c main_arg0) (V m c main_v39) (V m c main_v46) r)) ⟨t.val, lt_of_lt_of_le t.isLt h⟩
  | 0, h => by
    unfold accC
    rw [Cert.KRow.pay25_apply, Cert.KRow.pay5_apply, Fin.sum_univ_one]
    refine congrArg _ (Finset.sum_congr rfl fun p _ => ?_)
    rw [act_row, compl_row]
    rfl
  | n + 1, h => by
    unfold accC
    rw [Cert.KRow.pay25_apply, accC_val c n (Nat.lt_of_succ_lt h), add_assoc]
    refine congrArg _ ?_
    rw [Fin.sum_univ_castSucc (n := n + 1)]
    refine congrArg₂ (· + ·) rfl ?_
    unfold blockSum
    refine Finset.sum_congr rfl fun p _ => ?_
    rw [act_row, compl_row]
    rfl

/-- Block `t`'s number of active rows, counted in floats. -/
def blockCount (c : Dev nD) (t : Fin cfg0.N) : EReal :=
  ∑ p : Fin 6000, Scalar.select (actK m c (ix1 (rowOf t p))) Cert.Spec.one32 Cert.Spec.z32

/-- The counter after point `n`: zero plus the numbers of active rows of the first `n + 1` blocks. -/
theorem accN_val (c : Dev nD) : ∀ (n : ℕ) (h : n < cfg0.N),
    accN m c n h (ix2 (0 : Fin 1) (0 : Fin 1))
      = Cert.Spec.z32 + ∑ t : Fin (n + 1), blockCount m c ⟨t.val, lt_of_lt_of_le t.isLt h⟩
  | 0, h => by
    unfold accN
    rw [Cert.KRow.pay26_apply, Cert.KRow.pay6_apply, Fin.sum_univ_one]
    refine congrArg _ (Finset.sum_congr rfl fun p _ => ?_)
    rw [act_row]
    rfl
  | n + 1, h => by
    unfold accN
    rw [Cert.KRow.pay26_apply, accN_val c n (Nat.lt_of_succ_lt h), add_assoc]
    refine congrArg _ ?_
    rw [Fin.sum_univ_castSucc (n := n + 1)]
    refine congrArg₂ (· + ·) rfl ?_
    unfold blockCount
    refine Finset.sum_congr rfl fun p _ => ?_
    rw [act_row]
    rfl

/-! ## The two scalar results -/

/-- The mean-violation cell: the violation sum over the count floored at one, after the last point. -/
def G16 (c : Dev nD) : S1x1.Idx → EReal := k0_pay2 (F := Ideal) (accN m c 49 lt49) (accV m c 49 lt49)

/-- The mean-compliance cell. -/
def G17 (c : Dev nD) : S1x1.Idx → EReal := k0_pay3 (F := Ideal) (accN m c 49 lt49) (accC m c 49 lt49)

/-- What the last point writes back into scalar output 16 is its one block, the whole one-cell array. -/
theorem flushed16 (c : Dev nD) (t : Fin cfg0.N) (hf : (cfg0.win 16).flush t = true) :
    (dats m 0 c).flushed 16 t = ((cfg0.win 16).blk t).view.read (Elt Ideal) (G16 m c) := by
  have hN : t.val < 50 := lt_of_lt_of_eq t.isLt N_0
  have h49 : t.val % 50 = 49 := (flush0_16 t).mp hf
  obtain rfl : t = t49 := Fin.ext (by show t.val = 49; omega)
  have e0 := (idx_facts_w t49).2.2.2.2.2.2.2.2.2.2.1.1
  have e1 := (idx_facts_w t49).2.2.2.2.2.2.2.2.2.2.1.2
  show (cfg0.win 16).cut (grid0.coords t49) ((dats m 0 c).after 16 t49) = _
  rw [after0_16, (Cert.KAcc.last_eq m c t49 rfl).1]
  funext j
  rw [View.read_apply]
  show G16 m c j = G16 m c (((cfg0.win 16).blk t49).view.emb j)
  refine congrArg _ (funext fun a => Fin.ext ?_)
  match a with
  | ⟨0, _⟩ => show (j 0).val = win0_16.index t49 (0 : Fin 2) * 1 + 1 * (j 0).val; rw [e0]; omega
  | ⟨1, _⟩ => show (j 1).val = win0_16.index t49 (1 : Fin 2) * 1 + 1 * (j 1).val; rw [e1]; omega

/-- The one cell of scalar output 16 lies in the last point's block. -/
theorem cover16 (i : S1x1.Idx) :
    ∃ t : Fin cfg0.N, (cfg0.win 16).flush t = true ∧ i ∈ ((cfg0.win 16).blk t).view.set := by
  have h0 : (i 0).val < 1 := (i 0).isLt
  have h1 : (i 1).val < 1 := (i 1).isLt
  have e0 := (idx_facts_w t49).2.2.2.2.2.2.2.2.2.2.1.1
  have e1 := (idx_facts_w t49).2.2.2.2.2.2.2.2.2.2.1.2
  refine ⟨t49, (flush0_16 t49).mpr rfl, ?_⟩
  show i ∈ ((View.whole main_v87_1).slice (win0_16.rect t49)).set
  rw [View.set_slice_whole, Rect.mem_set_unit]
  intro a
  match a with
  | ⟨0, _⟩ =>
    show win0_16.index t49 (0 : Fin 2) * 1 ≤ (i 0).val ∧ (i 0).val < win0_16.index t49 (0 : Fin 2) * 1 + 1
    rw [e0]; omega
  | ⟨1, _⟩ =>
    show win0_16.index t49 (1 : Fin 2) * 1 ≤ (i 1).val ∧ (i 1).val < win0_16.index t49 (1 : Fin 2) * 1 + 1
    rw [e1]; omega

/-- Scalar output 16 after the run. -/
theorem final16 (c : Dev nD) : (dats m 0 c).arrAt 16 cfg0.N = G16 m c :=
  (dats m 0 c).arrAt_eq_of_cover 16 (G16 m c) (flushed16 m c) cover16

/-- What the last point writes back into scalar output 17 is its one block, the whole one-cell array. -/
theorem flushed17 (c : Dev nD) (t : Fin cfg0.N) (hf : (cfg0.win 17).flush t = true) :
    (dats m 0 c).flushed 17 t = ((cfg0.win 17).blk t).view.read (Elt Ideal) (G17 m c) := by
  have hN : t.val < 50 := lt_of_lt_of_eq t.isLt N_0
  have h49 : t.val % 50 = 49 := (flush0_17 t).mp hf
  obtain rfl : t = t49 := Fin.ext (by show t.val = 49; omega)
  have e0 := (idx_facts_w t49).2.2.2.2.2.2.2.2.2.2.2.1
  have e1 := (idx_facts_w t49).2.2.2.2.2.2.2.2.2.2.2.2
  show (cfg0.win 17).cut (grid0.coords t49) ((dats m 0 c).after 17 t49) = _
  rw [after0_17, (Cert.KAcc.last_eq m c t49 rfl).2]
  funext j
  rw [View.read_apply]
  show G17 m c j = G17 m c (((cfg0.win 17).blk t49).view.emb j)
  refine congrArg _ (funext fun a => Fin.ext ?_)
  match a with
  | ⟨0, _⟩ => show (j 0).val = win0_17.index t49 (0 : Fin 2) * 1 + 1 * (j 0).val; rw [e0]; omega
  | ⟨1, _⟩ => show (j 1).val = win0_17.index t49 (1 : Fin 2) * 1 + 1 * (j 1).val; rw [e1]; omega

/-- The one cell of scalar output 17 lies in the last point's block. -/
theorem cover17 (i : S1x1.Idx) :
    ∃ t : Fin cfg0.N, (cfg0.win 17).flush t = true ∧ i ∈ ((cfg0.win 17).blk t).view.set := by
  have h0 : (i 0).val < 1 := (i 0).isLt
  have h1 : (i 1).val < 1 := (i 1).isLt
  have e0 := (idx_facts_w t49).2.2.2.2.2.2.2.2.2.2.2.1
  have e1 := (idx_facts_w t49).2.2.2.2.2.2.2.2.2.2.2.2
  refine ⟨t49, (flush0_17 t49).mpr rfl, ?_⟩
  show i ∈ ((View.whole main_v87_2).slice (win0_17.rect t49)).set
  rw [View.set_slice_whole, Rect.mem_set_unit]
  intro a
  match a with
  | ⟨0, _⟩ =>
    show win0_17.index t49 (0 : Fin 2) * 1 ≤ (i 0).val ∧ (i 0).val < win0_17.index t49 (0 : Fin 2) * 1 + 1
    rw [e0]; omega
  | ⟨1, _⟩ =>
    show win0_17.index t49 (1 : Fin 2) * 1 ≤ (i 1).val ∧ (i 1).val < win0_17.index t49 (1 : Fin 2) * 1 + 1
    rw [e1]; omega

/-- Scalar output 17 after the run. -/
theorem final17 (c : Dev nD) : (dats m 0 c).arrAt 17 cfg0.N = G17 m c :=
  (dats m 0 c).arrAt_eq_of_cover 17 (G17 m c) (flushed17 m c) cover17

/-- The 50 block sums of `g` over the active nodes add up to the sum over all 300000 nodes. -/
theorem blocks_total (c : Dev nD) (g : Fin 300000 → EReal) :
    (∑ t : Fin (49 + 1), blockSum m c g ⟨t.val, lt_of_lt_of_le t.isLt lt49⟩)
      = ∑ r : Fin 300000, Scalar.select (actK m c (ix1 r)) (g r) Cert.Spec.z32 :=
  (Cert.LibSums.sum_blocks_50_6000 fun r => Scalar.select (actK m c (ix1 r)) (g r) Cert.Spec.z32).symm

/-- The count of active nodes likewise. -/
theorem count_total (c : Dev nD) :
    (∑ t : Fin (49 + 1), blockCount m c ⟨t.val, lt_of_lt_of_le t.isLt lt49⟩)
      = ∑ r : Fin 300000, Scalar.select (actK m c (ix1 r)) Cert.Spec.one32 Cert.Spec.z32 :=
  (Cert.LibSums.sum_blocks_50_6000 fun r => Scalar.select (actK m c (ix1 r)) Cert.Spec.one32 Cert.Spec.z32).symm

/-- The literal zero is the extended real zero. -/
theorem z32_zero : Cert.Spec.z32 = 0 := Ideal.ofBits_zero_f32

/-- The mean-violation cell is the specification's mean violation. -/
theorem G16_val (c : Dev nD) (i : S1x1.Idx) : G16 m c i = Cert.Spec.avgViol (violK m c) (actK m c) := by
  obtain rfl : i = ix2 (0 : Fin 1) (0 : Fin 1) := funext fun a => Fin.ext (by
    match a with
    | ⟨0, _⟩ => have h0 : (i 0).val < 1 := (i 0).isLt; show (i 0).val = 0; omega
    | ⟨1, _⟩ => have h1 : (i 1).val < 1 := (i 1).isLt; show (i 1).val = 0; omega)
  unfold G16 Cert.Spec.avgViol Cert.Spec.msum Cert.Spec.cnt
  rw [Cert.KRow.pay2_apply, accV_val m c 49 lt49, accN_val m c 49 lt49, blocks_total, count_total, z32_zero, zero_add, zero_add]

/-- The mean-compliance cell is the specification's mean compliance. -/
theorem G17_val (c : Dev nD) (i : S1x1.Idx) :
    G17 m c i = Cert.Spec.avgCompl (V m c main_arg0) (V m c main_v39) (V m c main_v46) (actK m c) (Wk m c) := by
  obtain rfl : i = ix2 (0 : Fin 1) (0 : Fin 1) := funext fun a => Fin.ext (by
    match a with
    | ⟨0, _⟩ => have h0 : (i 0).val < 1 := (i 0).isLt; show (i 0).val = 0; omega
    | ⟨1, _⟩ => have h1 : (i 1).val < 1 := (i 1).isLt; show (i 1).val = 0; omega)
  unfold G17 Cert.Spec.avgCompl Cert.Spec.msum Cert.Spec.cnt
  rw [Cert.KRow.pay3_apply, accC_val m c 49 lt49, accN_val m c 49 lt49, blocks_total, count_total, z32_zero, zero_add, zero_add]

/-! ## The lines after the region, and the run -/

/-- Result 1 of @main: the cell of scalar output 16 recast as a scalar. -/
theorem tail88 (c : Dev nD) :
    Pipeline.afterTail₀ cfgs (dats m) 0 (V0 m) [hostOps1] c main_v88 = shapeCast S_ (G16 m c) shapeCasts_S1x1_S_ := by
  have hw : Pipeline.withArrays (cfgs 0).spec c (V0 m c) (fun w => (dats m 0 c).arrAt w (cfgs 0).N) (Proc.devRef .tc main_v87_1) = G16 m c :=
    (Pipeline.withArrays_arr spec0 launch0.win.arr_inj c _ _ 16).trans (final16 m c)
  unfold Pipeline.afterTail₀
  show StableHlo.after hostOps1 _ (Proc.devRef .tc main_v88) = _
  after_results
  rw [hw]
  rfl

/-- Result 2 of @main: the cell of scalar output 17 recast as a scalar. -/
theorem tail89 (c : Dev nD) :
    Pipeline.afterTail₀ cfgs (dats m) 0 (V0 m) [hostOps1] c main_v89 = shapeCast S_ (G17 m c) shapeCasts_S1x1_S_ := by
  have hw : Pipeline.withArrays (cfgs 0).spec c (V0 m c) (fun w => (dats m 0 c).arrAt w (cfgs 0).N) (Proc.devRef .tc main_v87_2) = G17 m c :=
    (Pipeline.withArrays_arr spec0 launch0.win.arr_inj c _ _ 17).trans (final17 m c)
  unfold Pipeline.afterTail₀
  show StableHlo.after hostOps1 _ (Proc.devRef .tc main_v89) = _
  after_results
  rw [hw]
  rfl

/-- A one-cell array recast as a scalar holds the cell. -/
theorem scalar_of_cell (g : S1x1.Idx → EReal) (v : EReal) (h : ∀ i, g i = v) :
    shapeCast S_ g shapeCasts_S1x1_S_ = fun _ => v := by
  funext j
  unfold shapeCast
  exact h _

/-- Every weakly fair execution of the idealized kernel program terminates with its three results at the specification's
    values of the arrays the region finds, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v87_0) = G15 m c
      ∧ r.2.mem ((c.tc : Thread nD τ).loc main_v88) = (fun _ => Cert.Spec.avgViol (violK m c) (actK m c))
      ∧ r.2.mem ((c.tc : Thread nD τ).loc main_v89)
          = (fun _ => Cert.Spec.avgCompl (V m c main_arg0) (V m c main_v39) (V m c main_v46) (actK m c) (Wk m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 15).trans (final15 m c),
      (((h c).2 main_v88 (Pipeline.mem_restRefs_of main_v88 (by decide) (by decide))).trans (tail88 m c)).trans
        (scalar_of_cell _ _ (G16_val m c)),
      (((h c).2 main_v89 (Pipeline.mem_restRefs_of main_v89 (by decide) (by decide))).trans (tail89 m c)).trans
        (scalar_of_cell _ _ (G17_val m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KFinal

end
-- ==== Proof.KPrefix.lean ====
/-
  What the region finds in the arrays its windows stage, as the host operations before it leave them. The weights are
  the arguments after a change of float format; the biases are the arguments recast as one-row arrays; the violation and
  activity columns are one-column recasts of two arrays the host prefix computes (the activity one after the
  unsigned integer-to-float conversion of a one-bit mask). The gathered child features and those two prefix arrays are
  the same host computations the reference performs, stage for stage.
-/
import proofs.«144948_j85856396247188_2_alg».proof.Proof.Gen.KernelIdeal.Frame
import Idealize.ShloMosaic.Lib.StableHlo.Run
import Idealize.ShloMosaic.Lib.Tactic
import proofs.«144948_j85856396247188_2_alg».proof.Proof.RefReadP

set_option maxRecDepth 100000

noncomputable section

namespace Cert.KPrefix

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 4000000 in
/-- The corrector's first weight matrix, format-changed. -/
theorem v77 (c : Dev nD) : V m c main_v77 = truncf .bf16 (m ((c : Thread nD τ).loc main_arg2)) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  all_goals rfl

set_option maxHeartbeats 4000000 in
/-- The corrector's second weight matrix, format-changed. -/
theorem v78 (c : Dev nD) : V m c main_v78 = truncf .bf16 (m ((c : Thread nD τ).loc main_arg4)) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  all_goals rfl

set_option maxHeartbeats 4000000 in
/-- The corrector's third weight matrix, format-changed. -/
theorem v79 (c : Dev nD) : V m c main_v79 = truncf .bf16 (m ((c : Thread nD τ).loc main_arg6)) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  all_goals rfl

set_option maxHeartbeats 4000000 in
/-- The predictor's first weight matrix, format-changed. -/
theorem v80 (c : Dev nD) : V m c main_v80 = truncf .bf16 (m ((c : Thread nD τ).loc main_arg8)) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  all_goals rfl

set_option maxHeartbeats 4000000 in
/-- The predictor's second weight matrix, format-changed. -/
theorem v81 (c : Dev nD) : V m c main_v81 = truncf .bf16 (m ((c : Thread nD τ).loc main_arg10)) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  all_goals rfl

set_option maxHeartbeats 4000000 in
/-- The corrector's first bias as one row. -/
theorem v82 (c : Dev nD) : V m c main_v82 = shapeCast S1x64 (m ((c : Thread nD τ).loc main_arg3)) shapeCasts_S64_S1x64 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  all_goals rfl

set_option maxHeartbeats 4000000 in
/-- The corrector's second bias as one row. -/
theorem v83 (c : Dev nD) : V m c main_v83 = shapeCast S1x32 (m ((c : Thread nD τ).loc main_arg5)) shapeCasts_S32_S1x32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  all_goals rfl

set_option maxHeartbeats 4000000 in
/-- The corrector's last bias as one row. -/
theorem v84 (c : Dev nD) : V m c main_v84 = shapeCast S1x1 (m ((c : Thread nD τ).loc main_arg7)) shapeCasts_S1_S1x1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  all_goals rfl

set_option maxHeartbeats 4000000 in
/-- The predictor's first bias as one row. -/
theorem v85 (c : Dev nD) : V m c main_v85 = shapeCast S1x64 (m ((c : Thread nD τ).loc main_arg9)) shapeCasts_S64_S1x64 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  all_goals rfl

set_option maxHeartbeats 4000000 in
/-- The predictor's last bias as one row. -/
theorem v86 (c : Dev nD) : V m c main_v86 = shapeCast S1x1 (m ((c : Thread nD τ).loc main_arg11)) shapeCasts_S1_S1x1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  all_goals rfl

set_option maxHeartbeats 8000000 in
/-- The violation column is the violation array recast as one column. -/
theorem v74 (c : Dev nD) : V m c main_v74 = shapeCast S300000x1 (V m c main_v70) shapeCasts_S300000_S300000x1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  all_goals rfl

set_option maxHeartbeats 8000000 in
/-- The activity column is the one-bit activity mask, converted to a float and recast as one column. -/
theorem v76 (c : Dev nD) : V m c main_v76 = shapeCast S300000x1 (uitofp .f32 (V m c main_v73)) shapeCasts_S300000_S300000x1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  all_goals rfl

/-- The valuation after two lists of operations in turn is the valuation after their concatenation. -/
theorem after_append (l1 l2 : List (HloOp τ sig (Elt F))) (V : Valuation τ sig (Elt F)) :
    StableHlo.after (l1 ++ l2) V = StableHlo.after l2 (StableHlo.after l1 V) := by
  induction l1 generalizing V with
  | nil => rfl
  | cons op l ih => simp only [List.cons_append, after_cons, ih]

/-! ## The host prefix, stretch by stretch

  Each stretch of host operations is read on an arbitrary valuation: what it writes, as the reference's stage of what
  it reads, and what it leaves alone. -/

set_option maxHeartbeats 8000000 in
theorem s0_v4 (W : Valuation τ sig (Elt F)) (x12 : (⟨S2x3000000, .i32⟩ : BufTy).Contents (Elt F))
    (hA12 : W (Proc.devRef .tc main_arg12) = x12) :
    StableHlo.after (hostOps0 (F := F)) W (Proc.devRef .tc main_v4) = Cert.ReferenceIdeal.ReadP.val_main_v4 (F := F) x12 := by
  subst hA12
  simp only [hostOps0]
  after_results_simp
  try simp only [TRef.toBuf, TRef.ofBuf, cast_eq, hA12]
  try rfl

set_option maxHeartbeats 8000000 in
theorem s0_v9 (W : Valuation τ sig (Elt F)) (x12 : (⟨S2x3000000, .i32⟩ : BufTy).Contents (Elt F))
    (hA12 : W (Proc.devRef .tc main_arg12) = x12) :
    StableHlo.after (hostOps0 (F := F)) W (Proc.devRef .tc main_v9) = Cert.ReferenceIdeal.ReadP.val_main_v9 (F := F) x12 := by
  subst hA12
  simp only [hostOps0]
  after_results_simp
  try simp only [TRef.toBuf, TRef.ofBuf, cast_eq, hA12]
  try rfl

set_option maxHeartbeats 8000000 in
theorem s0_v10 (W : Valuation τ sig (Elt F)) (x12 : (⟨S2x3000000, .i32⟩ : BufTy).Contents (Elt F))
    (hA12 : W (Proc.devRef .tc main_arg12) = x12) :
    StableHlo.after (hostOps0 (F := F)) W (Proc.devRef .tc main_v10) = Cert.ReferenceIdeal.ReadP.val_main_v10 (F := F) x12 := by
  subst hA12
  simp only [hostOps0]
  after_results_simp
  try simp only [TRef.toBuf, TRef.ofBuf, cast_eq, hA12]
  try rfl

set_option maxHeartbeats 8000000 in
theorem s0_c (W : Valuation τ sig (Elt F))
     :
    StableHlo.after (hostOps0 (F := F)) W (Proc.devRef .tc main_c) = Cert.ReferenceIdeal.ReadP.val_main_c (F := F) := by
  simp only [hostOps0]
  after_results_simp
  try simp only [TRef.toBuf, TRef.ofBuf, cast_eq]
  try rfl

set_option maxHeartbeats 8000000 in
theorem s1_v11 (W : Valuation τ sig (Elt F)) (x12 : (⟨S2x3000000, .i32⟩ : BufTy).Contents (Elt F))
    (h10 : W (Proc.devRef .tc main_v10) = Cert.ReferenceIdeal.ReadP.val_main_v10 (F := F) x12) (h9 : W (Proc.devRef .tc main_v9) = Cert.ReferenceIdeal.ReadP.val_main_v9 (F := F) x12) (hc : W (Proc.devRef .tc main_c) = Cert.ReferenceIdeal.ReadP.val_main_c (F := F)) :
    StableHlo.after (hostOps0_1 (F := F)) W (Proc.devRef .tc main_v11) = Cert.ReferenceIdeal.ReadP.val_main_v11 (F := F) x12 := by
  simp only [hostOps0_1]
  after_results_simp
  try simp only [TRef.toBuf, TRef.ofBuf, cast_eq, h10, h9, hc]
  try rfl

theorem k_1_keep_v4 (W : Valuation τ sig (Elt F)) :
    StableHlo.after (hostOps0_1 (F := F)) W (Proc.devRef .tc main_v4) = W (Proc.devRef .tc main_v4) := by
  simp only [hostOps0_1]
  after_results_simp

theorem k_1_keep_v9 (W : Valuation τ sig (Elt F)) :
    StableHlo.after (hostOps0_1 (F := F)) W (Proc.devRef .tc main_v9) = W (Proc.devRef .tc main_v9) := by
  simp only [hostOps0_1]
  after_results_simp

set_option maxHeartbeats 8000000 in
theorem s2_v14 (W : Valuation τ sig (Elt F)) (x12 : (⟨S2x3000000, .i32⟩ : BufTy).Contents (Elt F))
    (h4 : W (Proc.devRef .tc main_v4) = Cert.ReferenceIdeal.ReadP.val_main_v4 (F := F) x12) (h9 : W (Proc.devRef .tc main_v9) = Cert.ReferenceIdeal.ReadP.val_main_v9 (F := F) x12) (h11 : W (Proc.devRef .tc main_v11) = Cert.ReferenceIdeal.ReadP.val_main_v11 (F := F) x12) :
    StableHlo.after (hostOps0_2 (F := F)) W (Proc.devRef .tc main_v14) = Cert.ReferenceIdeal.ReadP.val_main_v14 (F := F) x12 := by
  simp only [hostOps0_2]
  after_results_simp
  try simp only [TRef.toBuf, TRef.ofBuf, cast_eq, h4, h9, h11]
  try rfl

set_option maxHeartbeats 8000000 in
theorem s2_v24 (W : Valuation τ sig (Elt F)) (x12 : (⟨S2x3000000, .i32⟩ : BufTy).Contents (Elt F))
    (h4 : W (Proc.devRef .tc main_v4) = Cert.ReferenceIdeal.ReadP.val_main_v4 (F := F) x12) (h9 : W (Proc.devRef .tc main_v9) = Cert.ReferenceIdeal.ReadP.val_main_v9 (F := F) x12) (h11 : W (Proc.devRef .tc main_v11) = Cert.ReferenceIdeal.ReadP.val_main_v11 (F := F) x12) :
    StableHlo.after (hostOps0_2 (F := F)) W (Proc.devRef .tc main_v24) = Cert.ReferenceIdeal.ReadP.val_main_v24 (F := F) x12 := by
  simp only [hostOps0_2]
  after_results_simp
  try simp only [TRef.toBuf, TRef.ofBuf, cast_eq, h4, h9, h11]
  try rfl

set_option maxHeartbeats 8000000 in
theorem s2_c3 (W : Valuation τ sig (Elt F))
     :
    StableHlo.after (hostOps0_2 (F := F)) W (Proc.devRef .tc main_c_3) = Cert.ReferenceIdeal.ReadP.val_main_c_3 (F := F) := by
  simp only [hostOps0_2]
  after_results_simp
  try simp only [TRef.toBuf, TRef.ofBuf, cast_eq]
  try rfl

theorem k_2_keep_v4 (W : Valuation τ sig (Elt F)) :
    StableHlo.after (hostOps0_2 (F := F)) W (Proc.devRef .tc main_v4) = W (Proc.devRef .tc main_v4) := by
  simp only [hostOps0_2]
  after_results_simp

theorem k_2_keep_v9 (W : Valuation τ sig (Elt F)) :
    StableHlo.after (hostOps0_2 (F := F)) W (Proc.devRef .tc main_v9) = W (Proc.devRef .tc main_v9) := by
  simp only [hostOps0_2]
  after_results_simp

set_option maxHeartbeats 8000000 in
theorem s3_v25 (W : Valuation τ sig (Elt F)) (x12 : (⟨S2x3000000, .i32⟩ : BufTy).Contents (Elt F))
    (h24 : W (Proc.devRef .tc main_v24) = Cert.ReferenceIdeal.ReadP.val_main_v24 (F := F) x12) (h9 : W (Proc.devRef .tc main_v9) = Cert.ReferenceIdeal.ReadP.val_main_v9 (F := F) x12) (hc3 : W (Proc.devRef .tc main_c_3) = Cert.ReferenceIdeal.ReadP.val_main_c_3 (F := F)) :
    StableHlo.after (hostOps0_3 (F := F)) W (Proc.devRef .tc main_v25) = Cert.ReferenceIdeal.ReadP.val_main_v25 (F := F) x12 := by
  simp only [hostOps0_3]
  after_results_simp
  try simp only [TRef.toBuf, TRef.ofBuf, cast_eq, h24, h9, hc3]
  try rfl

theorem k_3_keep_v4 (W : Valuation τ sig (Elt F)) :
    StableHlo.after (hostOps0_3 (F := F)) W (Proc.devRef .tc main_v4) = W (Proc.devRef .tc main_v4) := by
  simp only [hostOps0_3]
  after_results_simp

theorem k_3_keep_v14 (W : Valuation τ sig (Elt F)) :
    StableHlo.after (hostOps0_3 (F := F)) W (Proc.devRef .tc main_v14) = W (Proc.devRef .tc main_v14) := by
  simp only [hostOps0_3]
  after_results_simp

set_option maxHeartbeats 400000 in
/-- The clamp of the reference's stage between its two bounds is the reference's clamped stage. -/
theorem clip31_val (x12 : (⟨S2x3000000, .i32⟩ : BufTy).Contents (Elt F)) :
    minsi (broadcastInDim S300000 ![] bcast_S_S300000 (id (Cert.ReferenceIdeal.ReadP.val_main_c_7 (F := F))))
        (maxsi (broadcastInDim S300000 ![] bcast_S_S300000 (id (Cert.ReferenceIdeal.ReadP.val_main_c_6 (F := F)))) (Cert.ReferenceIdeal.ReadP.val_main_v14 (F := F) x12))
      = Cert.ReferenceIdeal.ReadP.val_main_v31 (F := F) x12 := by
  unfold Cert.ReferenceIdeal.ReadP.val_main_v31 Cert.ReferenceIdeal.ReadP.val_main_call2_v4 Cert.ReferenceIdeal.ReadP.val_main_call2_v3 Cert.ReferenceIdeal.ReadP.val_main_call2_v2 Cert.ReferenceIdeal.ReadP.val_main_call2_v1 Cert.ReferenceIdeal.ReadP.val_main_call2_v0
  rfl

set_option maxHeartbeats 400000 in
/-- The clamp of the reference's stage between its two bounds is the reference's clamped stage. -/
theorem clip32_val (x12 : (⟨S2x3000000, .i32⟩ : BufTy).Contents (Elt F)) :
    minsi (broadcastInDim S300000 ![] bcast_S_S300000 (id (Cert.ReferenceIdeal.ReadP.val_main_c_9 (F := F))))
        (maxsi (broadcastInDim S300000 ![] bcast_S_S300000 (id (Cert.ReferenceIdeal.ReadP.val_main_c_8 (F := F)))) (Cert.ReferenceIdeal.ReadP.val_main_v28 (F := F) x12))
      = Cert.ReferenceIdeal.ReadP.val_main_v32 (F := F) x12 := by
  unfold Cert.ReferenceIdeal.ReadP.val_main_v32 Cert.ReferenceIdeal.ReadP.val_main_call3_v4 Cert.ReferenceIdeal.ReadP.val_main_call3_v3 Cert.ReferenceIdeal.ReadP.val_main_call3_v2 Cert.ReferenceIdeal.ReadP.val_main_call3_v1 Cert.ReferenceIdeal.ReadP.val_main_call3_v0
  rfl

set_option maxHeartbeats 8000000 in
theorem s4_v28 (W : Valuation τ sig (Elt F)) (x12 : (⟨S2x3000000, .i32⟩ : BufTy).Contents (Elt F))
    (h4 : W (Proc.devRef .tc main_v4) = Cert.ReferenceIdeal.ReadP.val_main_v4 (F := F) x12) (h25 : W (Proc.devRef .tc main_v25) = Cert.ReferenceIdeal.ReadP.val_main_v25 (F := F) x12) :
    StableHlo.after (hostOps0_4 (F := F)) W (Proc.devRef .tc main_v28) = Cert.ReferenceIdeal.ReadP.val_main_v28 (F := F) x12 := by
  simp only [hostOps0_4]
  after_results_simp
  try simp only [TRef.toBuf, TRef.ofBuf, cast_eq, h4, h25]
  try rfl

set_option maxHeartbeats 8000000 in
theorem s4_v30 (W : Valuation τ sig (Elt F)) (x12 : (⟨S2x3000000, .i32⟩ : BufTy).Contents (Elt F))
    (h4 : W (Proc.devRef .tc main_v4) = Cert.ReferenceIdeal.ReadP.val_main_v4 (F := F) x12) (h25 : W (Proc.devRef .tc main_v25) = Cert.ReferenceIdeal.ReadP.val_main_v25 (F := F) x12) :
    StableHlo.after (hostOps0_4 (F := F)) W (Proc.devRef .tc main_v30) = Cert.ReferenceIdeal.ReadP.val_main_v30 (F := F) x12 := by
  simp only [hostOps0_4]
  after_results_simp
  try simp only [TRef.toBuf, TRef.ofBuf, cast_eq, h4, h25]
  try rfl

set_option maxHeartbeats 8000000 in
theorem s4_c6 (W : Valuation τ sig (Elt F))
     :
    StableHlo.after (hostOps0_4 (F := F)) W (Proc.devRef .tc main_c_6) = Cert.ReferenceIdeal.ReadP.val_main_c_6 (F := F) := by
  simp only [hostOps0_4]
  after_results_simp
  try simp only [TRef.toBuf, TRef.ofBuf, cast_eq]
  try rfl

set_option maxHeartbeats 8000000 in
theorem s4_c7 (W : Valuation τ sig (Elt F))
     :
    StableHlo.after (hostOps0_4 (F := F)) W (Proc.devRef .tc main_c_7) = Cert.ReferenceIdeal.ReadP.val_main_c_7 (F := F) := by
  simp only [hostOps0_4]
  after_results_simp
  try simp only [TRef.toBuf, TRef.ofBuf, cast_eq]
  try rfl

theorem k_4_keep_v14 (W : Valuation τ sig (Elt F)) :
    StableHlo.after (hostOps0_4 (F := F)) W (Proc.devRef .tc main_v14) = W (Proc.devRef .tc main_v14) := by
  simp only [hostOps0_4]
  after_results_simp

set_option maxHeartbeats 8000000 in
theorem s5_v31 (W : Valuation τ sig (Elt F)) (x12 : (⟨S2x3000000, .i32⟩ : BufTy).Contents (Elt F))
    (h14 : W (Proc.devRef .tc main_v14) = Cert.ReferenceIdeal.ReadP.val_main_v14 (F := F) x12) (hc6 : W (Proc.devRef .tc main_c_6) = Cert.ReferenceIdeal.ReadP.val_main_c_6 (F := F)) (hc7 : W (Proc.devRef .tc main_c_7) = Cert.ReferenceIdeal.ReadP.val_main_c_7 (F := F)) :
    StableHlo.after (hostOps0_5 (F := F)) W (Proc.devRef .tc main_v31) = Cert.ReferenceIdeal.ReadP.val_main_v31 (F := F) x12 := by
  have e : StableHlo.after (hostOps0_5 (F := F)) W (Proc.devRef .tc main_v31)
      = minsi (broadcastInDim S300000 ![] bcast_S_S300000 (id (W (Proc.devRef .tc main_c_7))))
          (maxsi (broadcastInDim S300000 ![] bcast_S_S300000 (id (W (Proc.devRef .tc main_c_6)))) (W (Proc.devRef .tc main_v14))) := by
    simp only [hostOps0_5]
    after_results_simp
    try simp only [TRef.toBuf, TRef.ofBuf, cast_eq]
    try rfl
  rw [e, h14, hc6, hc7]
  exact clip31_val x12

theorem k_5_keep_v28 (W : Valuation τ sig (Elt F)) :
    StableHlo.after (hostOps0_5 (F := F)) W (Proc.devRef .tc main_v28) = W (Proc.devRef .tc main_v28) := by
  simp only [hostOps0_5]
  after_results_simp

theorem k_5_keep_v30 (W : Valuation τ sig (Elt F)) :
    StableHlo.after (hostOps0_5 (F := F)) W (Proc.devRef .tc main_v30) = W (Proc.devRef .tc main_v30) := by
  simp only [hostOps0_5]
  after_results_simp

set_option maxHeartbeats 8000000 in
theorem s6_c8 (W : Valuation τ sig (Elt F))
     :
    StableHlo.after (hostOps0_6 (F := F)) W (Proc.devRef .tc main_c_8) = Cert.ReferenceIdeal.ReadP.val_main_c_8 (F := F) := by
  simp only [hostOps0_6]
  after_results_simp
  try simp only [TRef.toBuf, TRef.ofBuf, cast_eq]
  try rfl

set_option maxHeartbeats 8000000 in
theorem s6_c9 (W : Valuation τ sig (Elt F))
     :
    StableHlo.after (hostOps0_6 (F := F)) W (Proc.devRef .tc main_c_9) = Cert.ReferenceIdeal.ReadP.val_main_c_9 (F := F) := by
  simp only [hostOps0_6]
  after_results_simp
  try simp only [TRef.toBuf, TRef.ofBuf, cast_eq]
  try rfl

theorem k_6_keep_v28 (W : Valuation τ sig (Elt F)) :
    StableHlo.after (hostOps0_6 (F := F)) W (Proc.devRef .tc main_v28) = W (Proc.devRef .tc main_v28) := by
  simp only [hostOps0_6]
  after_results_simp

theorem k_6_keep_v30 (W : Valuation τ sig (Elt F)) :
    StableHlo.after (hostOps0_6 (F := F)) W (Proc.devRef .tc main_v30) = W (Proc.devRef .tc main_v30) := by
  simp only [hostOps0_6]
  after_results_simp

theorem k_6_keep_v31 (W : Valuation τ sig (Elt F)) :
    StableHlo.after (hostOps0_6 (F := F)) W (Proc.devRef .tc main_v31) = W (Proc.devRef .tc main_v31) := by
  simp only [hostOps0_6]
  after_results_simp

set_option maxHeartbeats 8000000 in
theorem s7_v32 (W : Valuation τ sig (Elt F)) (x12 : (⟨S2x3000000, .i32⟩ : BufTy).Contents (Elt F))
    (h28 : W (Proc.devRef .tc main_v28) = Cert.ReferenceIdeal.ReadP.val_main_v28 (F := F) x12) (hc8 : W (Proc.devRef .tc main_c_8) = Cert.ReferenceIdeal.ReadP.val_main_c_8 (F := F)) (hc9 : W (Proc.devRef .tc main_c_9) = Cert.ReferenceIdeal.ReadP.val_main_c_9 (F := F)) :
    StableHlo.after (hostOps0_7 (F := F)) W (Proc.devRef .tc main_v32) = Cert.ReferenceIdeal.ReadP.val_main_v32 (F := F) x12 := by
  have e : StableHlo.after (hostOps0_7 (F := F)) W (Proc.devRef .tc main_v32)
      = minsi (broadcastInDim S300000 ![] bcast_S_S300000 (id (W (Proc.devRef .tc main_c_9))))
          (maxsi (broadcastInDim S300000 ![] bcast_S_S300000 (id (W (Proc.devRef .tc main_c_8)))) (W (Proc.devRef .tc main_v28))) := by
    simp only [hostOps0_7]
    after_results_simp
    try simp only [TRef.toBuf, TRef.ofBuf, cast_eq]
    try rfl
  rw [e, h28, hc8, hc9]
  exact clip32_val x12

theorem k_7_keep_v30 (W : Valuation τ sig (Elt F)) :
    StableHlo.after (hostOps0_7 (F := F)) W (Proc.devRef .tc main_v30) = W (Proc.devRef .tc main_v30) := by
  simp only [hostOps0_7]
  after_results_simp

theorem k_7_keep_v31 (W : Valuation τ sig (Elt F)) :
    StableHlo.after (hostOps0_7 (F := F)) W (Proc.devRef .tc main_v31) = W (Proc.devRef .tc main_v31) := by
  simp only [hostOps0_7]
  after_results_simp

set_option maxHeartbeats 8000000 in
theorem s8_v39 (W : Valuation τ sig (Elt F)) (x0 : (⟨S300000x64, .f32⟩ : BufTy).Contents (Elt F)) (x12 : (⟨S2x3000000, .i32⟩ : BufTy).Contents (Elt F))
    (hA0 : W (Proc.devRef .tc main_arg0) = x0) (h31 : W (Proc.devRef .tc main_v31) = Cert.ReferenceIdeal.ReadP.val_main_v31 (F := F) x12) :
    StableHlo.after (hostOps0_8 (F := F)) W (Proc.devRef .tc main_v39) = Cert.ReferenceIdeal.ReadP.val_main_v39 (F := F) x0 x12 := by
  simp only [hostOps0_8]
  after_results_simp
  try simp only [TRef.toBuf, TRef.ofBuf, cast_eq, hA0, h31]
  try rfl

set_option maxHeartbeats 8000000 in
theorem s8_v46 (W : Valuation τ sig (Elt F)) (x0 : (⟨S300000x64, .f32⟩ : BufTy).Contents (Elt F)) (x12 : (⟨S2x3000000, .i32⟩ : BufTy).Contents (Elt F))
    (hA0 : W (Proc.devRef .tc main_arg0) = x0) (h32 : W (Proc.devRef .tc main_v32) = Cert.ReferenceIdeal.ReadP.val_main_v32 (F := F) x12) :
    StableHlo.after (hostOps0_8 (F := F)) W (Proc.devRef .tc main_v46) = Cert.ReferenceIdeal.ReadP.val_main_v46 (F := F) x0 x12 := by
  simp only [hostOps0_8]
  after_results_simp
  try simp only [TRef.toBuf, TRef.ofBuf, cast_eq, hA0, h32]
  try rfl

set_option maxHeartbeats 8000000 in
theorem s8_v70 (W : Valuation τ sig (Elt F)) (x1 : (⟨S300000, .f32⟩ : BufTy).Contents (Elt F)) (x12 : (⟨S2x3000000, .i32⟩ : BufTy).Contents (Elt F))
    (hA1 : W (Proc.devRef .tc main_arg1) = x1) (h31 : W (Proc.devRef .tc main_v31) = Cert.ReferenceIdeal.ReadP.val_main_v31 (F := F) x12) (h32 : W (Proc.devRef .tc main_v32) = Cert.ReferenceIdeal.ReadP.val_main_v32 (F := F) x12) :
    StableHlo.after (hostOps0_8 (F := F)) W (Proc.devRef .tc main_v70) = Cert.ReferenceIdeal.ReadP.val_main_v102 (F := F) x1 x12 := by
  simp only [hostOps0_8]
  after_results_simp
  try simp only [TRef.toBuf, TRef.ofBuf, cast_eq, hA1, h31, h32]
  try rfl

set_option maxHeartbeats 8000000 in
theorem s8_v73 (W : Valuation τ sig (Elt F)) (x12 : (⟨S2x3000000, .i32⟩ : BufTy).Contents (Elt F)) (x13 : (⟨S300000, .i32⟩ : BufTy).Contents (Elt F))
    (hA13 : W (Proc.devRef .tc main_arg13) = x13) (h30 : W (Proc.devRef .tc main_v30) = Cert.ReferenceIdeal.ReadP.val_main_v30 (F := F) x12) :
    StableHlo.after (hostOps0_8 (F := F)) W (Proc.devRef .tc main_v73) = Cert.ReferenceIdeal.ReadP.val_main_v105 (F := F) x12 x13 := by
  simp only [hostOps0_8]
  after_results_simp
  try simp only [TRef.toBuf, TRef.ofBuf, cast_eq, hA13, h30]
  try rfl

/-! ## The stretches composed -/

/-- Nine lists of operations in turn. -/
theorem after_flatten9 (l0 l1 l2 l3 l4 l5 l6 l7 l8 : List (HloOp τ sig (Elt F))) (V : Valuation τ sig (Elt F)) :
    StableHlo.after (List.flatten [l0, l1, l2, l3, l4, l5, l6, l7, l8]) V
      = StableHlo.after l8 (StableHlo.after l7 (StableHlo.after l6 (StableHlo.after l5 (StableHlo.after l4
          (StableHlo.after l3 (StableHlo.after l2 (StableHlo.after l1 (StableHlo.after l0 V)))))))) := by
  simp only [List.flatten_cons, List.flatten_nil, List.append_nil, after_append]

/-- The valuation after the first stretch, the second, … the eighth. -/
def P0 (c : Dev nD) : Valuation τ sig (Elt F) := StableHlo.after hostOps0 (fun b => m (c, b))
def P1 (c : Dev nD) : Valuation τ sig (Elt F) := StableHlo.after hostOps0_1 (P0 m c)
def P2 (c : Dev nD) : Valuation τ sig (Elt F) := StableHlo.after hostOps0_2 (P1 m c)
def P3 (c : Dev nD) : Valuation τ sig (Elt F) := StableHlo.after hostOps0_3 (P2 m c)
def P4 (c : Dev nD) : Valuation τ sig (Elt F) := StableHlo.after hostOps0_4 (P3 m c)
def P5 (c : Dev nD) : Valuation τ sig (Elt F) := StableHlo.after hostOps0_5 (P4 m c)
def P6 (c : Dev nD) : Valuation τ sig (Elt F) := StableHlo.after hostOps0_6 (P5 m c)
def P7 (c : Dev nD) : Valuation τ sig (Elt F) := StableHlo.after hostOps0_7 (P6 m c)

/-- The region finds the valuation after the ninth stretch over the eighth's. -/
theorem V0_eq (c : Dev nD) : V0 m c = StableHlo.after hostOps0_8 (P7 m c) := by
  show StableHlo.after (List.flatten [hostOps0, hostOps0_1, hostOps0_2, hostOps0_3, hostOps0_4, hostOps0_5, hostOps0_6, hostOps0_7, hostOps0_8]) (fun b => m (c, b)) = _
  rw [after_flatten9]
  rfl

theorem p0_v4 (c : Dev nD) : P0 m c (Proc.devRef .tc main_v4) = Cert.ReferenceIdeal.ReadP.val_main_v4 (F := F) (m ((c : Thread nD τ).loc main_arg12)) := s0_v4 (fun b => m (c, b)) (m ((c : Thread nD τ).loc main_arg12)) rfl
theorem p0_v9 (c : Dev nD) : P0 m c (Proc.devRef .tc main_v9) = Cert.ReferenceIdeal.ReadP.val_main_v9 (F := F) (m ((c : Thread nD τ).loc main_arg12)) := s0_v9 (fun b => m (c, b)) (m ((c : Thread nD τ).loc main_arg12)) rfl
theorem p0_v10 (c : Dev nD) : P0 m c (Proc.devRef .tc main_v10) = Cert.ReferenceIdeal.ReadP.val_main_v10 (F := F) (m ((c : Thread nD τ).loc main_arg12)) := s0_v10 (fun b => m (c, b)) (m ((c : Thread nD τ).loc main_arg12)) rfl
theorem p0_c (c : Dev nD) : P0 m c (Proc.devRef .tc main_c) = Cert.ReferenceIdeal.ReadP.val_main_c (F := F) := s0_c (fun b => m (c, b))
theorem p1_v11 (c : Dev nD) : P1 m c (Proc.devRef .tc main_v11) = Cert.ReferenceIdeal.ReadP.val_main_v11 (F := F) (m ((c : Thread nD τ).loc main_arg12)) := s1_v11 (P0 m c) (m ((c : Thread nD τ).loc main_arg12)) (p0_v10 m c) (p0_v9 m c) (p0_c m c)
theorem p1_v4 (c : Dev nD) : P1 m c (Proc.devRef .tc main_v4) = Cert.ReferenceIdeal.ReadP.val_main_v4 (F := F) (m ((c : Thread nD τ).loc main_arg12)) := (k_1_keep_v4 (P0 m c)).trans (p0_v4 m c)
theorem p1_v9 (c : Dev nD) : P1 m c (Proc.devRef .tc main_v9) = Cert.ReferenceIdeal.ReadP.val_main_v9 (F := F) (m ((c : Thread nD τ).loc main_arg12)) := (k_1_keep_v9 (P0 m c)).trans (p0_v9 m c)
theorem p2_v14 (c : Dev nD) : P2 m c (Proc.devRef .tc main_v14) = Cert.ReferenceIdeal.ReadP.val_main_v14 (F := F) (m ((c : Thread nD τ).loc main_arg12)) := s2_v14 (P1 m c) (m ((c : Thread nD τ).loc main_arg12)) (p1_v4 m c) (p1_v9 m c) (p1_v11 m c)
theorem p2_v24 (c : Dev nD) : P2 m c (Proc.devRef .tc main_v24) = Cert.ReferenceIdeal.ReadP.val_main_v24 (F := F) (m ((c : Thread nD τ).loc main_arg12)) := s2_v24 (P1 m c) (m ((c : Thread nD τ).loc main_arg12)) (p1_v4 m c) (p1_v9 m c) (p1_v11 m c)
theorem p2_c3 (c : Dev nD) : P2 m c (Proc.devRef .tc main_c_3) = Cert.ReferenceIdeal.ReadP.val_main_c_3 (F := F) := s2_c3 (P1 m c)
theorem p2_v4 (c : Dev nD) : P2 m c (Proc.devRef .tc main_v4) = Cert.ReferenceIdeal.ReadP.val_main_v4 (F := F) (m ((c : Thread nD τ).loc main_arg12)) := (k_2_keep_v4 (P1 m c)).trans (p1_v4 m c)
theorem p2_v9 (c : Dev nD) : P2 m c (Proc.devRef .tc main_v9) = Cert.ReferenceIdeal.ReadP.val_main_v9 (F := F) (m ((c : Thread nD τ).loc main_arg12)) := (k_2_keep_v9 (P1 m c)).trans (p1_v9 m c)
theorem p3_v25 (c : Dev nD) : P3 m c (Proc.devRef .tc main_v25) = Cert.ReferenceIdeal.ReadP.val_main_v25 (F := F) (m ((c : Thread nD τ).loc main_arg12)) := s3_v25 (P2 m c) (m ((c : Thread nD τ).loc main_arg12)) (p2_v24 m c) (p2_v9 m c) (p2_c3 m c)
theorem p3_v4 (c : Dev nD) : P3 m c (Proc.devRef .tc main_v4) = Cert.ReferenceIdeal.ReadP.val_main_v4 (F := F) (m ((c : Thread nD τ).loc main_arg12)) := (k_3_keep_v4 (P2 m c)).trans (p2_v4 m c)
theorem p3_v14 (c : Dev nD) : P3 m c (Proc.devRef .tc main_v14) = Cert.ReferenceIdeal.ReadP.val_main_v14 (F := F) (m ((c : Thread nD τ).loc main_arg12)) := (k_3_keep_v14 (P2 m c)).trans (p2_v14 m c)
theorem p4_v28 (c : Dev nD) : P4 m c (Proc.devRef .tc main_v28) = Cert.ReferenceIdeal.ReadP.val_main_v28 (F := F) (m ((c : Thread nD τ).loc main_arg12)) := s4_v28 (P3 m c) (m ((c : Thread nD τ).loc main_arg12)) (p3_v4 m c) (p3_v25 m c)
theorem p4_v30 (c : Dev nD) : P4 m c (Proc.devRef .tc main_v30) = Cert.ReferenceIdeal.ReadP.val_main_v30 (F := F) (m ((c : Thread nD τ).loc main_arg12)) := s4_v30 (P3 m c) (m ((c : Thread nD τ).loc main_arg12)) (p3_v4 m c) (p3_v25 m c)
theorem p4_c6 (c : Dev nD) : P4 m c (Proc.devRef .tc main_c_6) = Cert.ReferenceIdeal.ReadP.val_main_c_6 (F := F) := s4_c6 (P3 m c)
theorem p4_c7 (c : Dev nD) : P4 m c (Proc.devRef .tc main_c_7) = Cert.ReferenceIdeal.ReadP.val_main_c_7 (F := F) := s4_c7 (P3 m c)
theorem p4_v14 (c : Dev nD) : P4 m c (Proc.devRef .tc main_v14) = Cert.ReferenceIdeal.ReadP.val_main_v14 (F := F) (m ((c : Thread nD τ).loc main_arg12)) := (k_4_keep_v14 (P3 m c)).trans (p3_v14 m c)
theorem p5_v31 (c : Dev nD) : P5 m c (Proc.devRef .tc main_v31) = Cert.ReferenceIdeal.ReadP.val_main_v31 (F := F) (m ((c : Thread nD τ).loc main_arg12)) := s5_v31 (P4 m c) (m ((c : Thread nD τ).loc main_arg12)) (p4_v14 m c) (p4_c6 m c) (p4_c7 m c)
theorem p5_v28 (c : Dev nD) : P5 m c (Proc.devRef .tc main_v28) = Cert.ReferenceIdeal.ReadP.val_main_v28 (F := F) (m ((c : Thread nD τ).loc main_arg12)) := (k_5_keep_v28 (P4 m c)).trans (p4_v28 m c)
theorem p5_v30 (c : Dev nD) : P5 m c (Proc.devRef .tc main_v30) = Cert.ReferenceIdeal.ReadP.val_main_v30 (F := F) (m ((c : Thread nD τ).loc main_arg12)) := (k_5_keep_v30 (P4 m c)).trans (p4_v30 m c)
theorem p6_c8 (c : Dev nD) : P6 m c (Proc.devRef .tc main_c_8) = Cert.ReferenceIdeal.ReadP.val_main_c_8 (F := F) := s6_c8 (P5 m c)
theorem p6_c9 (c : Dev nD) : P6 m c (Proc.devRef .tc main_c_9) = Cert.ReferenceIdeal.ReadP.val_main_c_9 (F := F) := s6_c9 (P5 m c)
theorem p6_v28 (c : Dev nD) : P6 m c (Proc.devRef .tc main_v28) = Cert.ReferenceIdeal.ReadP.val_main_v28 (F := F) (m ((c : Thread nD τ).loc main_arg12)) := (k_6_keep_v28 (P5 m c)).trans (p5_v28 m c)
theorem p6_v30 (c : Dev nD) : P6 m c (Proc.devRef .tc main_v30) = Cert.ReferenceIdeal.ReadP.val_main_v30 (F := F) (m ((c : Thread nD τ).loc main_arg12)) := (k_6_keep_v30 (P5 m c)).trans (p5_v30 m c)
theorem p6_v31 (c : Dev nD) : P6 m c (Proc.devRef .tc main_v31) = Cert.ReferenceIdeal.ReadP.val_main_v31 (F := F) (m ((c : Thread nD τ).loc main_arg12)) := (k_6_keep_v31 (P5 m c)).trans (p5_v31 m c)
theorem p7_v32 (c : Dev nD) : P7 m c (Proc.devRef .tc main_v32) = Cert.ReferenceIdeal.ReadP.val_main_v32 (F := F) (m ((c : Thread nD τ).loc main_arg12)) := s7_v32 (P6 m c) (m ((c : Thread nD τ).loc main_arg12)) (p6_v28 m c) (p6_c8 m c) (p6_c9 m c)
theorem p7_v30 (c : Dev nD) : P7 m c (Proc.devRef .tc main_v30) = Cert.ReferenceIdeal.ReadP.val_main_v30 (F := F) (m ((c : Thread nD τ).loc main_arg12)) := (k_7_keep_v30 (P6 m c)).trans (p6_v30 m c)
theorem p7_v31 (c : Dev nD) : P7 m c (Proc.devRef .tc main_v31) = Cert.ReferenceIdeal.ReadP.val_main_v31 (F := F) (m ((c : Thread nD τ).loc main_arg12)) := (k_7_keep_v31 (P6 m c)).trans (p6_v31 m c)

set_option maxHeartbeats 8000000 in
/-- The first eight stretches leave argument 0 as launched. -/
theorem p7_arg0 (c : Dev nD) : P7 m c (Proc.devRef .tc main_arg0) = m ((c : Thread nD τ).loc main_arg0) := by
  unfold P7 P6 P5 P4 P3 P2 P1 P0
  simp only [hostOps0, hostOps0_1, hostOps0_2, hostOps0_3, hostOps0_4, hostOps0_5, hostOps0_6, hostOps0_7]
  after_results_simp
  try rfl

set_option maxHeartbeats 8000000 in
/-- The first eight stretches leave argument 1 as launched. -/
theorem p7_arg1 (c : Dev nD) : P7 m c (Proc.devRef .tc main_arg1) = m ((c : Thread nD τ).loc main_arg1) := by
  unfold P7 P6 P5 P4 P3 P2 P1 P0
  simp only [hostOps0, hostOps0_1, hostOps0_2, hostOps0_3, hostOps0_4, hostOps0_5, hostOps0_6, hostOps0_7]
  after_results_simp
  try rfl

set_option maxHeartbeats 8000000 in
/-- The first eight stretches leave argument 13 as launched. -/
theorem p7_arg13 (c : Dev nD) : P7 m c (Proc.devRef .tc main_arg13) = m ((c : Thread nD τ).loc main_arg13) := by
  unfold P7 P6 P5 P4 P3 P2 P1 P0
  simp only [hostOps0, hostOps0_1, hostOps0_2, hostOps0_3, hostOps0_4, hostOps0_5, hostOps0_6, hostOps0_7]
  after_results_simp
  try rfl

/-- The first child's gathered features are the reference's. -/
theorem v39 (c : Dev nD) : V m c main_v39 = Cert.ReferenceIdeal.ReadP.val_main_v39 (F := F) (m ((c : Thread nD τ).loc main_arg0)) (m ((c : Thread nD τ).loc main_arg12)) := by
  show V0 m c (Proc.devRef .tc main_v39) = _
  rw [V0_eq]
  exact s8_v39 (P7 m c) (m ((c : Thread nD τ).loc main_arg0)) (m ((c : Thread nD τ).loc main_arg12)) (p7_arg0 m c) (p7_v31 m c)

/-- The second child's gathered features are the reference's. -/
theorem v46 (c : Dev nD) : V m c main_v46 = Cert.ReferenceIdeal.ReadP.val_main_v46 (F := F) (m ((c : Thread nD τ).loc main_arg0)) (m ((c : Thread nD τ).loc main_arg12)) := by
  show V0 m c (Proc.devRef .tc main_v46) = _
  rw [V0_eq]
  exact s8_v46 (P7 m c) (m ((c : Thread nD τ).loc main_arg0)) (m ((c : Thread nD τ).loc main_arg12)) (p7_arg0 m c) (p7_v32 m c)

/-- The violation array is the reference's. -/
theorem v70 (c : Dev nD) : V m c main_v70 = Cert.ReferenceIdeal.ReadP.val_main_v102 (F := F) (m ((c : Thread nD τ).loc main_arg1)) (m ((c : Thread nD τ).loc main_arg12)) := by
  show V0 m c (Proc.devRef .tc main_v70) = _
  rw [V0_eq]
  exact s8_v70 (P7 m c) (m ((c : Thread nD τ).loc main_arg1)) (m ((c : Thread nD τ).loc main_arg12)) (p7_arg1 m c) (p7_v31 m c) (p7_v32 m c)

/-- The one-bit activity mask is the reference's. -/
theorem v73 (c : Dev nD) : V m c main_v73 = Cert.ReferenceIdeal.ReadP.val_main_v105 (F := F) (m ((c : Thread nD τ).loc main_arg12)) (m ((c : Thread nD τ).loc main_arg13)) := by
  show V0 m c (Proc.devRef .tc main_v73) = _
  rw [V0_eq]
  exact s8_v73 (P7 m c) (m ((c : Thread nD τ).loc main_arg12)) (m ((c : Thread nD τ).loc main_arg13)) (p7_arg13 m c) (p7_v30 m c)

end Cert.KPrefix

end
-- ==== Proof.LibMask.lean ====
/-
  A one-bit flag carried through a float. A flag converted to a float is the real 0 or 1; comparing it with one half
  gives the flag back. The 32-bit pattern `0x3F000000` is the real one half.
-/
import Idealize.ShloMosaic.PureOps.Ideal
import Idealize.ShloMosaic.PureOps.Ideal.Laws
import Idealize.ShloMosaic.Lib.IdealHost

noncomputable section

namespace Mask

open Idealize.ShloMosaic

/-- The f32 pattern `0x3F000000` is the real one half. -/
theorem ofBits_half_f32 : Ideal.ofBits .f32 0x3F000000#32 = (((1 : ℝ) / 2 : ℝ) : EReal) := by
  simp [Ideal.ofBits, Ideal.ieee, -EReal.coe_mul]; norm_num

/-- A one-bit word is zero or one. -/
theorem bit_cases (b : BitVec 1) : b = 0#1 ∨ b = 1#1 := by
  revert b; decide

/-- A flag converted to a float (the unsigned reading of its bit) exceeds one half exactly when it is set: the
    comparison returns the flag. -/
theorem cmp_uitofp_half (b : BitVec 1) :
    Ideal.cmp .ogt (FloatOps.uitofp (F := Ideal) .f32 b) (Ideal.ofBits .f32 0x3F000000#32) = b := by
  show Ideal.cmp .ogt (((b.toNat : ℝ)) : EReal) _ = b
  rw [ofBits_half_f32]
  rcases bit_cases b with rfl | rfl
  · have h : ¬((((1 : ℝ) / 2 : ℝ) : EReal) < (((0#1 : BitVec 1).toNat : ℝ) : EReal)) := by
      rw [EReal.coe_lt_coe_iff]; norm_num
    simp only [Ideal.cmp, h, decide_false]; rfl
  · have h : ((((1 : ℝ) / 2 : ℝ) : EReal) < (((1#1 : BitVec 1).toNat : ℝ) : EReal)) := by
      rw [EReal.coe_lt_coe_iff]; norm_num
    simp only [Ideal.cmp, h, decide_true]; rfl

end Mask

end
-- ==== Proof.KArgs.lean ====
/-
  What the region finds, in terms of the arguments. At the extended reals a change of float format is the identity, so
  the staged weight matrices are the argument matrices; a bias recast as one row and read along that row is the bias;
  the violation column read down its rows is the violation array; and the activity column, a one-bit mask turned into a
  float, exceeds one half exactly where the mask is set.
-/
import proofs.«144948_j85856396247188_2_alg».proof.Proof.KFinal
import proofs.«144948_j85856396247188_2_alg».proof.Proof.KPrefix
import proofs.«144948_j85856396247188_2_alg».proof.Proof.LibMask
import Idealize.ShloMosaic.Lib.ValueLayout

noncomputable section

namespace Cert.KArgs

open Idealize.ShloMosaic Idealize.ShloMosaic.TcCoe Idealize.SL.Sem Idealize.ShloMosaic.ValueIdx
open Cert.KernelIdeal Cert.KernelIdeal.Gen Cert.KFinal

variable (m : (ℓ : Loc nD τ sig) → Buf (Elt Ideal) ℓ)

/-- At the extended reals the change of float format is the identity. -/
theorem truncf_id {s : Shape} (x : FVec Ideal s .f32) (h : FTy.bits .bf16 < FTy.bits .f32) : truncf .bf16 x h = x := rfl

/-- A bias recast as one row, read along that row, is the bias. -/
theorem bias_row {a : ℕ} (x : (⟨1, ![a]⟩ : Shape).Idx → EReal) (h : (⟨1, ![a]⟩ : Shape).ShapeCasts ⟨2, ![1, a]⟩) :
    (fun j : (⟨1, ![a]⟩ : Shape).Idx => shapeCast ⟨2, ![1, a]⟩ x h (ix2 (0 : Fin 1) (j 0))) = x := by
  funext j
  obtain ⟨r, rfl⟩ : ∃ r : Fin a, j = ix1 r := ⟨j 0, eq_ix1 j⟩
  exact shapeCast_a_1a_apply x h (0 : Fin 1) r

/-- The weights and biases the region finds are the arguments. -/
theorem Wk_eq (c : Dev nD) :
    Wk m c = ⟨(m ((c : Thread nD τ).loc main_arg2)), (m ((c : Thread nD τ).loc main_arg3)), (m ((c : Thread nD τ).loc main_arg4)), (m ((c : Thread nD τ).loc main_arg5)), (m ((c : Thread nD τ).loc main_arg6)), (m ((c : Thread nD τ).loc main_arg7)), (m ((c : Thread nD τ).loc main_arg8)), (m ((c : Thread nD τ).loc main_arg9)), (m ((c : Thread nD τ).loc main_arg10)), (m ((c : Thread nD τ).loc main_arg11))⟩ := by
  unfold Wk
  rw [Cert.KPrefix.v77, Cert.KPrefix.v78, Cert.KPrefix.v79, Cert.KPrefix.v80, Cert.KPrefix.v81, Cert.KPrefix.v82,
    Cert.KPrefix.v83, Cert.KPrefix.v84, Cert.KPrefix.v85, Cert.KPrefix.v86]
  congr 1 <;> first | rfl | exact bias_row _ _

/-- The violation of node `r` is the violation array at `r`. -/
theorem violK_eq (c : Dev nD) : violK m c = V m c main_v70 := by
  funext i
  obtain ⟨r, rfl⟩ : ∃ r : Fin 300000, i = ix1 r := ⟨i 0, eq_ix1 i⟩
  unfold violK
  rw [Cert.KPrefix.v74]
  exact Keepdims.shapeCast_a_a1_apply _ _ r (0 : Fin 1)

/-- Node `r` is active exactly where the one-bit mask is set. -/
theorem actK_eq (c : Dev nD) : actK m c = V m c main_v73 := by
  funext i
  obtain ⟨r, rfl⟩ : ∃ r : Fin 300000, i = ix1 r := ⟨i 0, eq_ix1 i⟩
  unfold actK
  rw [Cert.KPrefix.v76]
  refine (congrArg (fun z => Ideal.cmp .ogt z Cert.KRow.half32) (Keepdims.shapeCast_a_a1_apply _ _ r (0 : Fin 1))).trans ?_
  exact Mask.cmp_uitofp_half (V m c main_v73 (ix1 r))

end Cert.KArgs

end
-- ==== Proof.RefSide.lean ====
/-
  The reference program's three results, read as the specification's values.

  The reference lays each node's parent row and its two gathered child rows side by side, runs the two
  perceptrons on the 192 features as matrix products with a bias and a rectifier, gates the correction by the
  activity flag and the violation threshold, adds a tenth of the gated correction times the hyperbolic tangent
  of the parent features, and averages the violations and the compliances over the active nodes. Each stage of
  the generated reading of the program is identified, index by index, with the corresponding definition of the
  specification; the gathered arrays, the violations and the activity flags stay folded.
-/
import proofs.«144948_j85856396247188_2_alg».proof.Proof.RefReadP
import proofs.«144948_j85856396247188_2_alg».proof.Proof.Spec
import proofs.«144948_j85856396247188_2_alg».proof.Proof.LibSums
import Idealize.ShloMosaic.Lib.ValueIdx
import Idealize.ShloMosaic.Lib.Pipeline.Value
import Idealize.ShloMosaic.PureOps.Ideal.Laws
import Idealize.ShloMosaic.Lib.IdealHost
import Idealize.ShloMosaic.PureOps.Reduce

noncomputable section

namespace Cert.RefSide

open Cert.ReferenceIdeal Cert.ReferenceIdeal.Gen Cert.ReferenceIdeal.ReadP Idealize.ShloMosaic Idealize.ShloMosaic.ValueIdx

/-! ## Indices of a rank-one shape -/

/-- The indices of a rank-one shape are its coordinates. -/
def idxEquiv1 {n : Nat} : Fin n ≃ (⟨1, ![n]⟩ : Shape).Idx :=
  ⟨fun r => ix1 r, fun j => j 0, fun _ => rfl, fun j => (eq_ix1 j).symm⟩

/-- A sum over the indices of a rank-one shape is the sum over its coordinate. -/
theorem sum_idx1 {M : Type*} [AddCommMonoid M] {n : Nat} (g : (⟨1, ![n]⟩ : Shape).Idx → M) :
    ∑ j, g j = ∑ r : Fin n, g (ix1 r) :=
  (Equiv.sum_comp idxEquiv1 g).symm

/-- A commutative, associative fold over all indices of a rank-one shape is the fold over its coordinate. -/
theorem fold_idx1 {α : Type} (op : α → α → α) [Std.Commutative op] [Std.Associative op] (b : α) {n : Nat}
    (x : (⟨1, ![n]⟩ : Shape).Idx → α) :
    (Finset.univ : Finset (⟨1, ![n]⟩ : Shape).Idx).fold op b x
      = (Finset.univ : Finset (Fin n)).fold op b (fun r => x (ix1 r)) := by
  rw [← Finset.map_univ_equiv (idxEquiv1 (n := n)), Finset.fold_map]
  rfl

/-- A reduction of a rank-one array over its one axis to a scalar folds every element: every index drops to the
    scalar's one index. -/
theorem reduce_all {α : Type} (f : α → α → α) [Std.Commutative f] [Std.Associative f] (x : S300000.Idx → α)
    (init : S_.Idx → α) (h : S300000.ReducesTo [0] S_) (hu : 0 < S_.numel) (j : S_.Idx) :
    Host.reduce f x init h hu j
      = (Finset.univ : Finset (Fin 300000)).fold f (init (Shape.Idx.first hu)) (fun r => x (ix1 r)) := by
  rw [Host.reduce_eq_fold, Finset.filter_true_of_mem (fun i _ => funext fun b => b.elim0)]
  exact fold_idx1 f _ x

/-! ## The combined row -/

/-- Row `r`, column `k` of the three feature arrays laid side by side is the combined row of the specification:
    the parent's feature for `k < 64`, the first child's for `64 ≤ k < 128`, the second child's beyond. -/
theorem v47_apply (x0 : (⟨S300000x64, .f32⟩ : BufTy).Contents (Elt Ideal)) (x12 : (⟨S2x3000000, .i32⟩ : BufTy).Contents (Elt Ideal)) (r : Fin 300000) (k : Fin 192) :
    val_main_v47 (F := Ideal) x0 x12 (ix2 r k) = (Spec.cmb x0 (val_main_v39 (F := Ideal) x0 x12) (val_main_v46 (F := Ideal) x0 x12) r) k := by
  unfold val_main_v47 Spec.cmb
  generalize val_main_v39 (F := Ideal) x0 x12 = c1
  generalize val_main_v46 (F := Ideal) x0 x12 = c2
  by_cases h1 : k.val < 64
  · rw [dif_pos h1]
    refine concatenate_apply_piece (t := S300000x192) 1 [⟨S300000x64, x0⟩, ⟨S300000x64, c1⟩, ⟨S300000x64, c2⟩]
      concatenates_S300000x64_S300000x64_S300000x64_S300000x192_d1 (ix2 r k) 0 (by simp) S300000x64 x0 rfl rfl 0 rfl
      (ix2 r ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 128
    · rw [dif_pos h2]
      refine concatenate_apply_piece (t := S300000x192) 1 [⟨S300000x64, x0⟩, ⟨S300000x64, c1⟩, ⟨S300000x64, c2⟩]
        concatenates_S300000x64_S300000x64_S300000x64_S300000x192_d1 (ix2 r k) 1 (by simp) S300000x64 c1 rfl rfl 64 rfl
        (ix2 r ⟨k.val - 64, by omega⟩) (fun b hb => ?_) ?_
      · match b with
        | ⟨0, _⟩ => rfl
        | ⟨1, _⟩ => exact absurd rfl hb
      · show 64 + (k.val - 64) = k.val
        omega
    · rw [dif_neg h2]
      refine concatenate_apply_piece (t := S300000x192) 1 [⟨S300000x64, x0⟩, ⟨S300000x64, c1⟩, ⟨S300000x64, c2⟩]
        concatenates_S300000x64_S300000x64_S300000x64_S300000x192_d1 (ix2 r k) 2 (by simp) S300000x64 c2 rfl rfl 128 rfl
        (ix2 r ⟨k.val - 128, by have := k.isLt; omega⟩) (fun b hb => ?_) ?_
      · match b with
        | ⟨0, _⟩ => rfl
        | ⟨1, _⟩ => exact absurd rfl hb
      · show 128 + (k.val - 128) = k.val
        omega

/-! ## The radius corrector -/

/-- The first hidden layer of the corrector at node `r`, unit `j`: the rectified product of the combined row with
    column `j` of the weights plus the bias. -/
theorem v52_apply (x0 : (⟨S300000x64, .f32⟩ : BufTy).Contents (Elt Ideal)) (x12 : (⟨S2x3000000, .i32⟩ : BufTy).Contents (Elt Ideal)) (W : Spec.Weights) (r : Fin 300000) (j : Fin 64) :
    val_main_v52 (F := Ideal) x0 W.w1 W.b1 x12 (ix2 r j) = Spec.hid1 W (Spec.cmb x0 (val_main_v39 (F := Ideal) x0 x12) (val_main_v46 (F := Ideal) x0 x12) r) j := by
  rw [val_main_v52_apply, val_main_v51_apply, val_main_v48_apply, val_main_v50_apply, val_main_v49_apply,
    val_main_call4_v0_apply, val_main_call4_cst_apply]
  have hs : ∀ k : Fin 192, val_main_v47 (F := Ideal) x0 x12 (lidx_main_v48 (ix2 r j) k) * W.w1 (ridx_main_v48 (ix2 r j) k)
      = (Spec.cmb x0 (val_main_v39 (F := Ideal) x0 x12) (val_main_v46 (F := Ideal) x0 x12) r) k * W.w1 (ix2 k j) := fun k => by
    rw [show lidx_main_v48 (ix2 r j) k = ix2 r k from funext fun a => by match a with | ⟨0, _⟩ => rfl | ⟨1, _⟩ => rfl,
      show ridx_main_v48 (ix2 r j) k = ix2 k j from funext fun a => by match a with | ⟨0, _⟩ => rfl | ⟨1, _⟩ => rfl, v47_apply]
  rw [Finset.sum_congr rfl fun k _ => hs k,
    show idx_main_v49 (idx_main_v50 (ix2 r j)) = ix1 j from funext fun a => by match a with | ⟨0, _⟩ => rfl]
  rfl

/-- The second hidden layer of the corrector at node `r`, unit `j`. -/
theorem v57_apply (x0 : (⟨S300000x64, .f32⟩ : BufTy).Contents (Elt Ideal)) (x12 : (⟨S2x3000000, .i32⟩ : BufTy).Contents (Elt Ideal)) (W : Spec.Weights) (r : Fin 300000) (j : Fin 32) :
    val_main_v57 (F := Ideal) x0 W.w1 W.b1 W.w2 W.b2 x12 (ix2 r j) = Spec.hid2 W (Spec.cmb x0 (val_main_v39 (F := Ideal) x0 x12) (val_main_v46 (F := Ideal) x0 x12) r) j := by
  rw [val_main_v57_apply, val_main_v56_apply, val_main_v53_apply, val_main_v55_apply, val_main_v54_apply,
    val_main_call5_v0_apply, val_main_call5_cst_apply]
  have hs : ∀ k : Fin 64, val_main_v52 (F := Ideal) x0 W.w1 W.b1 x12 (lidx_main_v53 (ix2 r j) k) * W.w2 (ridx_main_v53 (ix2 r j) k)
      = Spec.hid1 W (Spec.cmb x0 (val_main_v39 (F := Ideal) x0 x12) (val_main_v46 (F := Ideal) x0 x12) r) k * W.w2 (ix2 k j) := fun k => by
    rw [show lidx_main_v53 (ix2 r j) k = ix2 r k from funext fun a => by match a with | ⟨0, _⟩ => rfl | ⟨1, _⟩ => rfl,
      show ridx_main_v53 (ix2 r j) k = ix2 k j from funext fun a => by match a with | ⟨0, _⟩ => rfl | ⟨1, _⟩ => rfl, v52_apply]
  rw [Finset.sum_congr rfl fun k _ => hs k,
    show idx_main_v54 (idx_main_v55 (ix2 r j)) = ix1 j from funext fun a => by match a with | ⟨0, _⟩ => rfl]
  rfl

/-- The correction of node `r`: the last, linear, layer, read off its one column. -/
theorem v62_apply (x0 : (⟨S300000x64, .f32⟩ : BufTy).Contents (Elt Ideal)) (x12 : (⟨S2x3000000, .i32⟩ : BufTy).Contents (Elt Ideal)) (W : Spec.Weights) (r : Fin 300000) :
    val_main_v62 (F := Ideal) x0 W.w1 W.b1 W.w2 W.b2 W.w3 W.b3 x12 (ix1 r) = Spec.corr W (Spec.cmb x0 (val_main_v39 (F := Ideal) x0 x12) (val_main_v46 (F := Ideal) x0 x12) r) := by
  rw [val_main_v62_apply,
    show idx_main_v62 (ix1 r) = ix2 r (0 : Fin 1) from
      funext fun a => Fin.ext (by match a with | ⟨0, _⟩ => exact Nat.div_one _ | ⟨1, _⟩ => rfl),
    val_main_v61_apply, val_main_v58_apply, val_main_v60_apply, val_main_v59_apply]
  have hs : ∀ k : Fin 32, val_main_v57 (F := Ideal) x0 W.w1 W.b1 W.w2 W.b2 x12 (lidx_main_v58 (ix2 r (0 : Fin 1)) k)
        * W.w3 (ridx_main_v58 (ix2 r (0 : Fin 1)) k)
      = Spec.hid2 W (Spec.cmb x0 (val_main_v39 (F := Ideal) x0 x12) (val_main_v46 (F := Ideal) x0 x12) r) k * W.w3 (ix2 k (0 : Fin 1)) := fun k => by
    rw [show lidx_main_v58 (ix2 r (0 : Fin 1)) k = ix2 r k from funext fun a => by match a with | ⟨0, _⟩ => rfl | ⟨1, _⟩ => rfl,
      show ridx_main_v58 (ix2 r (0 : Fin 1)) k = ix2 k (0 : Fin 1) from funext fun a => by match a with | ⟨0, _⟩ => rfl | ⟨1, _⟩ => rfl, v57_apply]
  rw [Finset.sum_congr rfl fun k _ => hs k,
    show idx_main_v59 (idx_main_v60 (ix2 r (0 : Fin 1))) = ix1 (0 : Fin 1) from funext fun a => by match a with | ⟨0, _⟩ => rfl]
  rfl

/-! ## The compliance predictor -/

/-- The hidden layer of the predictor at node `r`, unit `j`. -/
theorem v67_apply (x0 : (⟨S300000x64, .f32⟩ : BufTy).Contents (Elt Ideal)) (x12 : (⟨S2x3000000, .i32⟩ : BufTy).Contents (Elt Ideal)) (W : Spec.Weights) (r : Fin 300000) (j : Fin 64) :
    val_main_v67 (F := Ideal) x0 W.u1 W.d1 x12 (ix2 r j) = Spec.hidc W (Spec.cmb x0 (val_main_v39 (F := Ideal) x0 x12) (val_main_v46 (F := Ideal) x0 x12) r) j := by
  rw [val_main_v67_apply, val_main_v66_apply, val_main_v63_apply, val_main_v65_apply, val_main_v64_apply,
    val_main_call6_v0_apply, val_main_call6_cst_apply]
  have hs : ∀ k : Fin 192, val_main_v47 (F := Ideal) x0 x12 (lidx_main_v63 (ix2 r j) k) * W.u1 (ridx_main_v63 (ix2 r j) k)
      = (Spec.cmb x0 (val_main_v39 (F := Ideal) x0 x12) (val_main_v46 (F := Ideal) x0 x12) r) k * W.u1 (ix2 k j) := fun k => by
    rw [show lidx_main_v63 (ix2 r j) k = ix2 r k from funext fun a => by match a with | ⟨0, _⟩ => rfl | ⟨1, _⟩ => rfl,
      show ridx_main_v63 (ix2 r j) k = ix2 k j from funext fun a => by match a with | ⟨0, _⟩ => rfl | ⟨1, _⟩ => rfl, v47_apply]
  rw [Finset.sum_congr rfl fun k _ => hs k,
    show idx_main_v64 (idx_main_v65 (ix2 r j)) = ix1 j from funext fun a => by match a with | ⟨0, _⟩ => rfl]
  rfl

/-- The compliance of node `r`: the program writes the logistic function as one over one plus the exponential of
    the negated linear output, with the bit pattern of one for both ones; that is the logistic function. -/
theorem v78_apply (x0 : (⟨S300000x64, .f32⟩ : BufTy).Contents (Elt Ideal)) (x12 : (⟨S2x3000000, .i32⟩ : BufTy).Contents (Elt Ideal)) (W : Spec.Weights) (r : Fin 300000) :
    val_main_v78 (F := Ideal) x0 W.u1 W.d1 W.u2 W.d2 x12 (ix1 r) = Spec.compl W (Spec.cmb x0 (val_main_v39 (F := Ideal) x0 x12) (val_main_v46 (F := Ideal) x0 x12) r) := by
  rw [val_main_v78_apply,
    show idx_main_v78 (ix1 r) = ix2 r (0 : Fin 1) from
      funext fun a => Fin.ext (by match a with | ⟨0, _⟩ => exact Nat.div_one _ | ⟨1, _⟩ => rfl),
    val_main_v77_apply, val_main_v76_apply, val_main_cst_14_apply, val_main_v75_apply, val_main_v74_apply,
    val_main_cst_apply, val_main_v73_apply, val_main_v72_apply, val_main_v71_apply, val_main_v68_apply,
    val_main_v70_apply, val_main_v69_apply]
  have hs : ∀ k : Fin 64, val_main_v67 (F := Ideal) x0 W.u1 W.d1 x12 (lidx_main_v68 (ix2 r (0 : Fin 1)) k)
        * W.u2 (ridx_main_v68 (ix2 r (0 : Fin 1)) k)
      = Spec.hidc W (Spec.cmb x0 (val_main_v39 (F := Ideal) x0 x12) (val_main_v46 (F := Ideal) x0 x12) r) k * W.u2 (ix2 k (0 : Fin 1)) := fun k => by
    rw [show lidx_main_v68 (ix2 r (0 : Fin 1)) k = ix2 r k from funext fun a => by match a with | ⟨0, _⟩ => rfl | ⟨1, _⟩ => rfl,
      show ridx_main_v68 (ix2 r (0 : Fin 1)) k = ix2 k (0 : Fin 1) from funext fun a => by match a with | ⟨0, _⟩ => rfl | ⟨1, _⟩ => rfl, v67_apply]
  rw [Finset.sum_congr rfl fun k _ => hs k,
    show idx_main_v69 (idx_main_v70 (ix2 r (0 : Fin 1))) = ix1 (0 : Fin 1) from funext fun a => by match a with | ⟨0, _⟩ => rfl]
  show Ideal.div (Ideal.ofBits .f32 0x3F800000#32) (Ideal.ofBits .f32 0x3F800000#32 + Ideal.exp (-_)) = _
  rw [Ideal.ofBits_one_f32]
  rfl

/-! ## The first result -/

/-- The updated features: at every node and feature the reference computes the parent feature plus a tenth of
    the gated correction times the feature's hyperbolic tangent. -/
theorem ref_upd (x0 : (⟨S300000x64, .f32⟩ : BufTy).Contents (Elt Ideal)) (x1 : (⟨S300000, .f32⟩ : BufTy).Contents (Elt Ideal)) (x2 : (⟨S192x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) (x8 : (⟨S192x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal)) (x12 : (⟨S2x3000000, .i32⟩ : BufTy).Contents (Elt Ideal)) (x13 : (⟨S300000, .i32⟩ : BufTy).Contents (Elt Ideal)) :
    val_main_v116 (F := Ideal) x0 x1 x2 x3 x4 x5 x6 x7 x12 x13
      = Spec.updArr x0 (val_main_v39 (F := Ideal) x0 x12) (val_main_v46 (F := Ideal) x0 x12) (val_main_v102 (F := Ideal) x1 x12) (val_main_v105 (F := Ideal) x12 x13) (⟨x2, x3, x4, x5, x6, x7, x8, x9, x10, x11⟩ : Spec.Weights) := by
  funext i
  obtain ⟨r, f, rfl⟩ : ∃ (r : Fin 300000) (f : Fin 64), i = ix2 r f := ⟨i 0, i 1, eq_ix2 i⟩
  rw [val_main_v116_apply, val_main_v115_apply, val_main_v114_apply, val_main_v112_apply, val_main_v111_apply,
    val_main_cst_22_apply, val_main_v110_apply, val_main_v109_apply, val_main_v108_apply, val_main_v107_apply,
    val_main_v106_apply, val_main_cst_20_apply, val_main_call7_v1_apply, val_main_call7_v0_apply,
    val_main_cst_21_apply, val_main_v113_apply,
    show idx_main_v110 (idx_main_v114 (ix2 r f)) = ix1 r from funext fun a => by match a with | ⟨0, _⟩ => rfl,
    v62_apply x0 x12 (⟨x2, x3, x4, x5, x6, x7, x8, x9, x10, x11⟩ : Spec.Weights) r]
  rfl

/-! ## The two averages -/

/-- The sum of the violations over the active nodes: the reference's sum starts from the zero pattern and adds,
    node by node, the violation where the node is active and the zero pattern elsewhere. -/
theorem ref_numv (x1 : (⟨S300000, .f32⟩ : BufTy).Contents (Elt Ideal)) (x12 : (⟨S2x3000000, .i32⟩ : BufTy).Contents (Elt Ideal)) (x13 : (⟨S300000, .i32⟩ : BufTy).Contents (Elt Ideal)) (i : S_.Idx) :
    val_main_v121 (F := Ideal) x1 x12 x13 i = Spec.msum (val_main_v105 (F := Ideal) x12 x13) (fun r => (val_main_v102 (F := Ideal) x1 x12) (ix1 r)) := by
  rw [val_main_v121_apply, val_main_cst_26_apply, Ideal.ofBits_def, Ideal.ofBits_zero_f32, zero_add, sum_idx1]
  unfold Spec.msum
  refine Finset.sum_congr rfl fun r _ => ?_
  rw [val_main_v120_apply, val_main_call8_v1_apply, val_main_call8_v0_apply, val_main_cst_25_apply]
  rfl

/-- The sum of the compliances over the active nodes. -/
theorem ref_numc (x0 : (⟨S300000x64, .f32⟩ : BufTy).Contents (Elt Ideal)) (x12 : (⟨S2x3000000, .i32⟩ : BufTy).Contents (Elt Ideal)) (x13 : (⟨S300000, .i32⟩ : BufTy).Contents (Elt Ideal)) (W : Spec.Weights) (i : S_.Idx) :
    val_main_v125 (F := Ideal) x0 W.u1 W.d1 W.u2 W.d2 x12 x13 i
      = Spec.msum (val_main_v105 (F := Ideal) x12 x13) (fun r => Spec.compl W (Spec.cmb x0 (val_main_v39 (F := Ideal) x0 x12) (val_main_v46 (F := Ideal) x0 x12) r)) := by
  rw [val_main_v125_apply, val_main_cst_28_apply, Ideal.ofBits_def, Ideal.ofBits_zero_f32, zero_add, sum_idx1]
  unfold Spec.msum
  refine Finset.sum_congr rfl fun r _ => ?_
  rw [val_main_v124_apply, val_main_call9_v1_apply, val_main_call9_v0_apply, val_main_cst_27_apply, v78_apply]
  rfl

/-- The divisor: the reference counts the active nodes in 32-bit integers, floors the count at one and converts
    it to a float; that is the count in floats floored at one, since 300000 flags cannot overflow a signed word. -/
theorem ref_cnt (x12 : (⟨S2x3000000, .i32⟩ : BufTy).Contents (Elt Ideal)) (x13 : (⟨S300000, .i32⟩ : BufTy).Contents (Elt Ideal)) (i : S_.Idx) :
    FloatOps.sitofp (F := Ideal) .f32 (val_main_v119 (F := Ideal) x12 x13 i) = max (Spec.cnt (val_main_v105 (F := Ideal) x12 x13)) Spec.one32 := by
  rw [val_main_v119_apply, val_main_c_24_apply]
  unfold val_main_v118
  rw [reduce_all, val_main_c_23_apply]
  exact Cert.LibSums.count_cast_lit (ι := Fin 300000) (by rw [Fintype.card_fin]; decide) (fun k => (val_main_v105 (F := Ideal) x12 x13) (ix1 k))

/-- The second result: the mean violation over the active nodes. -/
theorem ref_avgv (x1 : (⟨S300000, .f32⟩ : BufTy).Contents (Elt Ideal)) (x12 : (⟨S2x3000000, .i32⟩ : BufTy).Contents (Elt Ideal)) (x13 : (⟨S300000, .i32⟩ : BufTy).Contents (Elt Ideal)) :
    val_main_v123 (F := Ideal) x1 x12 x13 = fun _ => Spec.avgViol (val_main_v102 (F := Ideal) x1 x12) (val_main_v105 (F := Ideal) x12 x13) := by
  funext i
  rw [val_main_v123_apply, val_main_v122_apply, ref_numv, ref_cnt]
  rfl

/-- The third result: the mean compliance over the active nodes. -/
theorem ref_avgc (x0 : (⟨S300000x64, .f32⟩ : BufTy).Contents (Elt Ideal)) (x2 : (⟨S192x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) (x8 : (⟨S192x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal)) (x12 : (⟨S2x3000000, .i32⟩ : BufTy).Contents (Elt Ideal)) (x13 : (⟨S300000, .i32⟩ : BufTy).Contents (Elt Ideal)) :
    val_main_v127 (F := Ideal) x0 x8 x9 x10 x11 x12 x13
      = fun _ => Spec.avgCompl x0 (val_main_v39 (F := Ideal) x0 x12) (val_main_v46 (F := Ideal) x0 x12) (val_main_v105 (F := Ideal) x12 x13) (⟨x2, x3, x4, x5, x6, x7, x8, x9, x10, x11⟩ : Spec.Weights) := by
  funext i
  rw [val_main_v127_apply, val_main_v126_apply, ref_numc x0 x12 x13 (⟨x2, x3, x4, x5, x6, x7, x8, x9, x10, x11⟩ : Spec.Weights) i, ref_cnt]
  rfl

end Cert.RefSide

end
-- ==== Proof.Bridge.lean ====
/-
  The bridge. The idealized kernel program ends with its three results at the specification's values of the arrays its
  region finds; those arrays are, stage for stage, the arrays the reference computes from the same arguments (the two
  gathered child-feature arrays, the violation array, the activity mask) and the arguments themselves (the weights and
  biases). The reference ends with its three results at the specification's values of its own stages. With the
  arguments of the two programs equal, the two triples of results are therefore equal, and each program leaves its
  arguments unchanged.
-/
import proofs.«144948_j85856396247188_2_alg».proof.Defs
import proofs.«144948_j85856396247188_2_alg».proof.Proof.KFinal
import proofs.«144948_j85856396247188_2_alg».proof.Proof.KArgs
import proofs.«144948_j85856396247188_2_alg».proof.Proof.KPrefix
import proofs.«144948_j85856396247188_2_alg».proof.Proof.RefSide
import proofs.«144948_j85856396247188_2_alg».proof.Proof.RefRun
import proofs.«144948_j85856396247188_2_alg».proof.Proof.Gen.Pre_finite_inputs

noncomputable section

namespace Cert.Bridge

open Idealize.ShloMosaic Idealize.ShloMosaic.TcCoe Idealize.SL.Sem

set_option maxHeartbeats 4000000 in
/-- From equal arguments the two idealized programs end with equal results, and each leaves its arguments unchanged. -/
theorem algebraic : Cert.algebraic_KernelIdeal_ReferenceIdeal := by
  intro m ρ m' ρ' _ hagree
  refine ⟨fun c => Cert.KFinal.G15 m c,
    fun c => (fun _ => Cert.Spec.avgViol (Cert.KFinal.violK m c) (Cert.KFinal.actK m c)),
    fun c => (fun _ => Cert.Spec.avgCompl (Cert.KernelIdeal.Gen.V m c Cert.KernelIdeal.main_arg0) (Cert.KernelIdeal.Gen.V m c Cert.KernelIdeal.main_v39) (Cert.KernelIdeal.Gen.V m c Cert.KernelIdeal.main_v46)
      (Cert.KFinal.actK m c) (Cert.KFinal.Wk m c)),
    Cert.KFinal.run m ρ, ?_⟩
  refine (θ_run Cert.ReferenceIdeal.defs _ _).mono (fun _ h c => ?_) (Cert.RefRun.run (F := Ideal) m' ρ')
  obtain ⟨h116, h123, h127, hargs⟩ := h c
  obtain ⟨e0, e1, e2, e3, e4, e5, e6, e7, e8, e9, e10, e11, e12, e13⟩ := hagree c
  refine ⟨h116.trans ?_, h123.trans ?_, h127.trans ?_, hargs⟩
  · beta_reduce
    rw [e0, e1, e2, e3, e4, e5, e6, e7, e12, e13,
      Cert.RefSide.ref_upd _ _ _ _ _ _ _ _ (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) _ _]
    unfold Cert.KFinal.G15
    rw [Cert.KArgs.Wk_eq, Cert.KArgs.violK_eq, Cert.KArgs.actK_eq, Cert.KPrefix.v39, Cert.KPrefix.v46, Cert.KPrefix.v70,
      Cert.KPrefix.v73, Cert.KernelIdeal.Gen.V_main_arg0]
  · beta_reduce
    rw [e1, e12, e13, Cert.RefSide.ref_avgv, Cert.KArgs.violK_eq, Cert.KArgs.actK_eq, Cert.KPrefix.v70, Cert.KPrefix.v73]
    rfl
  · beta_reduce
    rw [e0, e8, e9, e10, e11, e12, e13,
      Cert.RefSide.ref_avgc _ (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) _ _ _ _ _ _,
      Cert.KArgs.Wk_eq, Cert.KArgs.actK_eq, Cert.KPrefix.v39, Cert.KPrefix.v46, Cert.KPrefix.v73, Cert.KernelIdeal.Gen.V_main_arg0]
    rfl

end Cert.Bridge

end
-- ==== Proof.lean ====
/-
  The proof of `Cert.Claim`: the three frame claims, the (empty) preservation claim, and the algebraic claim that the
  idealized kernel program and the idealized reference compute the same three results from the same arguments.

  The mathematics. Per node, the parent's 64 features and its two children's are laid side by side; a three-layer
  perceptron gives a radius correction and a two-layer one, through the logistic function, a compliance. A node is
  updated (its features plus a tenth of the correction times their hyperbolic tangent) only where it is active and its
  violation exceeds a threshold; the two scalar results are the means of the violations and of the compliances over the
  active nodes. `Proof/Spec.lean` states this once. The kernel computes it 6000 nodes at a time over 50 grid points,
  carrying three one-cell sums; `Proof/KFinal.lean` reads its run as the specification of the arrays its region finds, and
  `Proof/KPrefix.lean`, `Proof/KArgs.lean` identify those arrays with the reference's stages and the arguments. The
  reference computes it in one pass; `Proof/RefSide.lean` reads its stages as the specification and `Proof/RefRun.lean`
  its run as those stages. `Proof/Bridge.lean` joins the two.
-/
import proofs.«144948_j85856396247188_2_alg».proof.Defs
import proofs.«144948_j85856396247188_2_alg».proof.Proof.Gen.Kernel
import proofs.«144948_j85856396247188_2_alg».proof.Proof.Gen.Kernel.Skeleton
import proofs.«144948_j85856396247188_2_alg».proof.Proof.Gen.Kernel.Launch
import proofs.«144948_j85856396247188_2_alg».proof.Proof.Gen.Kernel.Points
import proofs.«144948_j85856396247188_2_alg».proof.Proof.Gen.Kernel.Frame
import proofs.«144948_j85856396247188_2_alg».proof.Proof.Gen.KernelIdeal
import proofs.«144948_j85856396247188_2_alg».proof.Proof.Gen.KernelIdeal.Skeleton
import proofs.«144948_j85856396247188_2_alg».proof.Proof.Gen.KernelIdeal.Launch
import proofs.«144948_j85856396247188_2_alg».proof.Proof.Gen.KernelIdeal.Points
import proofs.«144948_j85856396247188_2_alg».proof.Proof.Gen.KernelIdeal.Frame
import proofs.«144948_j85856396247188_2_alg».proof.Proof.Gen.ReferenceIdeal
import proofs.«144948_j85856396247188_2_alg».proof.Proof.Gen.Pre_finite_inputs
import proofs.«144948_j85856396247188_2_alg».proof.Proof.RefRun
import proofs.«144948_j85856396247188_2_alg».proof.Proof.Bridge
import Idealize.ShloMosaic.Adequacy
import Idealize.ShloMosaic.Init

noncomputable section

namespace Cert.Proof

open Idealize.ShloMosaic Idealize.SL.Sem

/-- The claim: each program runs and leaves its arguments unchanged, and the two idealized programs agree. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.RefRun.run (F := Ideal) m ρ),
  trivial,
  Cert.Bridge.algebraic⟩

end Cert.Proof

end
